-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v116_0)) (v1 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116_0) = v0 c
          ∧ r.2.mem ((c.tc : Thread Cert.KernelIdeal.nD Cert.KernelIdeal.τ).loc Cert.KernelIdeal.main_v117) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S100000 : Shape := ⟨1, ![100000]⟩
abbrev S64x32 : Shape := ⟨2, ![64, 32]⟩
abbrev S64 : Shape := ⟨1, ![64]⟩
abbrev S4x64x64 : Shape := ⟨3, ![4, 64, 64]⟩
abbrev S4x64 : Shape := ⟨2, ![4, 64]⟩
abbrev S6158x64 : Shape := ⟨2, ![6158, 64]⟩
abbrev S6158 : Shape := ⟨1, ![6158]⟩
abbrev S1x64 : Shape := ⟨2, ![1, 64]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S6158x64 : S_.BroadcastsInDim S6158x64 (![] : Fin 0 → Fin S6158x64.rank)
  reducesTo_S6158x64_S_d0_1 : S6158x64.ReducesTo [0, 1] S_
  bcast_S_S6158 : S_.BroadcastsInDim S6158 (![] : Fin 0 → Fin S6158.rank)
  reducesTo_S6158_S_d0 : S6158.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S6158 .f32) (main_arg10 : FVec F S1x64 .f32) (main_arg11 : FVec F S1 .f32) (main_v33 : IVec S_ 1) : IVec S_ 1 :=
  let main_v34 : FVec F S6158 .f32 := Host.absf main_arg9
  let main_cst_12 : FVec F S_ .f32 := constant S_ .f32 0x7F800000#32
  let main_v35 : FVec F S6158 .f32 := broadcastInDim S6158 ![] bcast_S_S6158 main_cst_12
  let main_v36 : IVec S6158 1 := cmpf .olt main_v34 main_v35
  let main_c_13 : IVec S_ 1 := constantI S_ 1 1#1
  let main_v37 : IVec S_ 1 := (fun x v => Host.reduce IntOp.andi x v reducesTo_S6158_S_d0 h_S_) main_v36 main_c_13
  let main_v38 : IVec S_ 1 := andi main_v33 main_v37
  let main_v39 : FVec F S1x64 .f32 := Host.absf main_arg10
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S4x64 .f32) (main_arg7 : FVec F S4x64x64 .f32) (main_arg8 : FVec F S6158x64 .f32) (main_arg9 : FVec F S6158 .f32) (main_arg10 : FVec F S1x64 .f32) (main_arg11 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S6158x64 .f32 := Host.absf main_arg8
  let main_cst_10 : FVec F S_ .f32 := constant S_ .f32 0x7F800000#32
  let main_v30 : FVec F S6158x64 .f32 := broadcastInDim S6158x64 ![] bcast_S_S6158x64 main_cst_10
  let main_v31 : IVec S6158x64 1 := cmpf .olt main_v29 main_v30
  let main_c_11 : IVec S_ 1 := constantI S_ 1 1#1
  let main_v32 : IVec S_ 1 := (fun x v => Host.reduce IntOp.andi x v reducesTo_S6158x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x32 .f32) (main_arg1 : IVec S2x3200000 32) (main_arg2 : IVec S100000 32) (main_arg3 : FVec F S64x32 .f32) (main_arg4 : FVec F S64 .f32) (main_arg5 : FVec F S4x64x64 .f32) (main_arg6 : FVec F S4x64 .f32) (main_arg7 : FVec F S4x64x64 .f32) (main_arg8 : FVec F S6158x64 .f32) (main_arg9 : FVec F S6158 .f32) (main_arg10 : FVec F S1x64 .f32) (main_arg11 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg5
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg6 main_arg7 main_arg8 main_arg9 main_arg10 main_arg11 main_v13 main_v16
-- ==== Kernel.lean ====
abbrev S100000x32 : Shape := ⟨2, ![100000, 32]⟩
abbrev S2x3200000 : Shape := ⟨2, ![2, 3200000]⟩
abbrev S100000 : Shape := ⟨1, ![100000]⟩
abbrev S64x32 : Shape := ⟨2, ![64, 32]⟩
abbrev S64 : Shape := ⟨1, ![64]⟩
abbrev S4x64x64 : Shape := ⟨3, ![4, 64, 64]⟩
abbrev S4x64 : Shape := ⟨2, ![4, 64]⟩
abbrev S6158x64 : Shape := ⟨2, ![6158, 64]⟩
abbrev S6158 : Shape := ⟨1, ![6158]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S32x64 : Shape := ⟨2, ![32, 64]⟩
abbrev S100000x64 : Shape := ⟨2, ![100000, 64]⟩
abbrev S5000x32 : Shape := ⟨2, ![5000, 32]⟩
abbrev S5000x64 : Shape := ⟨2, ![5000, 64]⟩
abbrev S4x1x64 : Shape := ⟨3, ![4, 1, 64]⟩
abbrev S3200000x64 : Shape := ⟨2, ![3200000, 64]⟩
abbrev S1x64x64 : Shape := ⟨3, ![1, 64, 64]⟩
abbrev S64x64 : Shape := ⟨2, ![64, 64]⟩
abbrev S1x1x64 : Shape := ⟨3, ![1, 1, 64]⟩
abbrev S64x1 : Shape := ⟨2, ![64, 1]⟩
abbrev S64x6158 : Shape := ⟨2, ![64, 6158]⟩
abbrev S1x6158 : Shape := ⟨2, ![1, 6158]⟩
abbrev S1x1 : Shape := ⟨2, ![1, 1]⟩

abbrev nBuf : Space → Nat
  | .hbm => 151
  | .vmem => 49
  | .smem => 0
  | _ => 0

abbrev hbmTy0_0 (i : Nat) : BufTy := match i % 128 with
  | 0 => ⟨S100000x32, .f32⟩
  | 1 => ⟨S2x3200000, .i32⟩
  | 2 => ⟨S100000, .i32⟩
  | 3 => ⟨S64x32, .f32⟩
  | 4 => ⟨S64, .f32⟩
  | 5 => ⟨S4x64x64, .f32⟩
  | 6 => ⟨S4x64, .f32⟩
  | 7 => ⟨S4x64x64, .f32⟩
  | 8 => ⟨S6158x64, .f32⟩
  | 9 => ⟨S6158, .f32⟩
  | 10 => ⟨S1x64, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S32x64, .f32⟩
  | 30 => ⟨S32x64, .bf16⟩
  | 31 => ⟨S1x64, .f32⟩
  | 32 => ⟨S100000x64, .f32⟩
  | 33 => ⟨S4x64x64, .f32⟩
  | 34 => ⟨S4x64x64, .bf16⟩
  | 35 => ⟨S4x64x64, .f32⟩
  | 36 => ⟨S4x64x64, .bf16⟩
  | 37 => ⟨S4x1x64, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x64, .f32⟩
  | 47 => ⟨S_, .f32⟩
  | 48 => ⟨S100000x64, .f32⟩
  | 49 => ⟨S3200000x1, .i32⟩
  | 50 => ⟨S100000x64, .f32⟩
  | 51 => ⟨S100000x64, .f32⟩
  | 52 => ⟨S100000x64, .f32⟩
  | 53 => ⟨S1x64x64, .bf16⟩
  | 54 => ⟨S64x64, .bf16⟩
  | 55 => ⟨S1x1x64, .f32⟩
  | 56 => ⟨S1x64, .f32⟩
  | 57 => ⟨S1x64x64, .bf16⟩
  | 58 => ⟨S64x64, .bf16⟩
  | 59 => ⟨S100000x64, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x64, .f32⟩
  | 69 => ⟨S_, .f32⟩
  | 70 => ⟨S100000x64, .f32⟩
  | 71 => ⟨S3200000x1, .i32⟩
  | 72 => ⟨S100000x64, .f32⟩
  | 73 => ⟨S100000x64, .f32⟩
  | 74 => ⟨S100000x64, .f32⟩
  | 75 => ⟨S1x64x64, .bf16⟩
  | 76 => ⟨S64x64, .bf16⟩
  | 77 => ⟨S1x1x64, .f32⟩
  | 78 => ⟨S1x64, .f32⟩
  | 79 => ⟨S1x64x64, .bf16⟩
  | 80 => ⟨S64x64, .bf16⟩
  | 81 => ⟨S100000x64, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000x64, .f32⟩
  | 91 => ⟨S_, .f32⟩
  | 92 => ⟨S100000x64, .f32⟩
  | 93 => ⟨S3200000x1, .i32⟩
  | 94 => ⟨S100000x64, .f32⟩
  | 95 => ⟨S100000x64, .f32⟩
  | 96 => ⟨S100000x64, .f32⟩
  | 97 => ⟨S1x64x64, .bf16⟩
  | 98 => ⟨S64x64, .bf16⟩
  | 99 => ⟨S1x1x64, .f32⟩
  | 100 => ⟨S1x64, .f32⟩
  | 101 => ⟨S1x64x64, .bf16⟩
  | 102 => ⟨S64x64, .bf16⟩
  | 103 => ⟨S100000x64, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S100000x64, .f32⟩
  | 118 => ⟨S100000x64, .f32⟩
  | 119 => ⟨S1x64x64, .bf16⟩
  | 120 => ⟨S64x64, .bf16⟩
  | 121 => ⟨S1x1x64, .f32⟩
  | 122 => ⟨S1x64, .f32⟩
  | 123 => ⟨S1x64x64, .bf16⟩
  | 124 => ⟨S64x64, .bf16⟩
  | 125 => ⟨S100000x64, .f32⟩
  | 126 => ⟨S_, .f32⟩
  | 127 => ⟨S100000, .f32⟩
  | _ => ⟨S100000x32, .f32⟩

abbrev hbmTy0_1 (i : Nat) : BufTy := match i % 128 with
  | 0 => ⟨S_, .f32⟩
  | 1 => ⟨S64, .f32⟩
  | 2 => ⟨S100000x1, .i32⟩
  | 3 => ⟨S64, .f32⟩
  | 4 => ⟨S_, .f32⟩
  | 5 => ⟨S64x64, .f32⟩
  | 6 => ⟨S100000x1, .i32⟩
  | 7 => ⟨S64x64, .f32⟩
  | 8 => ⟨S_, .f32⟩
  | 9 => ⟨S64, .f32⟩
  | 10 => ⟨S64, .f32⟩
  | 11 => ⟨S64x1, .f32⟩
  | 12 => ⟨S64x64, .f32⟩
  | 13 => ⟨S64x64, .f32⟩
  | 14 => ⟨S64x6158, .f32⟩
  | 15 => ⟨S64x6158, .bf16⟩
  | 16 => ⟨S64x1, .f32⟩
  | 17 => ⟨S64x1, .bf16⟩
  | 18 => ⟨S1x6158, .f32⟩
  | 19 => ⟨S1x1, .f32⟩
  | 20 => ⟨S64x6158, .f32⟩
  | 21 => ⟨S64x1, .f32⟩
  | 22 => ⟨S64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .bf16⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .bf16⟩
  | .local _ .vmem, ⟨11, _⟩ => ⟨S1x64, .f32⟩
  | .local _ .vmem, ⟨12, _⟩ => ⟨S64x64, .bf16⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .bf16⟩
  | .local _ .vmem, ⟨20, _⟩ => ⟨S1x64, .f32⟩
  | .local _ .vmem, ⟨21, _⟩ => ⟨S64x64, .bf16⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .bf16⟩
  | .local _ .vmem, ⟨29, _⟩ => ⟨S1x64, .f32⟩
  | .local _ .vmem, ⟨30, _⟩ => ⟨S64x64, .bf16⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x64, .bf16⟩
  | .local _ .vmem, ⟨38, _⟩ => ⟨S1x64, .f32⟩
  | .local _ .vmem, ⟨39, _⟩ => ⟨S64x64, .bf16⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S64x6158, .bf16⟩
  | .local _ .vmem, ⟨44, _⟩ => ⟨S1x6158, .f32⟩
  | .local _ .vmem, ⟨45, _⟩ => ⟨S64x1, .bf16⟩
  | .local _ .vmem, ⟨46, _⟩ => ⟨S1x1, .f32⟩
  | .local _ .vmem, ⟨47, _⟩ => ⟨S64x6158, .f32⟩
  | .local _ .vmem, ⟨48, _⟩ => ⟨S64x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_8 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_11 : Ref sig .tc := ⟨.hbm, 104, rfl⟩
abbrev main_v79 : Ref sig .tc := ⟨.hbm, 105, rfl⟩
abbrev main_v80 : Ref sig .tc := ⟨.hbm, 106, rfl⟩
abbrev main_c_12 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_14 : Ref sig .tc := ⟨.hbm, 126, rfl⟩
abbrev main_v98 : Ref sig .tc := ⟨.hbm, 127, rfl⟩
abbrev main_cst_15 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116_0 : Ref sig .tc := ⟨.hbm, 148, rfl⟩
abbrev main_v116_1 : Ref sig .tc := ⟨.hbm, 149, rfl⟩
abbrev main_v117 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem1_0 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x6158 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x6158 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x1 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x6158 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  transposes_S64x32_S32x64_1_0 : S64x32.Transposes [1, 0] S32x64
  bitsLt_bf16_f32 : FTy.bits .bf16 < FTy.bits .f32
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  transposes_S4x64x64_S4x64x64_0_2_1 : S4x64x64.Transposes [0, 2, 1] S4x64x64
  shapeCasts_S4x64_S4x1x64 : S4x64.ShapeCasts S4x1x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x1x64_S1x1x64_0_0_0 : S4x1x64.Slices ![0, 0, 0] S1x1x64
  shapeCasts_S1x1x64_S1x64 : S1x1x64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x1x64_S1x1x64_1_0_0 : S4x1x64.Slices ![1, 0, 0] S1x1x64
  slices_S4x64x64_S1x64x64_2_0_0 : S4x64x64.Slices ![2, 0, 0] S1x64x64
  slices_S4x1x64_S1x1x64_2_0_0 : S4x1x64.Slices ![2, 0, 0] S1x1x64
  slices_S4x64x64_S1x64x64_3_0_0 : S4x64x64.Slices ![3, 0, 0] S1x64x64
  slices_S4x1x64_S1x1x64_3_0_0 : S4x1x64.Slices ![3, 0, 0] S1x1x64
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S6158x64_S64x6158_1_0 : S6158x64.Transposes [1, 0] S64x6158
  transposes_S1x64_S64x1_1_0 : S1x64.Transposes [1, 0] S64x1
  shapeCasts_S6158_S1x6158 : S6158.ShapeCasts S1x6158
  shapeCasts_S1_S1x1 : S1.ShapeCasts S1x1
  inb_S64x6158_S64x6158_0_0 : ∀ a, (![0, 0] : Fin 2 → Nat) a + S64x6158.size a ≤ S64x6158.size a
  h_S64x6158 : 0 < S64x6158.numel
  shapeCasts_S64x6158_S64x6158 : S64x6158.ShapeCasts S64x6158
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x6158_S1x6158_0_0 : ∀ a, (![0, 0] : Fin 2 → Nat) a + S1x6158.size a ≤ S1x6158.size a
  h_S1x6158 : 0 < S1x6158.numel
  shapeCasts_S1x6158_S1x6158 : S1x6158.ShapeCasts S1x6158
  broadcasts_S1x6158_S64x6158 : S1x6158.Broadcasts S64x6158
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S64x1_S64 : S64x1.ShapeCasts S64
  scatter_S100000_S3200000x1_S3200000_n_0_0_1_wf : ScatterDims.WF S100000 S3200000x1 S3200000 [] [0] [0] 1
  dot_S5000x32_S32x64_S5000x64_1_0_0_1_n_n_wf : DotDims.WF S5000x32 S32x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x6158_S64x6158_1_0_0_1_n_n_wf : DotDims.WF S64x64 S64x6158 S64x6158 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .bf16 = 32 ∨ (Rect.block (s := S64x64) S64x64.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .bf16 = 32 ∨ (Rect.block (s := S64x64) S64x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .bf16 = 32 ∨ (Rect.block (s := S64x64) S64x64.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x64.size a ≤ S64x64.size a
  hwx5_0 : ∀ i : grid5.Coords, EltTy.bits .f32 = 32 ∨ (Rect.block (s := S64x64) S64x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x6158.size a ≤ S64x6158.size a
  hwx5_1 : ∀ i : grid5.Coords, EltTy.bits .bf16 = 32 ∨ (Rect.block (s := S64x6158) S64x6158.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x6158.size a ≤ S1x6158.size a
  hwx5_2 : ∀ i : grid5.Coords, EltTy.bits .f32 = 32 ∨ (Rect.block (s := S1x6158) S1x6158.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x1.size a ≤ S64x1.size a
  hwx5_3 : ∀ i : grid5.Coords, EltTy.bits .bf16 = 32 ∨ (Rect.block (s := S64x1) S64x1.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x6158.size a ≤ S64x6158.size a
  hwx5_5 : ∀ i : grid5.Coords, EltTy.bits .f32 = 32 ∨ (Rect.block (s := S64x6158) S64x6158.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x1.size a ≤ S64x1.size a
  hwx5_6 : ∀ i : grid5.Coords, EltTy.bits .f32 = 32 ∨ (Rect.block (s := S64x1) S64x1.size (cc5_transform_6 i) (hinb5_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x6158_S64x6158_1_0_0_1_n_n : DotDims S64x64 S64x6158 S64x6158 where
  lhsContracting := [1]
  rhsContracting := [0]
  lhsNonContracting := [0]
  rhsNonContracting := [1]
  lhsBatch := []
  rhsBatch := []
  wf := dot_S64x64_S64x6158_S64x6158_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v71) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v90) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v109) S64x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v111) S64x6158.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x6158.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S64x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v115) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v116_0) S64x6158.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v116_1) S64x1.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S100000 : Shape := ⟨1, ![100000]⟩
abbrev S64x32 : Shape := ⟨2, ![64, 32]⟩
abbrev S64 : Shape := ⟨1, ![64]⟩
abbrev S4x64x64 : Shape := ⟨3, ![4, 64, 64]⟩
abbrev S4x64 : Shape := ⟨2, ![4, 64]⟩
abbrev S6158x64 : Shape := ⟨2, ![6158, 64]⟩
abbrev S6158 : Shape := ⟨1, ![6158]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S32x64 : Shape := ⟨2, ![32, 64]⟩
abbrev S100000x64 : Shape := ⟨2, ![100000, 64]⟩
abbrev S3200000x64 : Shape := ⟨2, ![3200000, 64]⟩
abbrev S1x64x64 : Shape := ⟨3, ![1, 64, 64]⟩
abbrev S64x64 : Shape := ⟨2, ![64, 64]⟩
abbrev S64x1 : Shape := ⟨2, ![64, 1]⟩
abbrev S64x6158 : Shape := ⟨2, ![64, 6158]⟩
abbrev S1x6158 : Shape := ⟨2, ![1, 6158]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S100000x32, .f32⟩
  | 1 => ⟨S2x3200000, .i32⟩
  | 2 => ⟨S100000, .i32⟩
  | 3 => ⟨S64x32, .f32⟩
  | 4 => ⟨S64, .f32⟩
  | 5 => ⟨S4x64x64, .f32⟩
  | 6 => ⟨S4x64, .f32⟩
  | 7 => ⟨S4x64x64, .f32⟩
  | 8 => ⟨S6158x64, .f32⟩
  | 9 => ⟨S6158, .f32⟩
  | 10 => ⟨S1x64, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S32x64, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x64, .f32⟩
  | 46 => ⟨S_, .f32⟩
  | 47 => ⟨S100000x64, .f32⟩
  | 48 => ⟨S3200000x1, .i32⟩
  | 49 => ⟨S100000x64, .f32⟩
  | 50 => ⟨S100000x64, .f32⟩
  | 51 => ⟨S100000x64, .f32⟩
  | 52 => ⟨S1x64x64, .f32⟩
  | 53 => ⟨S64x64, .f32⟩
  | 54 => ⟨S64x64, .f32⟩
  | 55 => ⟨S100000x64, .f32⟩
  | 56 => ⟨S1x64, .f32⟩
  | 57 => ⟨S64, .f32⟩
  | 58 => ⟨S1x64, .f32⟩
  | 59 => ⟨S100000x64, .f32⟩
  | 60 => ⟨S100000x64, .f32⟩
  | 61 => ⟨S1x64x64, .f32⟩
  | 62 => ⟨S64x64, .f32⟩
  | 63 => ⟨S64x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x64, .f32⟩
  | 79 => ⟨S_, .f32⟩
  | 80 => ⟨S100000x64, .f32⟩
  | 81 => ⟨S3200000x1, .i32⟩
  | 82 => ⟨S100000x64, .f32⟩
  | 83 => ⟨S100000x64, .f32⟩
  | 84 => ⟨S100000x64, .f32⟩
  | 85 => ⟨S1x64x64, .f32⟩
  | 86 => ⟨S64x64, .f32⟩
  | 87 => ⟨S64x64, .f32⟩
  | 88 => ⟨S100000x64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S1x64x64, .f32⟩
  | 95 => ⟨S64x64, .f32⟩
  | 96 => ⟨S64x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000x64, .f32⟩
  | 112 => ⟨S_, .f32⟩
  | 113 => ⟨S100000x64, .f32⟩
  | 114 => ⟨S3200000x1, .i32⟩
  | 115 => ⟨S100000x64, .f32⟩
  | 116 => ⟨S100000x64, .f32⟩
  | 117 => ⟨S100000x64, .f32⟩
  | 118 => ⟨S1x64x64, .f32⟩
  | 119 => ⟨S64x64, .f32⟩
  | 120 => ⟨S64x64, .f32⟩
  | 121 => ⟨S100000x64, .f32⟩
  | 122 => ⟨S1x64, .f32⟩
  | 123 => ⟨S64, .f32⟩
  | 124 => ⟨S1x64, .f32⟩
  | 125 => ⟨S100000x64, .f32⟩
  | 126 => ⟨S100000x64, .f32⟩
  | 127 => ⟨S1x64x64, .f32⟩
  | _ => ⟨S100000x32, .f32⟩

abbrev hbmTy0_1 (i : Nat) : BufTy := match i % 128 with
  | 0 => ⟨S64x64, .f32⟩
  | 1 => ⟨S64x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x64, .f32⟩
  | 17 => ⟨S_, .f32⟩
  | 18 => ⟨S100000x64, .f32⟩
  | 19 => ⟨S3200000x1, .i32⟩
  | 20 => ⟨S100000x64, .f32⟩
  | 21 => ⟨S100000x64, .f32⟩
  | 22 => ⟨S100000x64, .f32⟩
  | 23 => ⟨S1x64x64, .f32⟩
  | 24 => ⟨S64x64, .f32⟩
  | 25 => ⟨S64x64, .f32⟩
  | 26 => ⟨S100000x64, .f32⟩
  | 27 => ⟨S1x64, .f32⟩
  | 28 => ⟨S64, .f32⟩
  | 29 => ⟨S1x64, .f32⟩
  | 30 => ⟨S100000x64, .f32⟩
  | 31 => ⟨S100000x64, .f32⟩
  | 32 => ⟨S1x64x64, .f32⟩
  | 33 => ⟨S64x64, .f32⟩
  | 34 => ⟨S64x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x64, .f32⟩
  | 41 => ⟨S_, .f32⟩
  | 42 => ⟨S100000, .f32⟩
  | 43 => ⟨S_, .f32⟩
  | 44 => ⟨S64, .f32⟩
  | 45 => ⟨S100000x1, .i32⟩
  | 46 => ⟨S64, .f32⟩
  | 47 => ⟨S_, .f32⟩
  | 48 => ⟨S64x64, .f32⟩
  | 49 => ⟨S100000x1, .i32⟩
  | 50 => ⟨S64x64, .f32⟩
  | 51 => ⟨S_, .f32⟩
  | 52 => ⟨S64, .f32⟩
  | 53 => ⟨S64, .f32⟩
  | 54 => ⟨S64x1, .f32⟩
  | 55 => ⟨S64x64, .f32⟩
  | 56 => ⟨S64x64, .f32⟩
  | 57 => ⟨S64x6158, .f32⟩
  | 58 => ⟨S64x6158, .f32⟩
  | 59 => ⟨S1x6158, .f32⟩
  | 60 => ⟨S64x6158, .f32⟩
  | 61 => ⟨S64x6158, .f32⟩
  | 62 => ⟨S64x1, .f32⟩
  | 63 => ⟨S64x1, .f32⟩
  | 64 => ⟨S1x1, .f32⟩
  | 65 => ⟨S64x1, .f32⟩
  | 66 => ⟨S64x1, .f32⟩
  | 67 => ⟨S64x1, .f32⟩
  | 68 => ⟨S64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_c_5 : Ref sig .tc := ⟨.hbm, 70, rfl⟩
abbrev main_v47 : Ref sig .tc := ⟨.hbm, 71, rfl⟩
abbrev main_v48 : Ref sig .tc := ⟨.hbm, 72, rfl⟩
abbrev main_c_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call2_cst : Ref sig .tc := ⟨.hbm, 99, rfl⟩
abbrev main_call2_v0 : Ref sig .tc := ⟨.hbm, 100, rfl⟩
abbrev main_v73 : Ref sig .tc := ⟨.hbm, 101, rfl⟩
abbrev main_v74 : Ref sig .tc := ⟨.hbm, 102, rfl⟩
abbrev main_c_8 : Ref sig .tc := ⟨.hbm, 103, rfl⟩
abbrev main_v75 : Ref sig .tc := ⟨.hbm, 104, rfl⟩
abbrev main_v76 : Ref sig .tc := ⟨.hbm, 105, rfl⟩
abbrev main_c_9 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_10 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call3_cst : Ref sig .tc := ⟨.hbm, 132, rfl⟩
abbrev main_call3_v0 : Ref sig .tc := ⟨.hbm, 133, rfl⟩
abbrev main_v101 : Ref sig .tc := ⟨.hbm, 134, rfl⟩
abbrev main_v102 : Ref sig .tc := ⟨.hbm, 135, rfl⟩
abbrev main_c_11 : Ref sig .tc := ⟨.hbm, 136, rfl⟩
abbrev main_v103 : Ref sig .tc := ⟨.hbm, 137, rfl⟩
abbrev main_v104 : Ref sig .tc := ⟨.hbm, 138, rfl⟩
abbrev main_c_12 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_13 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_call4_cst : Ref sig .tc := ⟨.hbm, 165, rfl⟩
abbrev main_call4_v0 : Ref sig .tc := ⟨.hbm, 166, rfl⟩
abbrev main_v129 : Ref sig .tc := ⟨.hbm, 167, rfl⟩
abbrev main_v130 : Ref sig .tc := ⟨.hbm, 168, rfl⟩
abbrev main_cst_14 : Ref sig .tc := ⟨.hbm, 169, rfl⟩
abbrev main_v131 : Ref sig .tc := ⟨.hbm, 170, rfl⟩
abbrev main_cst_15 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_16 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_17 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  transposes_S64x64_S64x64_1_0 : S64x64.Transposes [1, 0] S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S6158x64_S64x6158_1_0 : S6158x64.Transposes [1, 0] S64x6158
  bcast_S6158_S1x6158_1 : S6158.BroadcastsInDim S1x6158 (![1] : Fin 1 → Fin S1x6158.rank)
  bcast_S1x6158_S64x6158_0_1 : S1x6158.BroadcastsInDim S64x6158 (![0, 1] : Fin 2 → Fin S64x6158.rank)
  transposes_S1x64_S64x1_1_0 : S1x64.Transposes [1, 0] S64x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S3200000x1_S3200000_n_0_0_1_wf : ScatterDims.WF S100000 S3200000x1 S3200000 [] [0] [0] 1
  dot_S100000x32_S32x64_S100000x64_1_0_0_1_n_n_wf : DotDims.WF S100000x32 S32x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x6158_S64x6158_1_0_0_1_n_n_wf : DotDims.WF S64x64 S64x6158 S64x6158 [1] [0] [0] [1] [] []
  dot_S64x64_S64x1_S64x1_1_0_0_1_n_n_wf : DotDims.WF S64x64 S64x1 S64x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x6158_S64x6158_1_0_0_1_n_n : DotDims S64x64 S64x6158 S64x6158 where
  lhsContracting := [1]
  rhsContracting := [0]
  lhsNonContracting := [0]
  rhsNonContracting := [1]
  lhsBatch := []
  rhsBatch := []
  wf := dot_S64x64_S64x6158_S64x6158_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KernelRun.lean ====
/-
  The idealized kernel's run with every buffer of the final memory named.

  The program is six tiled regions among stretches of host operations. Its generated frame walks the contents of the
  TensorCore's buffers from the launch memory through every stretch and every region, and ends at a last valuation, the
  contents after the final reshape. The frame's own statement keeps of that only "the argument arrays are unchanged".
  Here the same walk is stated with its full conclusion: every weakly fair execution terminates without a fault, and in
  the final memory EVERY unscoped buffer holds what the last valuation gives it. The two results are read from this
  statement.
-/
import proofs.«126712_j22737556865376_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and the final memory holds, at every
    unscoped buffer of every core, the contents the walk through the stretches and regions ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- A buffer that is not scoped is among the unscoped references. -/
theorem mem_unscoped (b : Ref sig .tc) (h : ¬ (Proc.devRef .tc b : DevRef τ sig).isScoped) : Proc.devRef .tc b ∈ Pipeline.ucRefs τ sig :=
  Gen.mem_uc b h

end Cert.KernelIdeal.Named

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«126712_j22737556865376_1_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.Tiles.lean ====
/-
  The dense steps of a graph network, read at one entry, on the extended reals.

  Three entry formulas are fixed here, each a function of whole matrices:
    * denseRelu  x w b   (r, j) = max (sum over k of x(r,k) * w(k,j) + b(j)) 0          -- an encoder: relu(x.w + b)
    * sageStep a h wl wr b (r, j) = max ((sum_k a(r,k) * wl(k,j) + b(j)) + sum_k h(r,k) * wr(k,j)) 0 + h(r,j)
                                                                                        -- one message-passing update with residual
    * affine     g w b   (r, j) = sum over k of g(r,k) * w(k,j) + b(j)                  -- a linear head
  and two spellings of each are read at an entry and shown to be that formula: the TILE spelling (a matrix product into
  a zero accumulator, a bias row spread down the rows, a scalar zero spread for the relu) and the HOST spelling (a
  matrix product with no accumulator, the bias already spread to the full shape). A change of float format is the
  identity on extended reals, so the tile's narrowed operands are the operands. The groupings of the additions are
  the same in both spellings; no law beyond reading a product as a sum is used, so nothing here needs finiteness.
-/
import proofs.«126712_j22737556865376_1_alg».proof.Proof.LibPlainDotGeneral
import Idealize.ShloMosaic.Lib.Pipeline.Value

noncomputable section

namespace Gnn

open Idealize.ShloMosaic Idealize.ShloMosaic.ValueIdx

variable {M K N : Nat}

/-- A matrix of extended reals. -/
abbrev Mat (a b : Nat) := (⟨2, ![a, b]⟩ : Shape).Idx → EReal

/-- Entry (r, j) of relu(x.w + b). -/
def denseRelu (x : Mat M K) (w : Mat K N) (b : Fin N → EReal) (r : Fin M) (j : Fin N) : EReal :=
  max ((∑ k : Fin K, x (ix2 r k) * w (ix2 k j)) + b j) 0

/-- Entry (r, j) of relu(a.wl + b + h.wr) + h: the neighbour mean a and the node's own features h each meet their
    weight matrix, the bias joins the first product, and the node's features are added back after the relu. -/
def sageStep (a h : Mat M K) (wl wr : Mat K K) (b : Fin K → EReal) (r : Fin M) (j : Fin K) : EReal :=
  max (((∑ k : Fin K, a (ix2 r k) * wl (ix2 k j)) + b j) + ∑ k : Fin K, h (ix2 r k) * wr (ix2 k j)) 0 + h (ix2 r j)

/-- Entry (r, j) of g.w + b. -/
def affine (g : Mat M K) (w : Mat K N) (b : Fin N → EReal) (r : Fin M) (j : Fin N) : EReal :=
  (∑ k : Fin K, g (ix2 r k) * w (ix2 k j)) + b j

/-- A row [1, N] spread down M rows, read at (r, j): the row's entry j. -/
theorem rowSpread_apply {α : Type} (b : (⟨2, ![1, N]⟩ : Shape).Idx → α)
    (h : (⟨2, ![1, N]⟩ : Shape).Broadcasts ⟨2, ![M, N]⟩) (r : Fin M) (j : Fin N) :
    broadcastTo ⟨2, ![M, N]⟩ b h (ix2 r j) = b (ix2 ⟨0, Nat.one_pos⟩ j) := by
  refine broadcastTo_apply b h (ix2 r j) (ix2 ⟨0, Nat.one_pos⟩ j) (fun a => ?_)
  match a with
  | ⟨0, _⟩ => show (0 : Nat) = if (1 : Nat) = 1 then 0 else _; rw [if_pos rfl]
  | ⟨1, _⟩ =>
    show j.val = if N = 1 then 0 else j.val
    split
    · have := j.isLt; omega
    · rfl

section Tile

variable {φ₁ φ₂ : FTy} (D : DotDims ⟨2, ![M, K]⟩ ⟨2, ![K, N]⟩ ⟨2, ![M, N]⟩) (hD : PlainDot.IsPlain D)

include hD in
/-- The encoder's tile: product into zero, bias row spread, relu against the spread scalar zero. -/
theorem denseTile_apply (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    maximumf (addf (matmul D none x w (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = denseRelu x w (fun j => b (ix2 ⟨0, Nat.one_pos⟩ j)) r j := by
  show max (FloatOps.matmul D none x w (constant (F := Ideal) ⟨2, ![M, N]⟩ .f32 0x00000000#32) (ix2 r j)
      + broadcastTo ⟨2, ![M, N]⟩ b hb (ix2 r j)) (Ideal.ofBits .f32 0x00000000#32) = _
  rw [PlainDot.matmul_zero_apply D hD, rowSpread_apply, Ideal.ofBits_zero_f32]
  rfl

include hD in
/-- A linear head's tile: product into zero, bias row spread. -/
theorem affineTile_apply (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul D none x w (constant (F := Ideal) ⟨2, ![M, N]⟩ .f32 0x00000000#32)) (broadcastTo ⟨2, ![M, N]⟩ b hb) (ix2 r j)
      = affine x w (fun j => b (ix2 ⟨0, Nat.one_pos⟩ j)) r j := by
  show FloatOps.matmul D none x w (constant (F := Ideal) ⟨2, ![M, N]⟩ .f32 0x00000000#32) (ix2 r j)
      + broadcastTo ⟨2, ![M, N]⟩ b hb (ix2 r j) = _
  rw [PlainDot.matmul_zero_apply D hD, rowSpread_apply]
  rfl

include hD in
/-- The host's encoder: product with no accumulator, the bias given at full shape, relu against a full-shape zero. -/
theorem denseHost_apply (x : FVec Ideal ⟨2, ![M, K]⟩ φ₁) (w : FVec Ideal ⟨2, ![K, N]⟩ φ₂) (bb z : FVec Ideal ⟨2, ![M, N]⟩ .f32)
    (b : Fin N → EReal) (hbb : ∀ r j, bb (ix2 r j) = b j) (hz : ∀ i, z i = 0) (r : Fin M) (j : Fin N) :
    maximumf (addf (Host.dotGeneral D none x w) bb) z (ix2 r j) = denseRelu x w b r j := by
  show max (Host.dotGeneral (F := Ideal) D none x w (ix2 r j) + bb (ix2 r j)) (z (ix2 r j)) = _
  rw [PlainDot.dotGeneral_apply D hD, hbb, hz]
  rfl

include hD in
/-- The host's linear head. -/
theorem affineHost_apply (x : FVec Ideal ⟨2, ![M, K]⟩ φ₁) (w : FVec Ideal ⟨2, ![K, N]⟩ φ₂) (bb : FVec Ideal ⟨2, ![M, N]⟩ .f32)
    (b : Fin N → EReal) (hbb : ∀ r j, bb (ix2 r j) = b j) (r : Fin M) (j : Fin N) :
    addf (Host.dotGeneral D none x w) bb (ix2 r j) = affine x w b r j := by
  show Host.dotGeneral (F := Ideal) D none x w (ix2 r j) + bb (ix2 r j) = _
  rw [PlainDot.dotGeneral_apply D hD, hbb]
  rfl

end Tile

section Square

variable {φ₁ φ₂ φ₃ φ₄ : FTy} (D : DotDims ⟨2, ![M, K]⟩ ⟨2, ![K, K]⟩ ⟨2, ![M, K]⟩) (hD : PlainDot.IsPlain D)

include hD in
/-- The update's tile: two products into zero, the bias row joining the first, relu, then the node's own rows added. -/
theorem sageTile_apply (a : FVec Ideal ⟨2, ![M, K]⟩ φ₁) (hb16 : FVec Ideal ⟨2, ![M, K]⟩ φ₂) (h : FVec Ideal ⟨2, ![M, K]⟩ .f32)
    (hh : ∀ i, hb16 i = h i)
    (wl : FVec Ideal ⟨2, ![K, K]⟩ φ₃) (wr : FVec Ideal ⟨2, ![K, K]⟩ φ₄) (b : FVec Ideal ⟨2, ![1, K]⟩ .f32)
    (hb : (⟨2, ![1, K]⟩ : Shape).Broadcasts ⟨2, ![M, K]⟩) (r : Fin M) (j : Fin K) :
    addf (maximumf (addf (addf (matmul D none a wl (constant (F := Ideal) ⟨2, ![M, K]⟩ .f32 0x00000000#32)) (broadcastTo ⟨2, ![M, K]⟩ b hb))
          (matmul D none hb16 wr (constant (F := Ideal) ⟨2, ![M, K]⟩ .f32 0x00000000#32)))
        (broadcast ⟨2, ![M, K]⟩ (Scalar.ofBits (F := Ideal) .f32 0x00000000#32))) h (ix2 r j)
      = sageStep a h wl wr (fun j => b (ix2 ⟨0, Nat.one_pos⟩ j)) r j := by
  show max ((FloatOps.matmul D none a wl (constant (F := Ideal) ⟨2, ![M, K]⟩ .f32 0x00000000#32) (ix2 r j)
      + broadcastTo ⟨2, ![M, K]⟩ b hb (ix2 r j))
      + FloatOps.matmul D none hb16 wr (constant (F := Ideal) ⟨2, ![M, K]⟩ .f32 0x00000000#32) (ix2 r j)) (Ideal.ofBits .f32 0x00000000#32)
      + h (ix2 r j) = _
  rw [PlainDot.matmul_zero_apply D hD, PlainDot.matmul_zero_apply D hD, rowSpread_apply, Ideal.ofBits_zero_f32]
  unfold sageStep
  simp only [hh]

include hD in
/-- The host's update, the bias and the zero given at full shape. -/
theorem sageHost_apply (a h : FVec Ideal ⟨2, ![M, K]⟩ .f32) (wl wr : FVec Ideal ⟨2, ![K, K]⟩ .f32) (bb z : FVec Ideal ⟨2, ![M, K]⟩ .f32)
    (b : Fin K → EReal) (hbb : ∀ r j, bb (ix2 r j) = b j) (hz : ∀ i, z i = 0) (r : Fin M) (j : Fin K) :
    addf (maximumf (addf (addf (Host.dotGeneral D none a wl) bb) (Host.dotGeneral D none h wr)) z) h (ix2 r j)
      = sageStep a h wl wr b r j := by
  show max ((Host.dotGeneral (F := Ideal) D none a wl (ix2 r j) + bb (ix2 r j)) + Host.dotGeneral (F := Ideal) D none h wr (ix2 r j)) (z (ix2 r j))
      + h (ix2 r j) = _
  rw [PlainDot.dotGeneral_apply D hD, PlainDot.dotGeneral_apply D hD, hbb, hz]
  rfl

end Square

end Gnn

end
-- ==== Proof.Encode.lean ====
/-
  The encoder region: what its output array holds after the region, as one function of the arrays the region finds.

  The region's grid has 20 points; point t stages rows 5000·t … 5000·t + 4999 of the node features, the whole [32, 64]
  weight matrix and the whole [1, 64] bias row, and writes back rows 5000·t … 5000·t + 4999 of the output. The body's
  one store is relu(x_block . w + bias) (the tile spelling of Proof/Tiles.lean), so the block written at point t is
  block t of the whole-array function (r, j) ↦ max (sum_k x(r,k) · w(k,j) + b(j)) 0. The 20 blocks tile the 100000
  rows (row r is in the block of point r / 5000), so the array ends holding that function.
-/
import proofs.«126712_j22737556865376_1_alg».proof.Proof.Gen.KernelIdeal.Frame
import proofs.«126712_j22737556865376_1_alg».proof.Proof.Tiles
import Idealize.ShloMosaic.Lib.Pipeline.Value
import Idealize.ShloMosaic.Lib.Tactic

set_option maxRecDepth 16384

noncomputable section

namespace Cert.KernelIdeal.Encode

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a whole-buffer rectangle. -/
theorem hz : (![0, 0] : Fin 2 → Nat) = fun _ => 0 := funext fun a => by fin_cases a <;> rfl

/-- The body's product is a plain [5000, 32] × [32, 64] one. -/
theorem plain : PlainDot.IsPlain dot_S5000x32_S32x64_S5000x64_1_0_0_1_n_n where
  rank := rfl
  size := rfl
  lhs0 := fun i q => by
    unfold DotDims.lhsIdx
    rw [dif_neg (show ¬(0 : Fin S5000x32.rank) ∈ dot_S5000x32_S32x64_S5000x64_1_0_0_1_n_n.lhsBatch by decide),
      dif_pos (show (0 : Fin S5000x32.rank) ∈ dot_S5000x32_S32x64_S5000x64_1_0_0_1_n_n.lhsNonContracting by decide)]
    rfl
  lhs1 := fun i q => dot_S5000x32_S32x64_S5000x64_1_0_0_1_n_n.lhsIdx_val_of_single rfl i q
  rhs0 := fun i q => dot_S5000x32_S32x64_S5000x64_1_0_0_1_n_n.rhsIdx_val_of_single rfl i q
  rhs1 := fun i q => by
    unfold DotDims.rhsIdx
    rw [dif_neg (show ¬(1 : Fin S32x64.rank) ∈ dot_S5000x32_S32x64_S5000x64_1_0_0_1_n_n.rhsBatch by decide),
      dif_pos (show (1 : Fin S32x64.rank) ∈ dot_S5000x32_S32x64_S5000x64_1_0_0_1_n_n.rhsNonContracting by decide)]
    rfl

/-- The body's store, read at entry (p, q) of the tile. -/
theorem pay_apply (x0 : Vec Ideal S5000x32 .f32) (x1 : Vec Ideal S32x64 .bf16) (x2 : Vec Ideal S1x64 .f32) (p : Fin 5000) (q : Fin 64) :
    k0_pay1 x0 x1 x2 (ix2 p q) = Gnn.denseRelu x0 x1 (fun j => x2 (ix2 ⟨0, Nat.one_pos⟩ j)) p q := by
  unfold k0_pay1
  simp only [shapeCast_self]
  exact Gnn.denseTile_apply _ plain (truncf .bf16 x0 bitsLt_bf16_f32) x1 x2 broadcasts_S1x64_S5000x64 p q

/-- What the body leaves in the output window's buffer, read at (p, q). -/
theorem out_apply (x0 : Vec Ideal S5000x32 .f32) (x1 : Vec Ideal S32x64 .bf16) (x2 : Vec Ideal S1x64 .f32) (p : Fin 5000) (q : Fin 64) :
    out0_3 x0 x1 x2 (ix2 p q) = Gnn.denseRelu x0 x1 (fun j => x2 (ix2 ⟨0, Nat.one_pos⟩ j)) p q := by
  unfold out0_3
  rw [View.canon_unit_zero hz]
  simp only [View.ld_unit_zero (S := S5000x32) hz, View.ld_unit_zero (S := S32x64) hz, View.ld_unit_zero (S := S1x64) hz]
  exact pay_apply x0 x1 x2 p q

/-- The whole-array function the output ends holding. -/
def G (x : S100000x32.Idx → EReal) (w : S32x64.Idx → EReal) (b : S1x64.Idx → EReal) : S100000x64.Idx → EReal :=
  fun i => Gnn.denseRelu x w (fun j => b (ix2 ⟨0, Nat.one_pos⟩ j)) (i 0) (i 1)

variable (V : (c : Dev nD) → (b : Ref sig .tc) → Buf (Elt Ideal) ((c : Thread nD τ).loc b))

/-- The printed index maps over the 20 points: the feature and output windows move with the point along the rows,
    the weight and bias windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t is rows 5000·t … of the feature array. -/
theorem blk0_apply (c : Dev nD) (t : Fin cfg0.N) (p : Fin 5000) (k : Fin 32) (i : S100000x32.Idx)
    (h0 : (i 0).val = 5000 * t.val + p.val) (h1 : (i 1).val = k.val) :
    (iblk0 V c 0 t : Vec Ideal S5000x32 .f32) (ix2 p k) = (V c main_arg0 : S100000x32.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 32 + 1 * k.val = (i 1).val; rw [e1, h1]; omega

/-- The weight window's block at every point is the whole weight array. -/
theorem blk1_eq (c : Dev nD) (t : Fin cfg0.N) : (iblk0 V c 1 t : Vec Ideal S32x64 .bf16) = (V c main_v14 : S32x64.Idx → EReal) := by
  obtain ⟨-, -, e0, e1, -⟩ := idx_facts t
  funext y
  unfold iblk0
  rw [View.read_apply]
  show V c main_v14 _ = V c main_v14 _
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 64 + 1 * (y 1).val = (y 1).val; rw [e1]; omega

/-- The bias window's block at every point is the whole bias row. -/
theorem blk2_eq (c : Dev nD) (t : Fin cfg0.N) : (iblk0 V c 2 t : Vec Ideal S1x64 .f32) = (V c main_v15 : S1x64.Idx → EReal) := by
  obtain ⟨-, -, -, -, e0, e1, -⟩ := idx_facts t
  funext y
  unfold iblk0
  rw [View.read_apply]
  show V c main_v15 _ = V c main_v15 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- WHAT POINT t WRITES BACK is block t of G of the arrays the region finds. -/
theorem flushed_eq (c : Dev nD) (t : Fin cfg0.N) :
    (dat0 V c).flushed 3 t = ((cfg0.win 3).blk t).view.read (Elt Ideal) (G (V c main_arg0) (V c main_v14) (V c main_v15)) := by
  show (cfg0.win 3).cut (grid0.coords t) ((dat0 V c).after 3 t) = _
  rw [after0_3]
  obtain ⟨-, -, -, -, -, -, e0, e1⟩ := idx_facts t
  funext y
  obtain ⟨p, q, rfl⟩ : ∃ (p : Fin 5000) (q : Fin 64), y = ix2 p q := ⟨y 0, y 1, eq_ix2 y⟩
  rw [View.read_apply]
  show out0_3 (iblk0 V c 0 t) (iblk0 V c 1 t) (iblk0 V c 2 t) (ix2 p q) = _
  rw [out_apply, blk1_eq, blk2_eq]
  unfold G Gnn.denseRelu
  have hr : ((((cfg0.win 3).blk t).view.emb (ix2 p q)) 0).val = 5000 * t.val + p.val := by
    show win0_3.index t (0 : Fin 2) * 5000 + 1 * p.val = _; rw [e0]; omega
  have hc : ((((cfg0.win 3).blk t).view.emb (ix2 p q)) 1) = q := by
    apply Fin.ext; show win0_3.index t (1 : Fin 2) * 64 + 1 * q.val = _; rw [e1]; omega
  rw [hc]
  congr 2
  refine Finset.sum_congr rfl fun k _ => ?_
  rw [blk0_apply V c t p k (ix2 ((((cfg0.win 3).blk t).view.emb (ix2 p q)) 0) k) hr rfl]

/-- An index of the output array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every index of the output array is in some flushing point's block: row r in the block of point r / 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by rw [show cfg0.N = 20 from N_0]; omega⟩, flush0_3 _, ?_⟩
  rw [mem_blk]
  obtain ⟨-, -, -, -, -, -, e0, e1⟩ := idx_facts ⟨(i 0).val / 5000, by rw [show cfg0.N = 20 from N_0]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ _ ∧ _ < (i 0).val / 5000 * 5000 + 5000; omega
  | ⟨1, _⟩ => show win0_3.index _ (1 : Fin 2) * 64 ≤ (i 1).val ∧ (i 1).val < win0_3.index _ (1 : Fin 2) * 64 + 64; rw [e1]; omega

/-- THE OUTPUT ARRAY after the region: G of the arrays the region finds. -/
theorem final (c : Dev nD) : (dat0 V c).arrAt 3 cfg0.N = G (V c main_arg0) (V c main_v14) (V c main_v15) :=
  (dat0 V c).arrAt_eq_of_cover 3 (G (V c main_arg0) (V c main_v14) (V c main_v15)) (fun t _ => flushed_eq V c t) cover

end Cert.KernelIdeal.Encode

end
-- ==== Proof.Sage1.lean ====
/-
  Message-passing region 1: what its output array holds after the region, as one function of the arrays it finds.

  The grid has 20 points; point t stages rows 5000·t … 5000·t + 4999 of the neighbour-mean array and of the node
  features, the two whole [64, 64] weight matrices and the whole [1, 64] bias row, and writes back the same rows of the
  output. The body's one store is relu(a_block . wl + bias + h_block . wr) + h_block, so the block written at point t
  is block t of the whole-array function (r, j) ↦ max ((sum_k a(r,k) · wl(k,j) + b(j)) + sum_k h(r,k) · wr(k,j)) 0 + h(r,j).
  The 20 blocks tile the 100000 rows, so the array ends holding that function.
-/
import proofs.«126712_j22737556865376_1_alg».proof.Proof.Gen.KernelIdeal.Frame
import proofs.«126712_j22737556865376_1_alg».proof.Proof.Tiles
import Idealize.ShloMosaic.Lib.Pipeline.Value
import Idealize.ShloMosaic.Lib.Tactic

set_option maxRecDepth 16384

noncomputable section

namespace Cert.KernelIdeal.Sage1

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a whole-buffer rectangle. -/
theorem hz : (![0, 0] : Fin 2 → Nat) = fun _ => 0 := funext fun a => by fin_cases a <;> rfl

/-- The body's products are plain [5000, 64] × [64, 64] ones. -/
theorem plain : PlainDot.IsPlain dot_S5000x64_S64x64_S5000x64_1_0_0_1_n_n where
  rank := rfl
  size := rfl
  lhs0 := fun i q => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  lhs1 := fun i q => dot_S5000x64_S64x64_S5000x64_1_0_0_1_n_n.lhsIdx_val_of_single rfl i q
  rhs0 := fun i q => dot_S5000x64_S64x64_S5000x64_1_0_0_1_n_n.rhsIdx_val_of_single rfl i q
  rhs1 := fun i q => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The body's store, read at entry (p, q) of the tile. -/
theorem pay_apply (a h : Vec Ideal S5000x64 .f32) (wl wr : Vec Ideal S64x64 .bf16) (b : Vec Ideal S1x64 .f32) (p : Fin 5000) (q : Fin 64) :
    k1_pay1 a h wl wr b (ix2 p q) = Gnn.sageStep a h wl wr (fun j => b (ix2 ⟨0, Nat.one_pos⟩ j)) p q := by
  unfold k1_pay1
  simp only [shapeCast_self]
  exact Gnn.sageTile_apply _ plain (truncf .bf16 a bitsLt_bf16_f32) (truncf .bf16 h bitsLt_bf16_f32) h (fun _ => rfl) wl wr b broadcasts_S1x64_S5000x64 p q

/-- What the body leaves in the output window's buffer, read at (p, q). -/
theorem out_apply (x0 x1 : Vec Ideal S5000x64 .f32) (x2 : Vec Ideal S64x64 .bf16) (x3 : Vec Ideal S1x64 .f32) (x4 : Vec Ideal S64x64 .bf16) (p : Fin 5000) (q : Fin 64) :
    out1_5 x0 x1 x2 x3 x4 (ix2 p q) = Gnn.sageStep x0 x1 x2 x4 (fun j => x3 (ix2 ⟨0, Nat.one_pos⟩ j)) p q := by
  unfold out1_5
  rw [View.canon_unit_zero hz]
  simp only [View.ld_unit_zero (S := S5000x64) hz, View.ld_unit_zero (S := S64x64) hz, View.ld_unit_zero (S := S1x64) hz]
  exact pay_apply x0 x1 x2 x4 x3 p q

/-- The whole-array function the output ends holding. -/
def G (a h : S100000x64.Idx → EReal) (wl : S64x64.Idx → EReal) (b : S1x64.Idx → EReal) (wr : S64x64.Idx → EReal) : S100000x64.Idx → EReal :=
  fun i => Gnn.sageStep a h wl wr (fun j => b (ix2 ⟨0, Nat.one_pos⟩ j)) (i 0) (i 1)

variable (V : (c : Dev nD) → (b : Ref sig .tc) → Buf (Elt Ideal) ((c : Thread nD τ).loc b))

/-- The printed index maps over the 20 points: the two row-blocked inputs and the output move with the point along
    the rows, the weight and bias windows stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour-mean window's block at point t is rows 5000·t … of its array. -/
theorem blk0_apply (c : Dev nD) (t : Fin cfg1.N) (p : Fin 5000) (k : Fin 64) (i : S100000x64.Idx)
    (h0 : (i 0).val = 5000 * t.val + p.val) (h1 : (i 1).val = k.val) :
    (iblk1 V c 0 t : Vec Ideal S5000x64 .f32) (ix2 p k) = (V c main_v33 : S100000x64.Idx → EReal) i := by
  obtain ⟨e0, e1, -⟩ := idx_facts t
  unfold iblk1
  rw [View.read_apply]
  show V c main_v33 _ = V c main_v33 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 64 + 1 * k.val = (i 1).val; rw [e1, h1]; omega

/-- The feature window's block at point t is rows 5000·t … of the feature array. -/
theorem blk1_apply (c : Dev nD) (t : Fin cfg1.N) (p : Fin 5000) (k : Fin 64) (i : S100000x64.Idx)
    (h0 : (i 0).val = 5000 * t.val + p.val) (h1 : (i 1).val = k.val) :
    (iblk1 V c 1 t : Vec Ideal S5000x64 .f32) (ix2 p k) = (V c main_v16 : S100000x64.Idx → EReal) i := by
  obtain ⟨-, -, e0, e1, -⟩ := idx_facts t
  unfold iblk1
  rw [View.read_apply]
  show V c main_v16 _ = V c main_v16 _
  congr 1
  funext a
  apply Fin.ext
  match a with
  | ⟨0, _⟩ => show win1_1.index t (0 : Fin 2) * 5000 + 1 * p.val = (i 0).val; rw [e0, h0]; omega
  | ⟨1, _⟩ => show win1_1.index t (1 : Fin 2) * 64 + 1 * k.val = (i 1).val; rw [e1, h1]; omega

/-- The first weight window's block at every point is its whole array. -/
theorem blk2_eq (c : Dev nD) (t : Fin cfg1.N) : (iblk1 V c 2 t : Vec Ideal S64x64 .bf16) = (V c main_v35 : S64x64.Idx → EReal) := by
  obtain ⟨-, -, -, -, e0, e1, -⟩ := idx_facts t
  funext y
  unfold iblk1
  rw [View.read_apply]
  show V c main_v35 _ = V c main_v35 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The bias window's block at every point is the whole bias row. -/
theorem blk3_eq (c : Dev nD) (t : Fin cfg1.N) : (iblk1 V c 3 t : Vec Ideal S1x64 .f32) = (V c main_v37 : S1x64.Idx → EReal) := by
  obtain ⟨-, -, -, -, -, -, e0, e1, -⟩ := idx_facts t
  funext y
  unfold iblk1
  rw [View.read_apply]
  show V c main_v37 _ = V c main_v37 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The second weight window's block at every point is its whole array. -/
theorem blk4_eq (c : Dev nD) (t : Fin cfg1.N) : (iblk1 V c 4 t : Vec Ideal S64x64 .bf16) = (V c main_v39 : S64x64.Idx → EReal) := by
  obtain ⟨-, -, -, -, -, -, -, -, e0, e1, -⟩ := idx_facts t
  funext y
  unfold iblk1
  rw [View.read_apply]
  show V c main_v39 _ = V c main_v39 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- WHAT POINT t WRITES BACK is block t of G of the arrays the region finds. -/
theorem flushed_eq (c : Dev nD) (t : Fin cfg1.N) :
    (dat1 V c).flushed 5 t = ((cfg1.win 5).blk t).view.read (Elt Ideal)
      (G (V c main_v33) (V c main_v16) (V c main_v35) (V c main_v37) (V c main_v39)) := by
  show (cfg1.win 5).cut (grid1.coords t) ((dat1 V c).after 5 t) = _
  rw [after1_5]
  obtain ⟨-, -, -, -, -, -, -, -, -, -, e0, e1⟩ := idx_facts t
  funext y
  obtain ⟨p, q, rfl⟩ : ∃ (p : Fin 5000) (q : Fin 64), y = ix2 p q := ⟨y 0, y 1, eq_ix2 y⟩
  rw [View.read_apply]
  show out1_5 (iblk1 V c 0 t) (iblk1 V c 1 t) (iblk1 V c 2 t) (iblk1 V c 3 t) (iblk1 V c 4 t) (ix2 p q) = _
  rw [out_apply, blk2_eq, blk3_eq, blk4_eq]
  unfold G Gnn.sageStep
  have hr : ((((cfg1.win 5).blk t).view.emb (ix2 p q)) 0).val = 5000 * t.val + p.val := by
    show win1_5.index t (0 : Fin 2) * 5000 + 1 * p.val = _; rw [e0]; omega
  have hc : ((((cfg1.win 5).blk t).view.emb (ix2 p q)) 1) = q := by
    apply Fin.ext; show win1_5.index t (1 : Fin 2) * 64 + 1 * q.val = _; rw [e1]; omega
  rw [hc]
  have hsa : ∀ k : Fin 64, (iblk1 V c 0 t : Vec Ideal S5000x64 .f32) (ix2 p k)
      = (V c main_v33 : S100000x64.Idx → EReal) (ix2 ((((cfg1.win 5).blk t).view.emb (ix2 p q)) 0) k) :=
    fun k => blk0_apply V c t p k _ hr rfl
  have hsh : ∀ k : Fin 64, (iblk1 V c 1 t : Vec Ideal S5000x64 .f32) (ix2 p k)
      = (V c main_v16 : S100000x64.Idx → EReal) (ix2 ((((cfg1.win 5).blk t).view.emb (ix2 p q)) 0) k) :=
    fun k => blk1_apply V c t p k _ hr rfl
  simp only [hsa, hsh]
  rfl

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v40).slice (win1_5.rect t)).set ↔ _
  rw [View.set_slice_whole, Rect.mem_set_unit]
  exact Iff.rfl

/-- Every index of the output array is in some flushing point's block: row r in the block of point r / 5000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  refine ⟨⟨(i 0).val / 5000, by rw [show cfg1.N = 20 from N_1]; omega⟩, flush1_5 _, ?_⟩
  rw [mem_blk]
  obtain ⟨-, -, -, -, -, -, -, -, -, -, e0, e1⟩ := idx_facts ⟨(i 0).val / 5000, by rw [show cfg1.N = 20 from N_1]; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ _ ∧ _ < (i 0).val / 5000 * 5000 + 5000; omega
  | ⟨1, _⟩ => show win1_5.index _ (1 : Fin 2) * 64 ≤ (i 1).val ∧ (i 1).val < win1_5.index _ (1 : Fin 2) * 64 + 64; rw [e1]; omega

/-- THE OUTPUT ARRAY after the region: G of the arrays the region finds. -/
theorem final (c : Dev nD) : (dat1 V c).arrAt 5 cfg1.N = G (V c main_v33) (V c main_v16) (V c main_v35) (V c main_v37) (V c main_v39) :=
  (dat1 V c).arrAt_eq_of_cover 5 (G (V c main_v33) (V c main_v16) (V c main_v35) (V c main_v37) (V c main_v39)) (fun t _ => flushed_eq V c t) cover

end Cert.KernelIdeal.Sage1

end
-- ==== Proof.Sage2.lean ====
/-
  Message-passing region 2: what its output array holds after the region, as one function of the arrays it finds.

  The grid has 20 points; point t stages rows 5000·t … 5000·t + 4999 of the neighbour-mean array and of the node
  features, the two whole [64, 64] weight matrices and the whole [1, 64] bias row, and writes back the same rows of the
  output. The body's one store is relu(a_block . wl + bias + h_block . wr) + h_block, so the block written at point t
  is block t of the whole-array function (r, j) ↦ max ((sum_k a(r,k) · wl(k,j) + b(j)) + sum_k h(r,k) · wr(k,j)) 0 + h(r,j).
  The 20 blocks tile the 100000 rows, so the array ends holding that function.
-/
import proofs.«126712_j22737556865376_1_alg».proof.Proof.Gen.KernelIdeal.Frame
import proofs.«126712_j22737556865376_1_alg».proof.Proof.Tiles
import Idealize.ShloMosaic.Lib.Pipeline.Value
import Idealize.ShloMosaic.Lib.Tactic

set_option maxRecDepth 16384

noncomputable section

namespace Cert.KernelIdeal.Sage2

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a whole-buffer rectangle. -/
theorem hz : (![0, 0] : Fin 2 → Nat) = fun _ => 0 := funext fun a => by fin_cases a <;> rfl

/-- The body's products are plain [5000, 64] × [64, 64] ones. -/
theorem plain : PlainDot.IsPlain dot_S5000x64_S64x64_S5000x64_1_0_0_1_n_n where
  rank := rfl
  size := rfl
  lhs0 := fun i q => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  lhs1 := fun i q => dot_S5000x64_S64x64_S5000x64_1_0_0_1_n_n.lhsIdx_val_of_single rfl i q
  rhs0 := fun i q => dot_S5000x64_S64x64_S5000x64_1_0_0_1_n_n.rhsIdx_val_of_single rfl i q
  rhs1 := fun i q => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The body's store, read at entry (p, q) of the tile. -/
theorem pay_apply (a h : Vec Ideal S5000x64 .f32) (wl wr : Vec Ideal S64x64 .bf16) (b : Vec Ideal S1x64 .f32) (p : Fin 5000) (q : Fin 64) :
    k2_pay1 a h wl wr b (ix2 p q) = Gnn.sageStep a h wl wr (fun j => b (ix2 ⟨0, Nat.one_pos⟩ j)) p q := by
  unfold k2_pay1
  simp only [shapeCast_self]
  exact Gnn.sageTile_apply _ plain (truncf .bf16 a bitsLt_bf16_f32) (truncf .bf16 h bitsLt_bf16_f32) h (fun _ => rfl) wl wr b broadcasts_S1x64_S5000x64 p q

/-- What the body leaves in the output window's buffer, read at (p, q). -/
theorem out_apply (x0 x1 : Vec Ideal S5000x64 .f32) (x2 : Vec Ideal S64x64 .bf16) (x3 : Vec Ideal S1x64 .f32) (x4 : Vec Ideal S64x64 .bf16) (p : Fin 5000) (q : Fin 64) :
    out2_5 x0 x1 x2 x3 x4 (ix2 p q) = Gnn.sageStep x0 x1 x2 x4 (fun j => x3 (ix2 ⟨0, Nat.one_pos⟩ j)) p q := by
  unfold out2_5
  rw [View.canon_unit_zero hz]
  simp only [View.ld_unit_zero (S := S5000x64) hz, View.ld_unit_zero (S := S64x64) hz, View.ld_unit_zero (S := S1x64) hz]
  exact pay_apply x0 x1 x2 x4 x3 p q

/-- The whole-array function the output ends holding. -/
def G (a h : S100000x64.Idx → EReal) (wl : S64x64.Idx → EReal) (b : S1x64.Idx → EReal) (wr : S64x64.Idx → EReal) : S100000x64.Idx → EReal :=
  fun i => Gnn.sageStep a h wl wr (fun j => b (ix2 ⟨0, Nat.one_pos⟩ j)) (i 0) (i 1)

variable (V : (c : Dev nD) → (b : Ref sig .tc) → Buf (Elt Ideal) ((c : Thread nD τ).loc b))

/-- The printed index maps over the 20 points: the two row-blocked inputs and the output move with the point along
    the rows, the weight and bias windows stay at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour-mean window's block at point t is rows 5000·t … of its array. -/
theorem blk0_apply (c : Dev nD) (t : Fin cfg2.N) (p : Fin 5000) (k : Fin 64) (i : S100000x64.Idx)
    (h0 : (i 0).val = 5000 * t.val + p.val) (h1 : (i 1).val = k.val) :
    (iblk2 V c 0 t : Vec Ideal S5000x64 .f32) (ix2 p k) = (V c main_v52 : S100000x64.Idx → EReal) i := by
  obtain ⟨e0, e1, -⟩ := idx_facts t
  unfold iblk2
  rw [View.read_apply]
  show V c main_v52 _ = V c main_v52 _
  congr 1
  funext a
  apply Fin.ext
  match a with
  | ⟨0, _⟩ => show win2_0.index t (0 : Fin 2) * 5000 + 1 * p.val = (i 0).val; rw [e0, h0]; omega
  | ⟨1, _⟩ => show win2_0.index t (1 : Fin 2) * 64 + 1 * k.val = (i 1).val; rw [e1, h1]; omega

/-- The feature window's block at point t is rows 5000·t … of the feature array. -/
theorem blk1_apply (c : Dev nD) (t : Fin cfg2.N) (p : Fin 5000) (k : Fin 64) (i : S100000x64.Idx)
    (h0 : (i 0).val = 5000 * t.val + p.val) (h1 : (i 1).val = k.val) :
    (iblk2 V c 1 t : Vec Ideal S5000x64 .f32) (ix2 p k) = (V c main_v40 : S100000x64.Idx → EReal) i := by
  obtain ⟨-, -, e0, e1, -⟩ := idx_facts t
  unfold iblk2
  rw [View.read_apply]
  show V c main_v40 _ = V c main_v40 _
  congr 1
  funext a
  apply Fin.ext
  match a with
  | ⟨0, _⟩ => show win2_1.index t (0 : Fin 2) * 5000 + 1 * p.val = (i 0).val; rw [e0, h0]; omega
  | ⟨1, _⟩ => show win2_1.index t (1 : Fin 2) * 64 + 1 * k.val = (i 1).val; rw [e1, h1]; omega

/-- The first weight window's block at every point is its whole array. -/
theorem blk2_eq (c : Dev nD) (t : Fin cfg2.N) : (iblk2 V c 2 t : Vec Ideal S64x64 .bf16) = (V c main_v54 : S64x64.Idx → EReal) := by
  obtain ⟨-, -, -, -, e0, e1, -⟩ := idx_facts t
  funext y
  unfold iblk2
  rw [View.read_apply]
  show V c main_v54 _ = V c main_v54 _
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The bias window's block at every point is the whole bias row. -/
theorem blk3_eq (c : Dev nD) (t : Fin cfg2.N) : (iblk2 V c 3 t : Vec Ideal S1x64 .f32) = (V c main_v56 : S1x64.Idx → EReal) := by
  obtain ⟨-, -, -, -, -, -, e0, e1, -⟩ := idx_facts t
  funext y
  unfold iblk2
  rw [View.read_apply]
  show V c main_v56 _ = V c main_v56 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The second weight window's block at every point is its whole array. -/
theorem blk4_eq (c : Dev nD) (t : Fin cfg2.N) : (iblk2 V c 4 t : Vec Ideal S64x64 .bf16) = (V c main_v58 : S64x64.Idx → EReal) := by
  obtain ⟨-, -, -, -, -, -, -, -, e0, e1, -⟩ := idx_facts t
  funext y
  unfold iblk2
  rw [View.read_apply]
  show V c main_v58 _ = V c main_v58 _
  congr 1
  funext a
  apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- WHAT POINT t WRITES BACK is block t of G of the arrays the region finds. -/
theorem flushed_eq (c : Dev nD) (t : Fin cfg2.N) :
    (dat2 V c).flushed 5 t = ((cfg2.win 5).blk t).view.read (Elt Ideal)
      (G (V c main_v52) (V c main_v40) (V c main_v54) (V c main_v56) (V c main_v58)) := by
  show (cfg2.win 5).cut (grid2.coords t) ((dat2 V c).after 5 t) = _
  rw [after2_5]
  obtain ⟨-, -, -, -, -, -, -, -, -, -, e0, e1⟩ := idx_facts t
  funext y
  obtain ⟨p, q, rfl⟩ : ∃ (p : Fin 5000) (q : Fin 64), y = ix2 p q := ⟨y 0, y 1, eq_ix2 y⟩
  rw [View.read_apply]
  show out2_5 (iblk2 V c 0 t) (iblk2 V c 1 t) (iblk2 V c 2 t) (iblk2 V c 3 t) (iblk2 V c 4 t) (ix2 p q) = _
  rw [out_apply, blk2_eq, blk3_eq, blk4_eq]
  unfold G Gnn.sageStep
  have hr : ((((cfg2.win 5).blk t).view.emb (ix2 p q)) 0).val = 5000 * t.val + p.val := by
    show win2_5.index t (0 : Fin 2) * 5000 + 1 * p.val = _; rw [e0]; omega
  have hc : ((((cfg2.win 5).blk t).view.emb (ix2 p q)) 1) = q := by
    apply Fin.ext; show win2_5.index t (1 : Fin 2) * 64 + 1 * q.val = _; rw [e1]; omega
  rw [hc]
  have hsa : ∀ k : Fin 64, (iblk2 V c 0 t : Vec Ideal S5000x64 .f32) (ix2 p k)
      = (V c main_v52 : S100000x64.Idx → EReal) (ix2 ((((cfg2.win 5).blk t).view.emb (ix2 p q)) 0) k) :=
    fun k => blk0_apply V c t p k _ hr rfl
  have hsh : ∀ k : Fin 64, (iblk2 V c 1 t : Vec Ideal S5000x64 .f32) (ix2 p k)
      = (V c main_v40 : S100000x64.Idx → EReal) (ix2 ((((cfg2.win 5).blk t).view.emb (ix2 p q)) 0) k) :=
    fun k => blk1_apply V c t p k _ hr rfl
  simp only [hsa, hsh]
  rfl

/-- An index of the output array is in point t's block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v59).slice (win2_5.rect t)).set ↔ _
  rw [View.set_slice_whole, Rect.mem_set_unit]
  exact Iff.rfl

/-- Every index of the output array is in some flushing point's block: row r in the block of point r / 5000. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  refine ⟨⟨(i 0).val / 5000, by rw [show cfg2.N = 20 from N_2]; omega⟩, flush2_5 _, ?_⟩
  rw [mem_blk]
  obtain ⟨-, -, -, -, -, -, -, -, -, -, e0, e1⟩ := idx_facts ⟨(i 0).val / 5000, by rw [show cfg2.N = 20 from N_2]; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ _ ∧ _ < (i 0).val / 5000 * 5000 + 5000; omega
  | ⟨1, _⟩ => show win2_5.index _ (1 : Fin 2) * 64 ≤ (i 1).val ∧ (i 1).val < win2_5.index _ (1 : Fin 2) * 64 + 64; rw [e1]; omega

/-- THE OUTPUT ARRAY after the region: G of the arrays the region finds. -/
theorem final (c : Dev nD) : (dat2 V c).arrAt 5 cfg2.N = G (V c main_v52) (V c main_v40) (V c main_v54) (V c main_v56) (V c main_v58) :=
  (dat2 V c).arrAt_eq_of_cover 5 (G (V c main_v52) (V c main_v40) (V c main_v54) (V c main_v56) (V c main_v58)) (fun t _ => flushed_eq V c t) cover

end Cert.KernelIdeal.Sage2

end
-- ==== Proof.Sage3.lean ====
/-
  Message-passing region 3: what its output array holds after the region, as one function of the arrays it finds.

  The grid has 20 points; point t stages rows 5000·t … 5000·t + 4999 of the neighbour-mean array and of the node
  features, the two whole [64, 64] weight matrices and the whole [1, 64] bias row, and writes back the same rows of the
  output. The body's one store is relu(a_block . wl + bias + h_block . wr) + h_block, so the block written at point t
  is block t of the whole-array function (r, j) ↦ max ((sum_k a(r,k) · wl(k,j) + b(j)) + sum_k h(r,k) · wr(k,j)) 0 + h(r,j).
  The 20 blocks tile the 100000 rows, so the array ends holding that function.
-/
import proofs.«126712_j22737556865376_1_alg».proof.Proof.Gen.KernelIdeal.Frame
import proofs.«126712_j22737556865376_1_alg».proof.Proof.Tiles
import Idealize.ShloMosaic.Lib.Pipeline.Value
import Idealize.ShloMosaic.Lib.Tactic

set_option maxRecDepth 16384

noncomputable section

namespace Cert.KernelIdeal.Sage3

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a whole-buffer rectangle. -/
theorem hz : (![0, 0] : Fin 2 → Nat) = fun _ => 0 := funext fun a => by fin_cases a <;> rfl

/-- The body's products are plain [5000, 64] × [64, 64] ones. -/
theorem plain : PlainDot.IsPlain dot_S5000x64_S64x64_S5000x64_1_0_0_1_n_n where
  rank := rfl
  size := rfl
  lhs0 := fun i q => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  lhs1 := fun i q => dot_S5000x64_S64x64_S5000x64_1_0_0_1_n_n.lhsIdx_val_of_single rfl i q
  rhs0 := fun i q => dot_S5000x64_S64x64_S5000x64_1_0_0_1_n_n.rhsIdx_val_of_single rfl i q
  rhs1 := fun i q => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The body's store, read at entry (p, q) of the tile. -/
theorem pay_apply (a h : Vec Ideal S5000x64 .f32) (wl wr : Vec Ideal S64x64 .bf16) (b : Vec Ideal S1x64 .f32) (p : Fin 5000) (q : Fin 64) :
    k3_pay1 a h wl wr b (ix2 p q) = Gnn.sageStep a h wl wr (fun j => b (ix2 ⟨0, Nat.one_pos⟩ j)) p q := by
  unfold k3_pay1
  simp only [shapeCast_self]
  exact Gnn.sageTile_apply _ plain (truncf .bf16 a bitsLt_bf16_f32) (truncf .bf16 h bitsLt_bf16_f32) h (fun _ => rfl) wl wr b broadcasts_S1x64_S5000x64 p q

/-- What the body leaves in the output window's buffer, read at (p, q). -/
theorem out_apply (x0 x1 : Vec Ideal S5000x64 .f32) (x2 : Vec Ideal S64x64 .bf16) (x3 : Vec Ideal S1x64 .f32) (x4 : Vec Ideal S64x64 .bf16) (p : Fin 5000) (q : Fin 64) :
    out3_5 x0 x1 x2 x3 x4 (ix2 p q) = Gnn.sageStep x0 x1 x2 x4 (fun j => x3 (ix2 ⟨0, Nat.one_pos⟩ j)) p q := by
  unfold out3_5
  rw [View.canon_unit_zero hz]
  simp only [View.ld_unit_zero (S := S5000x64) hz, View.ld_unit_zero (S := S64x64) hz, View.ld_unit_zero (S := S1x64) hz]
  exact pay_apply x0 x1 x2 x4 x3 p q

/-- The whole-array function the output ends holding. -/
def G (a h : S100000x64.Idx → EReal) (wl : S64x64.Idx → EReal) (b : S1x64.Idx → EReal) (wr : S64x64.Idx → EReal) : S100000x64.Idx → EReal :=
  fun i => Gnn.sageStep a h wl wr (fun j => b (ix2 ⟨0, Nat.one_pos⟩ j)) (i 0) (i 1)

variable (V : (c : Dev nD) → (b : Ref sig .tc) → Buf (Elt Ideal) ((c : Thread nD τ).loc b))

/-- The printed index maps over the 20 points: the two row-blocked inputs and the output move with the point along
    the rows, the weight and bias windows stay at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The neighbour-mean window's block at point t is rows 5000·t … of its array. -/
theorem blk0_apply (c : Dev nD) (t : Fin cfg3.N) (p : Fin 5000) (k : Fin 64) (i : S100000x64.Idx)
    (h0 : (i 0).val = 5000 * t.val + p.val) (h1 : (i 1).val = k.val) :
    (iblk3 V c 0 t : Vec Ideal S5000x64 .f32) (ix2 p k) = (V c main_v71 : S100000x64.Idx → EReal) i := by
  obtain ⟨e0, e1, -⟩ := idx_facts t
  unfold iblk3
  rw [View.read_apply]
  show V c main_v71 _ = V c main_v71 _
  congr 1
  funext a
  apply Fin.ext
  match a with
  | ⟨0, _⟩ => show win3_0.index t (0 : Fin 2) * 5000 + 1 * p.val = (i 0).val; rw [e0, h0]; omega
  | ⟨1, _⟩ => show win3_0.index t (1 : Fin 2) * 64 + 1 * k.val = (i 1).val; rw [e1, h1]; omega

/-- The feature window's block at point t is rows 5000·t … of the feature array. -/
theorem blk1_apply (c : Dev nD) (t : Fin cfg3.N) (p : Fin 5000) (k : Fin 64) (i : S100000x64.Idx)
    (h0 : (i 0).val = 5000 * t.val + p.val) (h1 : (i 1).val = k.val) :
    (iblk3 V c 1 t : Vec Ideal S5000x64 .f32) (ix2 p k) = (V c main_v59 : S100000x64.Idx → EReal) i := by
  obtain ⟨-, -, e0, e1, -⟩ := idx_facts t
  unfold iblk3
  rw [View.read_apply]
  show V c main_v59 _ = V c main_v59 _
  congr 1
  funext a
  apply Fin.ext
  match a with
  | ⟨0, _⟩ => show win3_1.index t (0 : Fin 2) * 5000 + 1 * p.val = (i 0).val; rw [e0, h0]; omega
  | ⟨1, _⟩ => show win3_1.index t (1 : Fin 2) * 64 + 1 * k.val = (i 1).val; rw [e1, h1]; omega

/-- The first weight window's block at every point is its whole array. -/
theorem blk2_eq (c : Dev nD) (t : Fin cfg3.N) : (iblk3 V c 2 t : Vec Ideal S64x64 .bf16) = (V c main_v73 : S64x64.Idx → EReal) := by
  obtain ⟨-, -, -, -, e0, e1, -⟩ := idx_facts t
  funext y
  unfold iblk3
  rw [View.read_apply]
  show V c main_v73 _ = V c main_v73 _
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The bias window's block at every point is the whole bias row. -/
theorem blk3_eq (c : Dev nD) (t : Fin cfg3.N) : (iblk3 V c 3 t : Vec Ideal S1x64 .f32) = (V c main_v75 : S1x64.Idx → EReal) := by
  obtain ⟨-, -, -, -, -, -, e0, e1, -⟩ := idx_facts t
  funext y
  unfold iblk3
  rw [View.read_apply]
  show V c main_v75 _ = V c main_v75 _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- The second weight window's block at every point is its whole array. -/
theorem blk4_eq (c : Dev nD) (t : Fin cfg3.N) : (iblk3 V c 4 t : Vec Ideal S64x64 .bf16) = (V c main_v77 : S64x64.Idx → EReal) := by
  obtain ⟨-, -, -, -, -, -, -, -, e0, e1, -⟩ := idx_facts t
  funext y
  unfold iblk3
  rw [View.read_apply]
  show V c main_v77 _ = V c main_v77 _
  congr 1
  funext a
  apply Fin.ext
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

/-- WHAT POINT t WRITES BACK is block t of G of the arrays the region finds. -/
theorem flushed_eq (c : Dev nD) (t : Fin cfg3.N) :
    (dat3 V c).flushed 5 t = ((cfg3.win 5).blk t).view.read (Elt Ideal)
      (G (V c main_v71) (V c main_v59) (V c main_v73) (V c main_v75) (V c main_v77)) := by
  show (cfg3.win 5).cut (grid3.coords t) ((dat3 V c).after 5 t) = _
  rw [after3_5]
  obtain ⟨-, -, -, -, -, -, -, -, -, -, e0, e1⟩ := idx_facts t
  funext y
  obtain ⟨p, q, rfl⟩ : ∃ (p : Fin 5000) (q : Fin 64), y = ix2 p q := ⟨y 0, y 1, eq_ix2 y⟩
  rw [View.read_apply]
  show out3_5 (iblk3 V c 0 t) (iblk3 V c 1 t) (iblk3 V c 2 t) (iblk3 V c 3 t) (iblk3 V c 4 t) (ix2 p q) = _
  rw [out_apply, blk2_eq, blk3_eq, blk4_eq]
  unfold G Gnn.sageStep
  have hr : ((((cfg3.win 5).blk t).view.emb (ix2 p q)) 0).val = 5000 * t.val + p.val := by
    show win3_5.index t (0 : Fin 2) * 5000 + 1 * p.val = _; rw [e0]; omega
  have hc : ((((cfg3.win 5).blk t).view.emb (ix2 p q)) 1) = q := by
    apply Fin.ext; show win3_5.index t (1 : Fin 2) * 64 + 1 * q.val = _; rw [e1]; omega
  rw [hc]
  have hsa : ∀ k : Fin 64, (iblk3 V c 0 t : Vec Ideal S5000x64 .f32) (ix2 p k)
      = (V c main_v71 : S100000x64.Idx → EReal) (ix2 ((((cfg3.win 5).blk t).view.emb (ix2 p q)) 0) k) :=
    fun k => blk0_apply V c t p k _ hr rfl
  have hsh : ∀ k : Fin 64, (iblk3 V c 1 t : Vec Ideal S5000x64 .f32) (ix2 p k)
      = (V c main_v59 : S100000x64.Idx → EReal) (ix2 ((((cfg3.win 5).blk t).view.emb (ix2 p q)) 0) k) :=
    fun k => blk1_apply V c t p k _ hr rfl
  simp only [hsa, hsh]
  rfl

/-- An index of the output array is in point t's block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v78).slice (win3_5.rect t)).set ↔ _
  rw [View.set_slice_whole, Rect.mem_set_unit]
  exact Iff.rfl

/-- Every index of the output array is in some flushing point's block: row r in the block of point r / 5000. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  refine ⟨⟨(i 0).val / 5000, by rw [show cfg3.N = 20 from N_3]; omega⟩, flush3_5 _, ?_⟩
  rw [mem_blk]
  obtain ⟨-, -, -, -, -, -, -, -, -, -, e0, e1⟩ := idx_facts ⟨(i 0).val / 5000, by rw [show cfg3.N = 20 from N_3]; omega⟩
  intro a
  match a with
  | ⟨0, _⟩ => show win3_5.index _ (0 : Fin 2) * 5000 ≤ (i 0).val ∧ (i 0).val < win3_5.index _ (0 : Fin 2) * 5000 + 5000; rw [e0]; show (i 0).val / 5000 * 5000 ≤ _ ∧ _ < (i 0).val / 5000 * 5000 + 5000; omega
  | ⟨1, _⟩ => show win3_5.index _ (1 : Fin 2) * 64 ≤ (i 1).val ∧ (i 1).val < win3_5.index _ (1 : Fin 2) * 64 + 64; rw [e1]; omega

/-- THE OUTPUT ARRAY after the region: G of the arrays the region finds. -/
theorem final (c : Dev nD) : (dat3 V c).arrAt 5 cfg3.N = G (V c main_v71) (V c main_v59) (V c main_v73) (V c main_v75) (V c main_v77) :=
  (dat3 V c).arrAt_eq_of_cover 5 (G (V c main_v71) (V c main_v59) (V c main_v73) (V c main_v75) (V c main_v77)) (fun t _ => flushed_eq V c t) cover

end Cert.KernelIdeal.Sage3

end
-- ==== Proof.Sage4.lean ====
/-
  Message-passing region 4: what its output array holds after the region, as one function of the arrays it finds.

  The grid has 20 points; point t stages rows 5000·t … 5000·t + 4999 of the neighbour-mean array and of the node
  features, the two whole [64, 64] weight matrices and the whole [1, 64] bias row, and writes back the same rows of the
  output. The body's one store is relu(a_block . wl + bias + h_block . wr) + h_block, so the block written at point t
  is block t of the whole-array function (r, j) ↦ max ((sum_k a(r,k) · wl(k,j) + b(j)) + sum_k h(r,k) · wr(k,j)) 0 + h(r,j).
  The 20 blocks tile the 100000 rows, so the array ends holding that function.
-/
import proofs.«126712_j22737556865376_1_alg».proof.Proof.Gen.KernelIdeal.Frame
import proofs.«126712_j22737556865376_1_alg».proof.Proof.Tiles
import Idealize.ShloMosaic.Lib.Pipeline.Value
import Idealize.ShloMosaic.Lib.Tactic

set_option maxRecDepth 16384

noncomputable section

namespace Cert.KernelIdeal.Sage4

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a whole-buffer rectangle. -/
theorem hz : (![0, 0] : Fin 2 → Nat) = fun _ => 0 := funext fun a => by fin_cases a <;> rfl

/-- The body's products are plain [5000, 64] × [64, 64] ones. -/
theorem plain : PlainDot.IsPlain dot_S5000x64_S64x64_S5000x64_1_0_0_1_n_n where
  rank := rfl
  size := rfl
  lhs0 := fun i q => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  lhs1 := fun i q => dot_S5000x64_S64x64_S5000x64_1_0_0_1_n_n.lhsIdx_val_of_single rfl i q
  rhs0 := fun i q => dot_S5000x64_S64x64_S5000x64_1_0_0_1_n_n.rhsIdx_val_of_single rfl i q
  rhs1 := fun i q => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The body's store, read at entry (p, q) of the tile. -/
theorem pay_apply (a h : Vec Ideal S5000x64 .f32) (wl wr : Vec Ideal S64x64 .bf16) (b : Vec Ideal S1x64 .f32) (p : Fin 5000) (q : Fin 64) :
    k4_pay1 a h wl wr b (ix2 p q) = Gnn.sageStep a h wl wr (fun j => b (ix2 ⟨0, Nat.one_pos⟩ j)) p q := by
  unfold k4_pay1
  simp only [shapeCast_self]
  exact Gnn.sageTile_apply _ plain (truncf .bf16 a bitsLt_bf16_f32) (truncf .bf16 h bitsLt_bf16_f32) h (fun _ => rfl) wl wr b broadcasts_S1x64_S5000x64 p q

/-- What the body leaves in the output window's buffer, read at (p, q). -/
theorem out_apply (x0 x1 : Vec Ideal S5000x64 .f32) (x2 : Vec Ideal S64x64 .bf16) (x3 : Vec Ideal S1x64 .f32) (x4 : Vec Ideal S64x64 .bf16) (p : Fin 5000) (q : Fin 64) :
    out4_5 x0 x1 x2 x3 x4 (ix2 p q) = Gnn.sageStep x0 x1 x2 x4 (fun j => x3 (ix2 ⟨0, Nat.one_pos⟩ j)) p q := by
  unfold out4_5
  rw [View.canon_unit_zero hz]
  simp only [View.ld_unit_zero (S := S5000x64) hz, View.ld_unit_zero (S := S64x64) hz, View.ld_unit_zero (S := S1x64) hz]
  exact pay_apply x0 x1 x2 x4 x3 p q

/-- The whole-array function the output ends holding. -/
def G (a h : S100000x64.Idx → EReal) (wl : S64x64.Idx → EReal) (b : S1x64.Idx → EReal) (wr : S64x64.Idx → EReal) : S100000x64.Idx → EReal :=
  fun i => Gnn.sageStep a h wl wr (fun j => b (ix2 ⟨0, Nat.one_pos⟩ j)) (i 0) (i 1)

variable (V : (c : Dev nD) → (b : Ref sig .tc) → Buf (Elt Ideal) ((c : Thread nD τ).loc b))

/-- The printed index maps over the 20 points: the two row-blocked inputs and the output move with the point along
    the rows, the weight and bias windows stay at block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The neighbour-mean window's block at point t is rows 5000·t … of its array. -/
theorem blk0_apply (c : Dev nD) (t : Fin cfg4.N) (p : Fin 5000) (k : Fin 64) (i : S100000x64.Idx)
    (h0 : (i 0).val = 5000 * t.val + p.val) (h1 : (i 1).val = k.val) :
    (iblk4 V c 0 t : Vec Ideal S5000x64 .f32) (ix2 p k) = (V c main_v90 : S100000x64.Idx → EReal) i := by
  obtain ⟨e0, e1, -⟩ := idx_facts t
  unfold iblk4
  rw [View.read_apply]
  show V c main_v90 _ = V c main_v90 _
  congr 1
  funext a
  apply Fin.ext
  match a with
  | ⟨0, _⟩ => show win4_0.index t (0 : Fin 2) * 5000 + 1 * p.val = (i 0).val; rw [e0, h0]; omega
  | ⟨1, _⟩ => show win4_0.index t (1 : Fin 2) * 64 + 1 * k.val = (i 1).val; rw [e1, h1]; omega

/-- The feature window's block at point t is rows 5000·t … of the feature array. -/
theorem blk1_apply (c : Dev nD) (t : Fin cfg4.N) (p : Fin 5000) (k : Fin 64) (i : S100000x64.Idx)
    (h0 : (i 0).val = 5000 * t.val + p.val) (h1 : (i 1).val = k.val) :
    (iblk4 V c 1 t : Vec Ideal S5000x64 .f32) (ix2 p k) = (V c main_v78 : S100000x64.Idx → EReal) i := by
  obtain ⟨-, -, e0, e1, -⟩ := idx_facts t
  unfold iblk4
  rw [View.read_apply]
  show V c main_v78 _ = V c main_v78 _
  congr 1
  funext a
  apply Fin.ext
  match a with
  | ⟨0, _⟩ => show win4_1.index t (0 : Fin 2) * 5000 + 1 * p.val = (i 0).val; rw [e0, h0]; omega
  | ⟨1, _⟩ => show win4_1.index t (1 : Fin 2) * 64 + 1 * k.val = (i 1).val; rw [e1, h1]; omega

/-- The first weight window's block at every point is its whole array. -/
theorem blk2_eq (c : Dev nD) (t : Fin cfg4.N) : (iblk4 V c 2 t : Vec Ideal S64x64 .bf16) = (V c main_v92 : S64x64.Idx → EReal) := by
  obtain ⟨-, -, -, -, e0, e1, -⟩ := idx_facts t
  funext y
  unfold iblk4
  rw [View.read_apply]
  show V c main_v92 _ = V c main_v92 _
  congr 1
  funext a
  apply Fin.ext
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- The bias window's block at every point is the whole bias row. -/
theorem blk3_eq (c : Dev nD) (t : Fin cfg4.N) : (iblk4 V c 3 t : Vec Ideal S1x64 .f32) = (V c main_v94 : S1x64.Idx → EReal) := by
  obtain ⟨-, -, -, -, -, -, e0, e1, -⟩ := idx_facts t
  funext y
  unfold iblk4
  rw [View.read_apply]
  show V c main_v94 _ = V c main_v94 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

/-- The second weight window's block at every point is its whole array. -/
theorem blk4_eq (c : Dev nD) (t : Fin cfg4.N) : (iblk4 V c 4 t : Vec Ideal S64x64 .bf16) = (V c main_v96 : S64x64.Idx → EReal) := by
  obtain ⟨-, -, -, -, -, -, -, -, e0, e1, -⟩ := idx_facts t
  funext y
  unfold iblk4
  rw [View.read_apply]
  show V c main_v96 _ = V c main_v96 _
  congr 1
  funext a
  apply Fin.ext
  match a with
  | ⟨0, _⟩ => show win4_4.index t (0 : Fin 2) * 64 + 1 * (y 0).val = (y 0).val; rw [e0]; omega
  | ⟨1, _⟩ => show win4_4.index t (1 : Fin 2) * 64 + 1 * (y 1).val = (y 1).val; rw [e1]; omega

/-- WHAT POINT t WRITES BACK is block t of G of the arrays the region finds. -/
theorem flushed_eq (c : Dev nD) (t : Fin cfg4.N) :
    (dat4 V c).flushed 5 t = ((cfg4.win 5).blk t).view.read (Elt Ideal)
      (G (V c main_v90) (V c main_v78) (V c main_v92) (V c main_v94) (V c main_v96)) := by
  show (cfg4.win 5).cut (grid4.coords t) ((dat4 V c).after 5 t) = _
  rw [after4_5]
  obtain ⟨-, -, -, -, -, -, -, -, -, -, e0, e1⟩ := idx_facts t
  funext y
  obtain ⟨p, q, rfl⟩ : ∃ (p : Fin 5000) (q : Fin 64), y = ix2 p q := ⟨y 0, y 1, eq_ix2 y⟩
  rw [View.read_apply]
  show out4_5 (iblk4 V c 0 t) (iblk4 V c 1 t) (iblk4 V c 2 t) (iblk4 V c 3 t) (iblk4 V c 4 t) (ix2 p q) = _
  rw [out_apply, blk2_eq, blk3_eq, blk4_eq]
  unfold G Gnn.sageStep
  have hr : ((((cfg4.win 5).blk t).view.emb (ix2 p q)) 0).val = 5000 * t.val + p.val := by
    show win4_5.index t (0 : Fin 2) * 5000 + 1 * p.val = _; rw [e0]; omega
  have hc : ((((cfg4.win 5).blk t).view.emb (ix2 p q)) 1) = q := by
    apply Fin.ext; show win4_5.index t (1 : Fin 2) * 64 + 1 * q.val = _; rw [e1]; omega
  rw [hc]
  have hsa : ∀ k : Fin 64, (iblk4 V c 0 t : Vec Ideal S5000x64 .f32) (ix2 p k)
      = (V c main_v90 : S100000x64.Idx → EReal) (ix2 ((((cfg4.win 5).blk t).view.emb (ix2 p q)) 0) k) :=
    fun k => blk0_apply V c t p k _ hr rfl
  have hsh : ∀ k : Fin 64, (iblk4 V c 1 t : Vec Ideal S5000x64 .f32) (ix2 p k)
      = (V c main_v78 : S100000x64.Idx → EReal) (ix2 ((((cfg4.win 5).blk t).view.emb (ix2 p q)) 0) k) :=
    fun k => blk1_apply V c t p k _ hr rfl
  simp only [hsa, hsh]
  rfl

/-- An index of the output array is in point t's block iff each coordinate is in the block's range on its axis. -/
theorem mem_blk (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v97).slice (win4_5.rect t)).set ↔ _
  rw [View.set_slice_whole, Rect.mem_set_unit]
  exact Iff.rfl

/-- Every index of the output array is in some flushing point's block: row r in the block of point r / 5000. -/
theorem cover (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  refine ⟨⟨(i 0).val / 5000, by rw [show cfg4.N = 20 from N_4]; omega⟩, flush4_5 _, ?_⟩
  rw [mem_blk]
  obtain ⟨-, -, -, -, -, -, -, -, -, -, e0, e1⟩ := idx_facts ⟨(i 0).val / 5000, by rw [show cfg4.N = 20 from N_4]; omega⟩
  intro a
  match a with
  | ⟨0, _⟩ => show win4_5.index _ (0 : Fin 2) * 5000 ≤ (i 0).val ∧ (i 0).val < win4_5.index _ (0 : Fin 2) * 5000 + 5000; rw [e0]; show (i 0).val / 5000 * 5000 ≤ _ ∧ _ < (i 0).val / 5000 * 5000 + 5000; omega
  | ⟨1, _⟩ => show win4_5.index _ (1 : Fin 2) * 64 ≤ (i 1).val ∧ (i 1).val < win4_5.index _ (1 : Fin 2) * 64 + 64; rw [e1]; omega

/-- THE OUTPUT ARRAY after the region: G of the arrays the region finds. -/
theorem final (c : Dev nD) : (dat4 V c).arrAt 5 cfg4.N = G (V c main_v90) (V c main_v78) (V c main_v92) (V c main_v94) (V c main_v96) :=
  (dat4 V c).arrAt_eq_of_cover 5 (G (V c main_v90) (V c main_v78) (V c main_v92) (V c main_v94) (V c main_v96)) (fun t _ => flushed_eq V c t) cover

end Cert.KernelIdeal.Sage4

end
-- ==== Proof.Heads.lean ====
/-
  The heads region: what its two output arrays hold after the region, as functions of the arrays it finds.

  The grid has one point; every window's block is its whole array. The body stores g . wp + bp (the policy head, a
  [64, 6158] matrix) and tanh(g . wv + bv) (the value head, a [64, 1] column), each product into a zero accumulator
  with the bias row spread down the 64 rows. So the two arrays end holding (r, j) ↦ sum_k g(r,k) · wp(k,j) + bp(j) and
  (r, 0) ↦ tanh (sum_k g(r,k) · wv(k,0) + bv(0)).
-/
import proofs.«126712_j22737556865376_1_alg».proof.Proof.Gen.KernelIdeal.Frame
import proofs.«126712_j22737556865376_1_alg».proof.Proof.Tiles
import Idealize.ShloMosaic.Lib.Pipeline.Value
import Idealize.ShloMosaic.Lib.Tactic

set_option maxRecDepth 16384

noncomputable section

namespace Cert.KernelIdeal.Heads

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a whole-buffer rectangle. -/
theorem hz : (![0, 0] : Fin 2 → Nat) = fun _ => 0 := funext fun a => by fin_cases a <;> rfl

/-- The policy head's product is a plain [64, 64] × [64, 6158] one. -/
theorem plainP : PlainDot.IsPlain dot_S64x64_S64x6158_S64x6158_1_0_0_1_n_n where
  rank := rfl
  size := rfl
  lhs0 := fun i q => by
    unfold DotDims.lhsIdx
    rw [dif_neg (show ¬(0 : Fin S64x64.rank) ∈ dot_S64x64_S64x6158_S64x6158_1_0_0_1_n_n.lhsBatch by decide),
      dif_pos (show (0 : Fin S64x64.rank) ∈ dot_S64x64_S64x6158_S64x6158_1_0_0_1_n_n.lhsNonContracting by decide)]
    rfl
  lhs1 := fun i q => dot_S64x64_S64x6158_S64x6158_1_0_0_1_n_n.lhsIdx_val_of_single rfl i q
  rhs0 := fun i q => dot_S64x64_S64x6158_S64x6158_1_0_0_1_n_n.rhsIdx_val_of_single rfl i q
  rhs1 := fun i q => by
    unfold DotDims.rhsIdx
    rw [dif_neg (show ¬(1 : Fin S64x6158.rank) ∈ dot_S64x64_S64x6158_S64x6158_1_0_0_1_n_n.rhsBatch by decide),
      dif_pos (show (1 : Fin S64x6158.rank) ∈ dot_S64x64_S64x6158_S64x6158_1_0_0_1_n_n.rhsNonContracting by decide)]
    rfl

/-- The value head's product is a plain [64, 64] × [64, 1] one. -/
theorem plainV : PlainDot.IsPlain dot_S64x64_S64x1_S64x1_1_0_0_1_n_n where
  rank := rfl
  size := rfl
  lhs0 := fun i q => by
    unfold DotDims.lhsIdx
    rw [dif_neg (show ¬(0 : Fin S64x64.rank) ∈ dot_S64x64_S64x1_S64x1_1_0_0_1_n_n.lhsBatch by decide),
      dif_pos (show (0 : Fin S64x64.rank) ∈ dot_S64x64_S64x1_S64x1_1_0_0_1_n_n.lhsNonContracting by decide)]
    rfl
  lhs1 := fun i q => dot_S64x64_S64x1_S64x1_1_0_0_1_n_n.lhsIdx_val_of_single rfl i q
  rhs0 := fun i q => dot_S64x64_S64x1_S64x1_1_0_0_1_n_n.rhsIdx_val_of_single rfl i q
  rhs1 := fun i q => by
    unfold DotDims.rhsIdx
    rw [dif_neg (show ¬(1 : Fin S64x1.rank) ∈ dot_S64x64_S64x1_S64x1_1_0_0_1_n_n.rhsBatch by decide),
      dif_pos (show (1 : Fin S64x1.rank) ∈ dot_S64x64_S64x1_S64x1_1_0_0_1_n_n.rhsNonContracting by decide)]
    rfl

/-- The policy store, read at entry (p, q). -/
theorem payP_apply (g : Vec Ideal S64x64 .f32) (wp : Vec Ideal S64x6158 .bf16) (bp : Vec Ideal S1x6158 .f32) (p : Fin 64) (q : Fin 6158) :
    k5_pay2 g wp bp (ix2 p q) = Gnn.affine g wp (fun j => bp (ix2 ⟨0, Nat.one_pos⟩ j)) p q := by
  unfold k5_pay2 k5_pay1
  simp only [shapeCast_self]
  exact Gnn.affineTile_apply _ plainP (truncf .bf16 g bitsLt_bf16_f32) wp bp broadcasts_S1x6158_S64x6158 p q

/-- The value store, read at entry (p, q). -/
theorem payV_apply (g : Vec Ideal S64x64 .f32) (wv : Vec Ideal S64x1 .bf16) (bv : Vec Ideal S1x1 .f32) (p : Fin 64) (q : Fin 1) :
    k5_pay3 g wv bv (ix2 p q) = Ideal.tanh (Gnn.affine g wv (fun j => bv (ix2 ⟨0, Nat.one_pos⟩ j)) p q) := by
  unfold k5_pay3 k5_pay1
  simp only [shapeCast_self]
  exact congrArg Ideal.tanh (Gnn.affineTile_apply _ plainV (truncf .bf16 g bitsLt_bf16_f32) wv bv broadcasts_S1x1_S64x1 p q)

/-- What the body leaves in the policy window's buffer, read at (p, q). -/
theorem outP_apply (x0 : Vec Ideal S64x64 .f32) (x1 : Vec Ideal S64x6158 .bf16) (x2 : Vec Ideal S1x6158 .f32) (x3 : Vec Ideal S64x1 .bf16) (x4 : Vec Ideal S1x1 .f32) (p : Fin 64) (q : Fin 6158) :
    out5_5 x0 x1 x2 x3 x4 (ix2 p q) = Gnn.affine x0 x1 (fun j => x2 (ix2 ⟨0, Nat.one_pos⟩ j)) p q := by
  unfold out5_5
  rw [View.canon_unit_zero hz]
  simp only [View.ld_unit_zero (S := S64x64) hz, View.ld_unit_zero (S := S64x6158) hz, View.ld_unit_zero (S := S1x6158) hz]
  exact payP_apply x0 x1 x2 p q

/-- What the body leaves in the value window's buffer, read at (p, q). -/
theorem outV_apply (x0 : Vec Ideal S64x64 .f32) (x1 : Vec Ideal S64x6158 .bf16) (x2 : Vec Ideal S1x6158 .f32) (x3 : Vec Ideal S64x1 .bf16) (x4 : Vec Ideal S1x1 .f32) (p : Fin 64) (q : Fin 1) :
    out5_6 x0 x1 x2 x3 x4 (ix2 p q) = Ideal.tanh (Gnn.affine x0 x3 (fun j => x4 (ix2 ⟨0, Nat.one_pos⟩ j)) p q) := by
  unfold out5_6
  rw [View.canon_unit_zero hz]
  simp only [View.ld_unit_zero (S := S64x64) hz, View.ld_unit_zero (S := S64x1) hz, View.ld_unit_zero (S := S1x1) hz]
  exact payV_apply x0 x3 x4 p q

/-- The whole-array function the policy output ends holding. -/
def GP (g : S64x64.Idx → EReal) (wp : S64x6158.Idx → EReal) (bp : S1x6158.Idx → EReal) : S64x6158.Idx → EReal :=
  fun i => Gnn.affine g wp (fun j => bp (ix2 ⟨0, Nat.one_pos⟩ j)) (i 0) (i 1)

/-- The whole-array function the value output ends holding. -/
def GV (g : S64x64.Idx → EReal) (wv : S64x1.Idx → EReal) (bv : S1x1.Idx → EReal) : S64x1.Idx → EReal :=
  fun i => Ideal.tanh (Gnn.affine g wv (fun j => bv (ix2 ⟨0, Nat.one_pos⟩ j)) (i 0) (i 1))

variable (V : (c : Dev nD) → (b : Ref sig .tc) → Buf (Elt Ideal) ((c : Thread nD τ).loc b))

/-- The printed index maps at the one point: every window at block (0, 0). -/
theorem idx_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 ∧ True :=
  (by decide +kernel : ∀ t : Fin grid5.N, _)

/-- Each input window's block at the point is its whole array. -/
theorem blk0_eq (c : Dev nD) (t : Fin cfg5.N) : (iblk5 V c 0 t : Vec Ideal S64x64 .f32) = (V c main_v109 : S64x64.Idx → EReal) := by
  obtain ⟨e0, e1, -⟩ := idx_facts t
  funext y
  unfold iblk5
  rw [View.read_apply]
  show V c main_v109 _ = V c main_v109 _
  congr 1
  funext a
  apply Fin.ext
  match a with
  | ⟨0, _⟩ => show win5_0.index t (0 : Fin 2) * 64 + 1 * (y 0).val = (y 0).val; rw [e0]; omega
  | ⟨1, _⟩ => show win5_0.index t (1 : Fin 2) * 64 + 1 * (y 1).val = (y 1).val; rw [e1]; omega

theorem blk1_eq (c : Dev nD) (t : Fin cfg5.N) : (iblk5 V c 1 t : Vec Ideal S64x6158 .bf16) = (V c main_v111 : S64x6158.Idx → EReal) := by
  obtain ⟨-, -, e0, e1, -⟩ := idx_facts t
  funext y
  unfold iblk5
  rw [View.read_apply]
  show V c main_v111 _ = V c main_v111 _
  congr 1
  funext a
  apply Fin.ext
  match a with
  | ⟨0, _⟩ => show win5_1.index t (0 : Fin 2) * 64 + 1 * (y 0).val = (y 0).val; rw [e0]; omega
  | ⟨1, _⟩ => show win5_1.index t (1 : Fin 2) * 6158 + 1 * (y 1).val = (y 1).val; rw [e1]; omega

theorem blk2_eq (c : Dev nD) (t : Fin cfg5.N) : (iblk5 V c 2 t : Vec Ideal S1x6158 .f32) = (V c main_v114 : S1x6158.Idx → EReal) := by
  obtain ⟨-, -, -, -, e0, e1, -⟩ := idx_facts t
  funext y
  unfold iblk5
  rw [View.read_apply]
  show V c main_v114 _ = V c main_v114 _
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 6158 + 1 * (y 1).val = (y 1).val; rw [e1]; omega

theorem blk3_eq (c : Dev nD) (t : Fin cfg5.N) : (iblk5 V c 3 t : Vec Ideal S64x1 .bf16) = (V c main_v113 : S64x1.Idx → EReal) := by
  obtain ⟨-, -, -, -, -, -, e0, e1, -⟩ := idx_facts t
  funext y
  unfold iblk5
  rw [View.read_apply]
  show V c main_v113 _ = V c main_v113 _
  congr 1
  funext a
  apply Fin.ext
  match a with
  | ⟨0, _⟩ => show win5_3.index t (0 : Fin 2) * 64 + 1 * (y 0).val = (y 0).val; rw [e0]; omega
  | ⟨1, _⟩ => show win5_3.index t (1 : Fin 2) * 1 + 1 * (y 1).val = (y 1).val; rw [e1]; omega

theorem blk4_eq (c : Dev nD) (t : Fin cfg5.N) : (iblk5 V c 4 t : Vec Ideal S1x1 .f32) = (V c main_v115 : S1x1.Idx → EReal) := by
  obtain ⟨-, -, -, -, -, -, -, -, e0, e1, -⟩ := idx_facts t
  funext y
  unfold iblk5
  rw [View.read_apply]
  show V c main_v115 _ = V c main_v115 _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 1 + 1 * (y 1).val = (y 1).val; rw [e1]; omega

/-- WHAT THE POINT WRITES BACK to the policy array is GP of the arrays the region finds, whole. -/
theorem flushedP_eq (c : Dev nD) (t : Fin cfg5.N) :
    (dat5 V c).flushed 5 t = ((cfg5.win 5).blk t).view.read (Elt Ideal) (GP (V c main_v109) (V c main_v111) (V c main_v114)) := by
  show (cfg5.win 5).cut (grid5.coords t) ((dat5 V c).after 5 t) = _
  rw [after5_5]
  obtain ⟨-, -, -, -, -, -, -, -, -, -, e0, e1, -⟩ := idx_facts t
  funext y
  obtain ⟨p, q, rfl⟩ : ∃ (p : Fin 64) (q : Fin 6158), y = ix2 p q := ⟨y 0, y 1, eq_ix2 y⟩
  rw [View.read_apply]
  show out5_5 (iblk5 V c 0 t) (iblk5 V c 1 t) (iblk5 V c 2 t) (iblk5 V c 3 t) (iblk5 V c 4 t) (ix2 p q) = _
  rw [outP_apply, blk0_eq, blk1_eq, blk2_eq]
  have he : ((cfg5.win 5).blk t).view.emb (ix2 p q) = (ix2 p q : S64x6158.Idx) := funext fun a => Fin.ext (by
    match a with
    | ⟨0, _⟩ => show win5_5.index t (0 : Fin 2) * 64 + 1 * p.val = p.val; rw [e0]; omega
    | ⟨1, _⟩ => show win5_5.index t (1 : Fin 2) * 6158 + 1 * q.val = q.val; rw [e1]; omega)
  rw [he]
  rfl

/-- WHAT THE POINT WRITES BACK to the value array is GV of the arrays the region finds, whole. -/
theorem flushedV_eq (c : Dev nD) (t : Fin cfg5.N) :
    (dat5 V c).flushed 6 t = ((cfg5.win 6).blk t).view.read (Elt Ideal) (GV (V c main_v109) (V c main_v113) (V c main_v115)) := by
  show (cfg5.win 6).cut (grid5.coords t) ((dat5 V c).after 6 t) = _
  rw [after5_6]
  obtain ⟨-, -, -, -, -, -, -, -, -, -, -, -, e0, e1, -⟩ := idx_facts t
  funext y
  obtain ⟨p, q, rfl⟩ : ∃ (p : Fin 64) (q : Fin 1), y = ix2 p q := ⟨y 0, y 1, eq_ix2 y⟩
  rw [View.read_apply]
  show out5_6 (iblk5 V c 0 t) (iblk5 V c 1 t) (iblk5 V c 2 t) (iblk5 V c 3 t) (iblk5 V c 4 t) (ix2 p q) = _
  rw [outV_apply, blk0_eq, blk3_eq, blk4_eq]
  have he : ((cfg5.win 6).blk t).view.emb (ix2 p q) = (ix2 p q : S64x1.Idx) := funext fun a => Fin.ext (by
    match a with
    | ⟨0, _⟩ => show win5_6.index t (0 : Fin 2) * 64 + 1 * p.val = p.val; rw [e0]; omega
    | ⟨1, _⟩ => show win5_6.index t (1 : Fin 2) * 1 + 1 * q.val = q.val; rw [e1]; omega)
  rw [he]
  rfl

/-- The one point's policy block is the whole policy array. -/
theorem coverP (i : S64x6158.Idx) : ∃ t : Fin cfg5.N, (cfg5.win 5).flush t = true ∧ i ∈ ((cfg5.win 5).blk t).view.set := by
  have hi0 : (i 0).val < 64 := (i 0).isLt
  have hi1 : (i 1).val < 6158 := (i 1).isLt
  obtain ⟨-, -, -, -, -, -, -, -, -, -, e0, e1, -⟩ := idx_facts t5_0
  refine ⟨t5_0, flush5_5 _, ?_⟩
  show i ∈ ((View.whole main_v116_0).slice (win5_5.rect t5_0)).set
  rw [View.set_slice_whole, Rect.mem_set_unit]
  intro a
  match a with
  | ⟨0, _⟩ => show win5_5.index t5_0 (0 : Fin 2) * 64 ≤ (i 0).val ∧ (i 0).val < win5_5.index t5_0 (0 : Fin 2) * 64 + 64; rw [e0]; omega
  | ⟨1, _⟩ => show win5_5.index t5_0 (1 : Fin 2) * 6158 ≤ (i 1).val ∧ (i 1).val < win5_5.index t5_0 (1 : Fin 2) * 6158 + 6158; rw [e1]; omega

/-- The one point's value block is the whole value array. -/
theorem coverV (i : S64x1.Idx) : ∃ t : Fin cfg5.N, (cfg5.win 6).flush t = true ∧ i ∈ ((cfg5.win 6).blk t).view.set := by
  have hi0 : (i 0).val < 64 := (i 0).isLt
  have hi1 : (i 1).val < 1 := (i 1).isLt
  obtain ⟨-, -, -, -, -, -, -, -, -, -, -, -, e0, e1, -⟩ := idx_facts t5_0
  refine ⟨t5_0, flush5_6 _, ?_⟩
  show i ∈ ((View.whole main_v116_1).slice (win5_6.rect t5_0)).set
  rw [View.set_slice_whole, Rect.mem_set_unit]
  intro a
  match a with
  | ⟨0, _⟩ => show win5_6.index t5_0 (0 : Fin 2) * 64 ≤ (i 0).val ∧ (i 0).val < win5_6.index t5_0 (0 : Fin 2) * 64 + 64; rw [e0]; omega
  | ⟨1, _⟩ => show win5_6.index t5_0 (1 : Fin 2) * 1 ≤ (i 1).val ∧ (i 1).val < win5_6.index t5_0 (1 : Fin 2) * 1 + 1; rw [e1]; omega

/-- THE POLICY ARRAY after the region. -/
theorem finalP (c : Dev nD) : (dat5 V c).arrAt 5 cfg5.N = GP (V c main_v109) (V c main_v111) (V c main_v114) :=
  (dat5 V c).arrAt_eq_of_cover 5 (GP (V c main_v109) (V c main_v111) (V c main_v114)) (fun t _ => flushedP_eq V c t) coverP

/-- THE VALUE ARRAY after the region. -/
theorem finalV (c : Dev nD) : (dat5 V c).arrAt 6 cfg5.N = GV (V c main_v109) (V c main_v113) (V c main_v115) :=
  (dat5 V c).arrAt_eq_of_cover 6 (GV (V c main_v109) (V c main_v113) (V c main_v115)) (fun t _ => flushedV_eq V c t) coverV

end Cert.KernelIdeal.Heads

end
-- ==== Proof.Whole.lean ====
/-
  The dense steps as functions of whole arrays, and the host's spelling of each.

  Proof/Tiles.lean fixes the entry formulas (denseRelu, sageStep, affine) and reads the tile and the host spellings at
  one entry. Here each step is the whole-array function "entry (r, j) of the result is the formula at (r, j)", and it is
  shown equal to the host's composition of whole-array operations. The weight matrix and the bias are allowed to reach
  the two sides through different layouts: the statement takes, as hypotheses, that the two weight matrices agree entry
  by entry and that the host's full-shape bias has the tile's bias row in every row. What is used is only that a matrix
  product read at an entry is the sum over the contracted axis; the two sides group their additions the same way.
-/
import proofs.«126712_j22737556865376_1_alg».proof.Proof.Tiles

noncomputable section

namespace Gnn

open Idealize.ShloMosaic Idealize.ShloMosaic.ValueIdx

variable {M K N : Nat} {φ₁ φ₂ : FTy}

/-- The bias row of a [1, N] array as a function of the column. -/
abbrev rowOf (b : (⟨2, ![1, N]⟩ : Shape).Idx → EReal) : Fin N → EReal := fun j => b (ix2 ⟨0, Nat.one_pos⟩ j)

/-- relu(x.w + b) as a whole array. -/
def denseArr (x : Mat M K) (w : Mat K N) (b : Fin N → EReal) : Mat M N := fun i => denseRelu x w b (i 0) (i 1)

/-- relu(a.wl + b + h.wr) + h as a whole array. -/
def sageArr (a h : Mat M K) (wl wr : Mat K K) (b : Fin K → EReal) : Mat M K := fun i => sageStep a h wl wr b (i 0) (i 1)

/-- g.w + b as a whole array. -/
def affineArr (g : Mat M K) (w : Mat K N) (b : Fin N → EReal) : Mat M N := fun i => affine g w b (i 0) (i 1)

/-- tanh(g.w + b) as a whole array. -/
def tanhAffineArr (g : Mat M K) (w : Mat K N) (b : Fin N → EReal) : Mat M N := fun i => Ideal.tanh (affine g w b (i 0) (i 1))

/-- Layer o of a stack of four [64, 64] matrices, transposed: entry (k, j) is x(o, j, k). -/
def stackT (x : (⟨3, ![4, 64, 64]⟩ : Shape).Idx → EReal) (o : Nat) (ho : o < 4) : Mat 64 64 := fun i => x (ix3 ⟨o, ho⟩ (i 1) (i 0))

/-- Row o of a stack of four bias vectors. -/
def stackRow (x : (⟨2, ![4, 64]⟩ : Shape).Idx → EReal) (o : Nat) (ho : o < 4) : Fin 64 → EReal := fun j => x (ix2 ⟨o, ho⟩ j)

/-- A vector as a function of its position. -/
abbrev vecOf {n : Nat} (x : (⟨1, ![n]⟩ : Shape).Idx → EReal) : Fin n → EReal := fun j => x (ix1 j)

/-- The host's encoder is denseArr. -/
theorem denseArr_eq_host (D : DotDims ⟨2, ![M, K]⟩ ⟨2, ![K, N]⟩ ⟨2, ![M, N]⟩) (hD : PlainDot.IsPlain D)
    (x : FVec Ideal ⟨2, ![M, K]⟩ φ₁) (wT : FVec Ideal ⟨2, ![K, N]⟩ φ₂) (bb z : FVec Ideal ⟨2, ![M, N]⟩ .f32)
    (wK : Mat K N) (bK : Fin N → EReal)
    (hw : ∀ k j, wK (ix2 k j) = wT (ix2 k j)) (hb : ∀ r j, bb (ix2 r j) = bK j) (hz : ∀ i, z i = 0) :
    denseArr x wK bK = maximumf (addf (Host.dotGeneral D none x wT) bb) z := by
  funext i
  obtain ⟨r, j, rfl⟩ : ∃ (r : Fin M) (j : Fin N), i = ix2 r j := ⟨i 0, i 1, eq_ix2 i⟩
  rw [denseHost_apply D hD x wT bb z bK hb hz r j]
  show denseRelu x wK bK r j = denseRelu x wT bK r j
  unfold denseRelu
  simp only [hw]

/-- The host's update is sageArr. -/
theorem sageArr_eq_host (D : DotDims ⟨2, ![M, K]⟩ ⟨2, ![K, K]⟩ ⟨2, ![M, K]⟩) (hD : PlainDot.IsPlain D)
    (a h : FVec Ideal ⟨2, ![M, K]⟩ .f32) (wlT wrT : FVec Ideal ⟨2, ![K, K]⟩ .f32) (bb z : FVec Ideal ⟨2, ![M, K]⟩ .f32)
    (wlK wrK : Mat K K) (bK : Fin K → EReal)
    (hwl : ∀ k j, wlK (ix2 k j) = wlT (ix2 k j)) (hwr : ∀ k j, wrK (ix2 k j) = wrT (ix2 k j))
    (hb : ∀ r j, bb (ix2 r j) = bK j) (hz : ∀ i, z i = 0) :
    sageArr a h wlK wrK bK = addf (maximumf (addf (addf (Host.dotGeneral D none a wlT) bb) (Host.dotGeneral D none h wrT)) z) h := by
  funext i
  obtain ⟨r, j, rfl⟩ : ∃ (r : Fin M) (j : Fin K), i = ix2 r j := ⟨i 0, i 1, eq_ix2 i⟩
  rw [sageHost_apply D hD a h wlT wrT bb z bK hb hz r j]
  show sageStep a h wlK wrK bK r j = sageStep a h wlT wrT bK r j
  unfold sageStep
  simp only [hwl, hwr]

/-- The host's linear head is affineArr. -/
theorem affineArr_eq_host (D : DotDims ⟨2, ![M, K]⟩ ⟨2, ![K, N]⟩ ⟨2, ![M, N]⟩) (hD : PlainDot.IsPlain D)
    (g : FVec Ideal ⟨2, ![M, K]⟩ φ₁) (wT : FVec Ideal ⟨2, ![K, N]⟩ φ₂) (bb : FVec Ideal ⟨2, ![M, N]⟩ .f32)
    (wK : Mat K N) (bK : Fin N → EReal)
    (hw : ∀ k j, wK (ix2 k j) = wT (ix2 k j)) (hb : ∀ r j, bb (ix2 r j) = bK j) :
    affineArr g wK bK = addf (Host.dotGeneral D none g wT) bb := by
  funext i
  obtain ⟨r, j, rfl⟩ : ∃ (r : Fin M) (j : Fin N), i = ix2 r j := ⟨i 0, i 1, eq_ix2 i⟩
  rw [affineHost_apply D hD g wT bb bK hb r j]
  show affine g wK bK r j = affine g wT bK r j
  unfold affine
  simp only [hw]

/-- The host's value head, tanh of a linear head, is tanhAffineArr. The two tanh spellings are one function on the
    extended reals. -/
theorem tanhAffineArr_eq_host (D : DotDims ⟨2, ![M, K]⟩ ⟨2, ![K, N]⟩ ⟨2, ![M, N]⟩) (hD : PlainDot.IsPlain D)
    (g : FVec Ideal ⟨2, ![M, K]⟩ φ₁) (wT : FVec Ideal ⟨2, ![K, N]⟩ φ₂) (bb : FVec Ideal ⟨2, ![M, N]⟩ .f32)
    (wK : Mat K N) (bK : Fin N → EReal)
    (hw : ∀ k j, wK (ix2 k j) = wT (ix2 k j)) (hb : ∀ r j, bb (ix2 r j) = bK j) :
    tanhAffineArr g wK bK = Host.tanh (addf (Host.dotGeneral D none g wT) bb) := by
  funext i
  show Ideal.tanh (affineArr g wK bK i) = Ideal.tanh (addf (Host.dotGeneral D none g wT) bb i)
  rw [affineArr_eq_host D hD g wT bb wK bK hw hb]

end Gnn

end
-- ==== Proof.Layout.lean ====
/-
  Where the weights of one layer sit in the stacked arguments, read at an entry.

  The weights of the four layers arrive stacked: a [4, 64, 64] array for each of the two matrices and a [4, 64] array
  for the biases. One side of the comparison transposes the whole stack on its last two axes, cuts layer o out and drops
  the unit axis; the other cuts layer o out, drops the unit axis and transposes the matrix. Both are the matrix whose
  entry (k, j) is x(o, j, k). For the bias one side reshapes [4, 64] to [4, 1, 64], cuts row o and drops one unit axis
  to a [1, 64] row; the other cuts row o of [4, 64], drops the unit axis, and spreads the vector as a row down all the
  rows. Both have x(o, j) in column j. Every step is a change of layout, read at an index; nothing depends on a program.
-/
import Idealize.ShloMosaic.Lib.Pipeline.Value
import Idealize.ShloMosaic.Lib.ValueIdx

noncomputable section

namespace Gnn.Layout

open Idealize.ShloMosaic Idealize.ShloMosaic.ValueIdx

variable {α : Type}

/-- The stack transposed on its last two axes, layer o cut out, the unit axis dropped: entry (k, j) is x(o, j, k). -/
theorem stackT_cut_apply (x : (⟨3, ![4, 64, 64]⟩ : Shape).Idx → α) (o : Nat) (ho : o < 4)
    (ht : (⟨3, ![4, 64, 64]⟩ : Shape).Transposes [0, 2, 1] ⟨3, ![4, 64, 64]⟩)
    (hs : (⟨3, ![4, 64, 64]⟩ : Shape).Slices ![o, 0, 0] ⟨3, ![1, 64, 64]⟩)
    (hc : (⟨3, ![1, 64, 64]⟩ : Shape).ShapeCasts ⟨2, ![64, 64]⟩) (k j : Fin 64) :
    shapeCast ⟨2, ![64, 64]⟩ (extractStridedSlice ⟨3, ![1, 64, 64]⟩ ![o, 0, 0] (transpose ⟨3, ![4, 64, 64]⟩ [0, 2, 1] x ht) hs) hc (ix2 k j)
      = x (ix3 ⟨o, ho⟩ j k) := by
  have hk : k.val < 64 := k.isLt
  have hj : j.val < 64 := j.isLt
  rw [shapeCast_apply _ hc (ix2 k j) (ix3 ⟨0, Nat.one_pos⟩ k j)
    (by rewrite [Shape.rowMajor_val_three, Shape.rowMajor_val_two]; show (0 * 64 + k.val) * 64 + j.val = k.val * 64 + j.val; omega)]
  rw [extractStridedSlice_apply ![o, 0, 0] _ hs (ix3 ⟨0, Nat.one_pos⟩ k j) (ix3 ⟨o, ho⟩ k j) (fun a => match a with
    | ⟨0, _⟩ => by show o = o + 0; omega
    | ⟨1, _⟩ => by show k.val = 0 + k.val; omega
    | ⟨2, _⟩ => by show j.val = 0 + j.val; omega)]
  exact transpose_apply [0, 2, 1] x ht (ix3 ⟨o, ho⟩ k j) (ix3 ⟨o, ho⟩ j k) (fun b => match b with
    | ⟨0, _⟩ => rfl
    | ⟨1, _⟩ => rfl
    | ⟨2, _⟩ => rfl)

/-- Layer o cut out of a stack of four matrices, the unit axis dropped: entry (k, j) is y(o, k, j). -/
theorem cut_apply (y : (⟨3, ![4, 64, 64]⟩ : Shape).Idx → α) (o : Nat) (ho : o < 4)
    (hs : (⟨3, ![4, 64, 64]⟩ : Shape).Slices ![o, 0, 0] ⟨3, ![1, 64, 64]⟩)
    (hc : (⟨3, ![1, 64, 64]⟩ : Shape).ShapeCasts ⟨2, ![64, 64]⟩) (k j : Fin 64) :
    shapeCast ⟨2, ![64, 64]⟩ (extractStridedSlice ⟨3, ![1, 64, 64]⟩ ![o, 0, 0] y hs) hc (ix2 k j) = y (ix3 ⟨o, ho⟩ k j) := by
  have hk : k.val < 64 := k.isLt
  have hj : j.val < 64 := j.isLt
  rw [shapeCast_apply _ hc (ix2 k j) (ix3 ⟨0, Nat.one_pos⟩ k j)
    (by rewrite [Shape.rowMajor_val_three, Shape.rowMajor_val_two]; show (0 * 64 + k.val) * 64 + j.val = k.val * 64 + j.val; omega)]
  exact extractStridedSlice_apply ![o, 0, 0] y hs (ix3 ⟨0, Nat.one_pos⟩ k j) (ix3 ⟨o, ho⟩ k j) (fun a => match a with
    | ⟨0, _⟩ => by show o = o + 0; omega
    | ⟨1, _⟩ => by show k.val = 0 + k.val; omega
    | ⟨2, _⟩ => by show j.val = 0 + j.val; omega)

/-- A stack of four matrices transposed on its last two axes: entry (l, k, j) is x(l, j, k). -/
theorem stackT_apply (x : (⟨3, ![4, 64, 64]⟩ : Shape).Idx → α)
    (ht : (⟨3, ![4, 64, 64]⟩ : Shape).Transposes [0, 2, 1] ⟨3, ![4, 64, 64]⟩) (l : Fin 4) (k j : Fin 64) :
    transpose ⟨3, ![4, 64, 64]⟩ [0, 2, 1] x ht (ix3 l k j) = x (ix3 l j k) :=
  transpose_apply [0, 2, 1] x ht (ix3 l k j) (ix3 l j k) (fun b => match b with
    | ⟨0, _⟩ => rfl
    | ⟨1, _⟩ => rfl
    | ⟨2, _⟩ => rfl)

/-- Row o cut out of a [4, 1, 64] stack, one unit axis dropped: the [1, 64] row with y(o, 0, j) at j. -/
theorem rowCut_apply (y : (⟨3, ![4, 1, 64]⟩ : Shape).Idx → α) (o : Nat) (ho : o < 4)
    (hs : (⟨3, ![4, 1, 64]⟩ : Shape).Slices ![o, 0, 0] ⟨3, ![1, 1, 64]⟩)
    (hc2 : (⟨3, ![1, 1, 64]⟩ : Shape).ShapeCasts ⟨2, ![1, 64]⟩) (j : Fin 64) :
    shapeCast ⟨2, ![1, 64]⟩ (extractStridedSlice ⟨3, ![1, 1, 64]⟩ ![o, 0, 0] y hs) hc2 (ix2 ⟨0, Nat.one_pos⟩ j)
      = y (ix3 ⟨o, ho⟩ ⟨0, Nat.one_pos⟩ j) := by
  have hj : j.val < 64 := j.isLt
  rw [shapeCast_apply _ hc2 (ix2 ⟨0, Nat.one_pos⟩ j) (ix3 ⟨0, Nat.one_pos⟩ ⟨0, Nat.one_pos⟩ j)
    (by rewrite [Shape.rowMajor_val_three, Shape.rowMajor_val_two]; show (0 * 1 + 0) * 64 + j.val = 0 * 64 + j.val; omega)]
  exact extractStridedSlice_apply ![o, 0, 0] y hs (ix3 ⟨0, Nat.one_pos⟩ ⟨0, Nat.one_pos⟩ j) (ix3 ⟨o, ho⟩ ⟨0, Nat.one_pos⟩ j) (fun a => match a with
    | ⟨0, _⟩ => by show o = o + 0; omega
    | ⟨1, _⟩ => by show 0 = 0 + 0; omega
    | ⟨2, _⟩ => by show j.val = 0 + j.val; omega)

/-- The bias stack [4, 64] given a unit middle axis: entry (l, 0, j) is x(l, j). -/
theorem midUnit_apply (x : (⟨2, ![4, 64]⟩ : Shape).Idx → α) (hc1 : (⟨2, ![4, 64]⟩ : Shape).ShapeCasts ⟨3, ![4, 1, 64]⟩) (l : Fin 4) (j : Fin 64) :
    shapeCast ⟨3, ![4, 1, 64]⟩ x hc1 (ix3 l ⟨0, Nat.one_pos⟩ j) = x (ix2 l j) :=
  shapeCast_apply x hc1 (ix3 l ⟨0, Nat.one_pos⟩ j) (ix2 l j)
    (by rewrite [Shape.rowMajor_val_three, Shape.rowMajor_val_two]; show l.val * 64 + j.val = (l.val * 1 + 0) * 64 + j.val; omega)

/-- Layer o cut out of the stack, the unit axis dropped, the matrix transposed: entry (k, j) is x(o, j, k). -/
theorem cut_T_apply (x : (⟨3, ![4, 64, 64]⟩ : Shape).Idx → α) (o : Nat) (ho : o < 4)
    (hs : (⟨3, ![4, 64, 64]⟩ : Shape).Slices ![o, 0, 0] ⟨3, ![1, 64, 64]⟩)
    (hc : (⟨3, ![1, 64, 64]⟩ : Shape).ShapeCasts ⟨2, ![64, 64]⟩)
    (ht : (⟨2, ![64, 64]⟩ : Shape).Transposes [1, 0] ⟨2, ![64, 64]⟩) (k j : Fin 64) :
    transpose ⟨2, ![64, 64]⟩ [1, 0] (shapeCast ⟨2, ![64, 64]⟩ (extractStridedSlice ⟨3, ![1, 64, 64]⟩ ![o, 0, 0] x hs) hc) ht (ix2 k j)
      = x (ix3 ⟨o, ho⟩ j k) := by
  have hk : k.val < 64 := k.isLt
  have hj : j.val < 64 := j.isLt
  rw [transpose_apply [1, 0] _ ht (ix2 k j) (ix2 j k) (fun b => match b with
    | ⟨0, _⟩ => rfl
    | ⟨1, _⟩ => rfl)]
  rw [shapeCast_apply _ hc (ix2 j k) (ix3 ⟨0, Nat.one_pos⟩ j k)
    (by rewrite [Shape.rowMajor_val_three, Shape.rowMajor_val_two]; show (0 * 64 + j.val) * 64 + k.val = j.val * 64 + k.val; omega)]
  exact extractStridedSlice_apply ![o, 0, 0] x hs (ix3 ⟨0, Nat.one_pos⟩ j k) (ix3 ⟨o, ho⟩ j k) (fun a => match a with
    | ⟨0, _⟩ => by show o = o + 0; omega
    | ⟨1, _⟩ => by show j.val = 0 + j.val; omega
    | ⟨2, _⟩ => by show k.val = 0 + k.val; omega)

/-- The bias stack given a unit middle axis, row o cut out, one unit axis dropped: the [1, 64] row with x(o, j) at j. -/
theorem biasRow_apply (x : (⟨2, ![4, 64]⟩ : Shape).Idx → α) (o : Nat) (ho : o < 4)
    (hc1 : (⟨2, ![4, 64]⟩ : Shape).ShapeCasts ⟨3, ![4, 1, 64]⟩)
    (hs : (⟨3, ![4, 1, 64]⟩ : Shape).Slices ![o, 0, 0] ⟨3, ![1, 1, 64]⟩)
    (hc2 : (⟨3, ![1, 1, 64]⟩ : Shape).ShapeCasts ⟨2, ![1, 64]⟩) (j : Fin 64) :
    shapeCast ⟨2, ![1, 64]⟩ (extractStridedSlice ⟨3, ![1, 1, 64]⟩ ![o, 0, 0] (shapeCast ⟨3, ![4, 1, 64]⟩ x hc1) hs) hc2 (ix2 ⟨0, Nat.one_pos⟩ j)
      = x (ix2 ⟨o, ho⟩ j) := by
  have hj : j.val < 64 := j.isLt
  rw [shapeCast_apply _ hc2 (ix2 ⟨0, Nat.one_pos⟩ j) (ix3 ⟨0, Nat.one_pos⟩ ⟨0, Nat.one_pos⟩ j)
    (by rewrite [Shape.rowMajor_val_three, Shape.rowMajor_val_two]; show (0 * 1 + 0) * 64 + j.val = 0 * 64 + j.val; omega)]
  rw [extractStridedSlice_apply ![o, 0, 0] _ hs (ix3 ⟨0, Nat.one_pos⟩ ⟨0, Nat.one_pos⟩ j) (ix3 ⟨o, ho⟩ ⟨0, Nat.one_pos⟩ j) (fun a => match a with
    | ⟨0, _⟩ => by show o = o + 0; omega
    | ⟨1, _⟩ => by show 0 = 0 + 0; omega
    | ⟨2, _⟩ => by show j.val = 0 + j.val; omega)]
  exact shapeCast_apply x hc1 (ix3 ⟨o, ho⟩ ⟨0, Nat.one_pos⟩ j) (ix2 ⟨o, ho⟩ j)
    (by rewrite [Shape.rowMajor_val_three, Shape.rowMajor_val_two]; show o * 64 + j.val = (o * 1 + 0) * 64 + j.val; omega)

/-- Row o cut out of the bias stack, the unit axis dropped, the vector laid as a row and spread down M rows: entry
    (r, j) is x(o, j). -/
theorem biasSpread_apply {M : Nat} (x : (⟨2, ![4, 64]⟩ : Shape).Idx → α) (o : Nat) (ho : o < 4)
    (hs : (⟨2, ![4, 64]⟩ : Shape).Slices ![o, 0] ⟨2, ![1, 64]⟩)
    (hc : (⟨2, ![1, 64]⟩ : Shape).ShapeCasts ⟨1, ![64]⟩)
    (hb1 : (⟨1, ![64]⟩ : Shape).BroadcastsInDim ⟨2, ![1, 64]⟩ ![1])
    (hb2 : (⟨2, ![1, 64]⟩ : Shape).BroadcastsInDim ⟨2, ![M, 64]⟩ ![0, 1]) (r : Fin M) (j : Fin 64) :
    broadcastInDim ⟨2, ![M, 64]⟩ ![0, 1] hb2 (broadcastInDim ⟨2, ![1, 64]⟩ ![1] hb1
        (shapeCast ⟨1, ![64]⟩ (extractStridedSlice ⟨2, ![1, 64]⟩ ![o, 0] x hs) hc)) (ix2 r j)
      = x (ix2 ⟨o, ho⟩ j) := by
  have hj : j.val < 64 := j.isLt
  rw [broadcastInDim_apply ![0, 1] hb2 _ (ix2 r j) (ix2 ⟨0, Nat.one_pos⟩ j) (fun a => match a with
    | ⟨0, _⟩ => by show 0 = if (1 : Nat) = 1 then 0 else r.val; rw [if_pos rfl]
    | ⟨1, _⟩ => by show j.val = if (64 : Nat) = 1 then 0 else j.val; rw [if_neg (by decide)])]
  rw [broadcastInDim_apply ![1] hb1 _ (ix2 ⟨0, Nat.one_pos⟩ j) (ix1 j) (fun a => match a with
    | ⟨0, _⟩ => by show j.val = if (64 : Nat) = 1 then 0 else j.val; rw [if_neg (by decide)])]
  rw [shapeCast_apply _ hc (ix1 j) (ix2 ⟨0, Nat.one_pos⟩ j)
    (by rewrite [Shape.rowMajor_val_two, Shape.rowMajor_val_one]; show 0 * 64 + j.val = j.val; omega)]
  exact extractStridedSlice_apply ![o, 0] x hs (ix2 ⟨0, Nat.one_pos⟩ j) (ix2 ⟨o, ho⟩ j) (fun a => match a with
    | ⟨0, _⟩ => by show o = o + 0; omega
    | ⟨1, _⟩ => by show j.val = 0 + j.val; omega)

/-- A vector of N entries reshaped to a [1, N] row: the row has x(j) at j. -/
theorem rowOfVec_apply {N : Nat} (x : (⟨1, ![N]⟩ : Shape).Idx → α) (hc : (⟨1, ![N]⟩ : Shape).ShapeCasts ⟨2, ![1, N]⟩) (j : Fin N) :
    shapeCast ⟨2, ![1, N]⟩ x hc (ix2 ⟨0, Nat.one_pos⟩ j) = x (ix1 j) :=
  shapeCast_apply x hc (ix2 ⟨0, Nat.one_pos⟩ j) (ix1 j)
    (by rewrite [Shape.rowMajor_val_two, Shape.rowMajor_val_one]; show j.val = 0 * N + j.val; omega)

/-- A vector of N entries laid as a row and spread down M rows: entry (r, j) is x(j). -/
theorem vecSpread_apply {M N : Nat} (x : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![M, N]⟩ ![0, 1]) (r : Fin M) (j : Fin N) :
    broadcastInDim ⟨2, ![M, N]⟩ ![0, 1] hb2 (broadcastInDim ⟨2, ![1, N]⟩ ![1] hb1 x) (ix2 r j) = x (ix1 j) := by
  rw [broadcastInDim_apply ![0, 1] hb2 _ (ix2 r j) (ix2 ⟨0, Nat.one_pos⟩ j) (fun a => match a with
    | ⟨0, _⟩ => by show 0 = if (1 : Nat) = 1 then 0 else r.val; rw [if_pos rfl]
    | ⟨1, _⟩ => by
      show j.val = if N = 1 then 0 else j.val
      split
      · have := j.isLt; omega
      · rfl)]
  exact broadcastInDim_apply ![1] hb1 x (ix2 ⟨0, Nat.one_pos⟩ j) (ix1 j) (fun a => match a with
    | ⟨0, _⟩ => by
      show j.val = if N = 1 then 0 else j.val
      split
      · have := j.isLt; omega
      · rfl)

end Gnn.Layout

end
-- ==== Proof.RefStages.lean ====
/-
  The reference program, stage by stage, as the dense steps of Proof/Whole.lean.

  The reference is one line of host operations. Its generated reading names every operation's value as a function of
  the program's arguments. Here those values are regrouped: the encoder's output is denseArr of the node features; each
  layer's output is sageArr of (the neighbour mean of the previous features, the previous features) with that layer's
  slices of the stacked weights; the pooled graph features are a function of the last layer's features and the batch
  ids; the two heads are affineArr and tanhAffineArr of the pooled features. The neighbour mean and the pooling are kept
  as the reference's own host operations (a gather, two scatter-adds, a division): they are not opened, since the other
  program applies the very same operations and the comparison only needs that equal inputs give equal outputs.
-/
import proofs.«126712_j22737556865376_1_alg».proof.Proof.Gen.ReferenceIdeal.Read
import proofs.«126712_j22737556865376_1_alg».proof.Proof.Whole
import proofs.«126712_j22737556865376_1_alg».proof.Proof.Layout

set_option maxRecDepth 16384

noncomputable section

namespace Cert.ReferenceIdeal.Stage

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The neighbour mean of features h along the edges x1: gather the source rows, scatter-add them at the destination
    rows, scale each row by the inverse of its clamped in-degree. -/
def agg (h : FVec Ideal S100000x64 .f32) (x1 : (⟨S2x3200000, .i32⟩ : BufTy).Contents (Elt Ideal)) : FVec Ideal S100000x64 .f32 :=
  mulf (F := Ideal) (φ := .f32) (s := S100000x64) (Host.scatterAdd (F := Ideal) scatter_S100000x64_S3200000x1_S3200000x64_1_0_0_1 (val_main_v26 (F := Ideal)) (val_main_v27 (F := Ideal) x1)
      (Host.gather gather_S100000x64_S3200000x1_S3200000x64_1_0_n_n_0_1_164 h (val_main_v24 (F := Ideal) x1)))
    (val_main_v29 (F := Ideal) x1)

/-- The mean of the node features h over each graph of the batch x2: scatter-add the rows at their graph id, divide by
    the clamped count of the graph's nodes. -/
def pool (h : FVec Ideal S100000x64 .f32) (x2 : (⟨S100000, .i32⟩ : BufTy).Contents (Elt Ideal)) : FVec Ideal S64x64 .f32 :=
  Host.divf (F := Ideal) (φ := .f32) (s := S64x64) (Host.scatterAdd (F := Ideal) scatter_S64x64_S100000x1_S100000x64_1_0_0_1 (val_main_v135 (F := Ideal)) (val_main_v136 (F := Ideal) x2) h)
    (val_main_v141 (F := Ideal) x2)

/-- The encoder's product is a plain [100000, 32] × [32, 64] one. -/
theorem plain32 : PlainDot.IsPlain dot_S100000x32_S32x64_S100000x64_1_0_0_1_n_n where
  rank := rfl
  size := rfl
  lhs0 := fun i q => by
    unfold DotDims.lhsIdx
    rw [dif_neg (show ¬(0 : Fin S100000x32.rank) ∈ dot_S100000x32_S32x64_S100000x64_1_0_0_1_n_n.lhsBatch by decide),
      dif_pos (show (0 : Fin S100000x32.rank) ∈ dot_S100000x32_S32x64_S100000x64_1_0_0_1_n_n.lhsNonContracting by decide)]
    rfl
  lhs1 := fun i q => dot_S100000x32_S32x64_S100000x64_1_0_0_1_n_n.lhsIdx_val_of_single rfl i q
  rhs0 := fun i q => dot_S100000x32_S32x64_S100000x64_1_0_0_1_n_n.rhsIdx_val_of_single rfl i q
  rhs1 := fun i q => by
    unfold DotDims.rhsIdx
    rw [dif_neg (show ¬(1 : Fin S32x64.rank) ∈ dot_S100000x32_S32x64_S100000x64_1_0_0_1_n_n.rhsBatch by decide),
      dif_pos (show (1 : Fin S32x64.rank) ∈ dot_S100000x32_S32x64_S100000x64_1_0_0_1_n_n.rhsNonContracting by decide)]
    rfl

/-- The layers' products are plain [100000, 64] × [64, 64] ones. -/
theorem plain64 : PlainDot.IsPlain dot_S100000x64_S64x64_S100000x64_1_0_0_1_n_n where
  rank := rfl
  size := rfl
  lhs0 := fun i q => by
    unfold DotDims.lhsIdx
    rw [dif_neg (show ¬(0 : Fin S100000x64.rank) ∈ dot_S100000x64_S64x64_S100000x64_1_0_0_1_n_n.lhsBatch by decide),
      dif_pos (show (0 : Fin S100000x64.rank) ∈ dot_S100000x64_S64x64_S100000x64_1_0_0_1_n_n.lhsNonContracting by decide)]
    rfl
  lhs1 := fun i q => dot_S100000x64_S64x64_S100000x64_1_0_0_1_n_n.lhsIdx_val_of_single rfl i q
  rhs0 := fun i q => dot_S100000x64_S64x64_S100000x64_1_0_0_1_n_n.rhsIdx_val_of_single rfl i q
  rhs1 := fun i q => by
    unfold DotDims.rhsIdx
    rw [dif_neg (show ¬(1 : Fin S64x64.rank) ∈ dot_S100000x64_S64x64_S100000x64_1_0_0_1_n_n.rhsBatch by decide),
      dif_pos (show (1 : Fin S64x64.rank) ∈ dot_S100000x64_S64x64_S100000x64_1_0_0_1_n_n.rhsNonContracting by decide)]
    rfl

/-- The policy head's product is a plain [64, 64] × [64, 6158] one. -/
theorem plainP : PlainDot.IsPlain dot_S64x64_S64x6158_S64x6158_1_0_0_1_n_n where
  rank := rfl
  size := rfl
  lhs0 := fun i q => by
    unfold DotDims.lhsIdx
    rw [dif_neg (show ¬(0 : Fin S64x64.rank) ∈ dot_S64x64_S64x6158_S64x6158_1_0_0_1_n_n.lhsBatch by decide),
      dif_pos (show (0 : Fin S64x64.rank) ∈ dot_S64x64_S64x6158_S64x6158_1_0_0_1_n_n.lhsNonContracting by decide)]
    rfl
  lhs1 := fun i q => dot_S64x64_S64x6158_S64x6158_1_0_0_1_n_n.lhsIdx_val_of_single rfl i q
  rhs0 := fun i q => dot_S64x64_S64x6158_S64x6158_1_0_0_1_n_n.rhsIdx_val_of_single rfl i q
  rhs1 := fun i q => by
    unfold DotDims.rhsIdx
    rw [dif_neg (show ¬(1 : Fin S64x6158.rank) ∈ dot_S64x64_S64x6158_S64x6158_1_0_0_1_n_n.rhsBatch by decide),
      dif_pos (show (1 : Fin S64x6158.rank) ∈ dot_S64x64_S64x6158_S64x6158_1_0_0_1_n_n.rhsNonContracting by decide)]
    rfl

/-- The value head's product is a plain [64, 64] × [64, 1] one. -/
theorem plainV : PlainDot.IsPlain dot_S64x64_S64x1_S64x1_1_0_0_1_n_n where
  rank := rfl
  size := rfl
  lhs0 := fun i q => by
    unfold DotDims.lhsIdx
    rw [dif_neg (show ¬(0 : Fin S64x64.rank) ∈ dot_S64x64_S64x1_S64x1_1_0_0_1_n_n.lhsBatch by decide),
      dif_pos (show (0 : Fin S64x64.rank) ∈ dot_S64x64_S64x1_S64x1_1_0_0_1_n_n.lhsNonContracting by decide)]
    rfl
  lhs1 := fun i q => dot_S64x64_S64x1_S64x1_1_0_0_1_n_n.lhsIdx_val_of_single rfl i q
  rhs0 := fun i q => dot_S64x64_S64x1_S64x1_1_0_0_1_n_n.rhsIdx_val_of_single rfl i q
  rhs1 := fun i q => by
    unfold DotDims.rhsIdx
    rw [dif_neg (show ¬(1 : Fin S64x1.rank) ∈ dot_S64x64_S64x1_S64x1_1_0_0_1_n_n.rhsBatch by decide),
      dif_pos (show (1 : Fin S64x1.rank) ∈ dot_S64x64_S64x1_S64x1_1_0_0_1_n_n.rhsNonContracting by decide)]
    rfl

/-! ## The encoder -/

theorem zero0 (i : S100000x64.Idx) : val_main_call0_v0 (F := Ideal) i = 0 := by
  rw [val_main_call0_v0_apply, val_main_call0_cst_apply]; exact Ideal.ofBits_zero_f32

theorem bb0_apply (x4 : (⟨S64, .f32⟩ : BufTy).Contents (Elt Ideal)) (r : Fin 100000) (j : Fin 64) : val_main_v16 (F := Ideal) x4 (ix2 r j) = x4 (ix1 j) := by
  unfold val_main_v16 val_main_v15
  exact Gnn.Layout.vecSpread_apply x4 _ _ r j

/-- The encoder's output: relu(x . W_encᵀ + b_enc). -/
theorem encode_eq (x0 : (⟨S100000x32, .f32⟩ : BufTy).Contents (Elt Ideal)) (x3 : (⟨S64x32, .f32⟩ : BufTy).Contents (Elt Ideal)) (x4 : (⟨S64, .f32⟩ : BufTy).Contents (Elt Ideal)) :
    val_main_v18 (F := Ideal) x0 x3 x4 = Gnn.denseArr x0 (val_main_v13 (F := Ideal) x3) (Gnn.vecOf x4) :=
  (Gnn.denseArr_eq_host dot_S100000x32_S32x64_S100000x64_1_0_0_1_n_n plain32 x0 (val_main_v13 (F := Ideal) x3)
    (val_main_v16 (F := Ideal) x4) (val_main_call0_v0 (F := Ideal)) (val_main_v13 (F := Ideal) x3) (Gnn.vecOf x4)
    (fun _ _ => rfl) (fun r j => bb0_apply x4 r j) zero0).symm

/-! ## The four layers -/

/-- Layer 1's neighbour mean is the neighbour mean of the features it starts from. -/
theorem agg1_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) : val_main_v30 (F := Ideal) x0 x1 x3 x4 = agg (val_main_v18 (F := Ideal) x0 x3 x4) x1 := rfl

theorem wl1_apply (x5 : (⟨S4x64x64, .f32⟩ : BufTy).Contents (Elt Ideal)) (k j : Fin 64) : val_main_v33 (F := Ideal) x5 (ix2 k j) = x5 (ix3 ⟨0, by decide⟩ j k) := by
  unfold val_main_v33 val_main_v32 val_main_v31
  exact Gnn.Layout.cut_T_apply x5 0 (by decide) _ _ _ k j

theorem wr1_apply (x7 : (⟨S4x64x64, .f32⟩ : BufTy).Contents (Elt Ideal)) (k j : Fin 64) : val_main_v42 (F := Ideal) x7 (ix2 k j) = x7 (ix3 ⟨0, by decide⟩ j k) := by
  unfold val_main_v42 val_main_v41 val_main_v40
  exact Gnn.Layout.cut_T_apply x7 0 (by decide) _ _ _ k j

theorem bb1_apply (x6 : (⟨S4x64, .f32⟩ : BufTy).Contents (Elt Ideal)) (r : Fin 100000) (j : Fin 64) : val_main_v38 (F := Ideal) x6 (ix2 r j) = x6 (ix2 ⟨0, by decide⟩ j) := by
  unfold val_main_v38 val_main_v37 val_main_v36 val_main_v35
  exact Gnn.Layout.biasSpread_apply x6 0 (by decide) _ _ _ _ r j

theorem zero1 (i : S100000x64.Idx) : val_main_call1_v0 (F := Ideal) i = 0 := by
  rw [val_main_call1_v0_apply, val_main_call1_cst_apply]; exact Ideal.ofBits_zero_f32

/-- Layer 1's output is the update of its neighbour mean and its input features with layer 1's weights. -/
theorem layer1_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) :
    val_main_v46 (F := Ideal) x0 x1 x3 x4 x5 x6 x7 = Gnn.sageArr (val_main_v30 (F := Ideal) x0 x1 x3 x4) (val_main_v18 (F := Ideal) x0 x3 x4) (Gnn.stackT x5 0 (by decide)) (Gnn.stackT x7 0 (by decide)) (Gnn.stackRow x6 0 (by decide)) :=
  (Gnn.sageArr_eq_host dot_S100000x64_S64x64_S100000x64_1_0_0_1_n_n plain64 (val_main_v30 (F := Ideal) x0 x1 x3 x4) (val_main_v18 (F := Ideal) x0 x3 x4)
    (val_main_v33 (F := Ideal) x5) (val_main_v42 (F := Ideal) x7) (val_main_v38 (F := Ideal) x6) (val_main_call1_v0 (F := Ideal))
    (Gnn.stackT x5 0 (by decide)) (Gnn.stackT x7 0 (by decide)) (Gnn.stackRow x6 0 (by decide))
    (fun k j => (wl1_apply x5 k j).symm) (fun k j => (wr1_apply x7 k j).symm) (fun r j => bb1_apply x6 r j) zero1).symm

/-- Layer 2's neighbour mean is the neighbour mean of the features it starts from. -/
theorem agg2_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) : val_main_v58 (F := Ideal) x0 x1 x3 x4 x5 x6 x7 = agg (val_main_v46 (F := Ideal) x0 x1 x3 x4 x5 x6 x7) x1 := rfl

theorem wl2_apply (x5 : (⟨S4x64x64, .f32⟩ : BufTy).Contents (Elt Ideal)) (k j : Fin 64) : val_main_v61 (F := Ideal) x5 (ix2 k j) = x5 (ix3 ⟨1, by decide⟩ j k) := by
  unfold val_main_v61 val_main_v60 val_main_v59
  exact Gnn.Layout.cut_T_apply x5 1 (by decide) _ _ _ k j

theorem wr2_apply (x7 : (⟨S4x64x64, .f32⟩ : BufTy).Contents (Elt Ideal)) (k j : Fin 64) : val_main_v70 (F := Ideal) x7 (ix2 k j) = x7 (ix3 ⟨1, by decide⟩ j k) := by
  unfold val_main_v70 val_main_v69 val_main_v68
  exact Gnn.Layout.cut_T_apply x7 1 (by decide) _ _ _ k j

theorem bb2_apply (x6 : (⟨S4x64, .f32⟩ : BufTy).Contents (Elt Ideal)) (r : Fin 100000) (j : Fin 64) : val_main_v66 (F := Ideal) x6 (ix2 r j) = x6 (ix2 ⟨1, by decide⟩ j) := by
  unfold val_main_v66 val_main_v65 val_main_v64 val_main_v63
  exact Gnn.Layout.biasSpread_apply x6 1 (by decide) _ _ _ _ r j

theorem zero2 (i : S100000x64.Idx) : val_main_call2_v0 (F := Ideal) i = 0 := by
  rw [val_main_call2_v0_apply, val_main_call2_cst_apply]; exact Ideal.ofBits_zero_f32

/-- Layer 2's output is the update of its neighbour mean and its input features with layer 2's weights. -/
theorem layer2_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) :
    val_main_v74 (F := Ideal) x0 x1 x3 x4 x5 x6 x7 = Gnn.sageArr (val_main_v58 (F := Ideal) x0 x1 x3 x4 x5 x6 x7) (val_main_v46 (F := Ideal) x0 x1 x3 x4 x5 x6 x7) (Gnn.stackT x5 1 (by decide)) (Gnn.stackT x7 1 (by decide)) (Gnn.stackRow x6 1 (by decide)) :=
  (Gnn.sageArr_eq_host dot_S100000x64_S64x64_S100000x64_1_0_0_1_n_n plain64 (val_main_v58 (F := Ideal) x0 x1 x3 x4 x5 x6 x7) (val_main_v46 (F := Ideal) x0 x1 x3 x4 x5 x6 x7)
    (val_main_v61 (F := Ideal) x5) (val_main_v70 (F := Ideal) x7) (val_main_v66 (F := Ideal) x6) (val_main_call2_v0 (F := Ideal))
    (Gnn.stackT x5 1 (by decide)) (Gnn.stackT x7 1 (by decide)) (Gnn.stackRow x6 1 (by decide))
    (fun k j => (wl2_apply x5 k j).symm) (fun k j => (wr2_apply x7 k j).symm) (fun r j => bb2_apply x6 r j) zero2).symm

/-- Layer 3's neighbour mean is the neighbour mean of the features it starts from. -/
theorem agg3_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) : val_main_v86 (F := Ideal) x0 x1 x3 x4 x5 x6 x7 = agg (val_main_v74 (F := Ideal) x0 x1 x3 x4 x5 x6 x7) x1 := rfl

theorem wl3_apply (x5 : (⟨S4x64x64, .f32⟩ : BufTy).Contents (Elt Ideal)) (k j : Fin 64) : val_main_v89 (F := Ideal) x5 (ix2 k j) = x5 (ix3 ⟨2, by decide⟩ j k) := by
  unfold val_main_v89 val_main_v88 val_main_v87
  exact Gnn.Layout.cut_T_apply x5 2 (by decide) _ _ _ k j

theorem wr3_apply (x7 : (⟨S4x64x64, .f32⟩ : BufTy).Contents (Elt Ideal)) (k j : Fin 64) : val_main_v98 (F := Ideal) x7 (ix2 k j) = x7 (ix3 ⟨2, by decide⟩ j k) := by
  unfold val_main_v98 val_main_v97 val_main_v96
  exact Gnn.Layout.cut_T_apply x7 2 (by decide) _ _ _ k j

theorem bb3_apply (x6 : (⟨S4x64, .f32⟩ : BufTy).Contents (Elt Ideal)) (r : Fin 100000) (j : Fin 64) : val_main_v94 (F := Ideal) x6 (ix2 r j) = x6 (ix2 ⟨2, by decide⟩ j) := by
  unfold val_main_v94 val_main_v93 val_main_v92 val_main_v91
  exact Gnn.Layout.biasSpread_apply x6 2 (by decide) _ _ _ _ r j

theorem zero3 (i : S100000x64.Idx) : val_main_call3_v0 (F := Ideal) i = 0 := by
  rw [val_main_call3_v0_apply, val_main_call3_cst_apply]; exact Ideal.ofBits_zero_f32

/-- Layer 3's output is the update of its neighbour mean and its input features with layer 3's weights. -/
theorem layer3_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) :
    val_main_v102 (F := Ideal) x0 x1 x3 x4 x5 x6 x7 = Gnn.sageArr (val_main_v86 (F := Ideal) x0 x1 x3 x4 x5 x6 x7) (val_main_v74 (F := Ideal) x0 x1 x3 x4 x5 x6 x7) (Gnn.stackT x5 2 (by decide)) (Gnn.stackT x7 2 (by decide)) (Gnn.stackRow x6 2 (by decide)) :=
  (Gnn.sageArr_eq_host dot_S100000x64_S64x64_S100000x64_1_0_0_1_n_n plain64 (val_main_v86 (F := Ideal) x0 x1 x3 x4 x5 x6 x7) (val_main_v74 (F := Ideal) x0 x1 x3 x4 x5 x6 x7)
    (val_main_v89 (F := Ideal) x5) (val_main_v98 (F := Ideal) x7) (val_main_v94 (F := Ideal) x6) (val_main_call3_v0 (F := Ideal))
    (Gnn.stackT x5 2 (by decide)) (Gnn.stackT x7 2 (by decide)) (Gnn.stackRow x6 2 (by decide))
    (fun k j => (wl3_apply x5 k j).symm) (fun k j => (wr3_apply x7 k j).symm) (fun r j => bb3_apply x6 r j) zero3).symm

/-- Layer 4's neighbour mean is the neighbour mean of the features it starts from. -/
theorem agg4_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) : val_main_v114 (F := Ideal) x0 x1 x3 x4 x5 x6 x7 = agg (val_main_v102 (F := Ideal) x0 x1 x3 x4 x5 x6 x7) x1 := rfl

theorem wl4_apply (x5 : (⟨S4x64x64, .f32⟩ : BufTy).Contents (Elt Ideal)) (k j : Fin 64) : val_main_v117 (F := Ideal) x5 (ix2 k j) = x5 (ix3 ⟨3, by decide⟩ j k) := by
  unfold val_main_v117 val_main_v116 val_main_v115
  exact Gnn.Layout.cut_T_apply x5 3 (by decide) _ _ _ k j

theorem wr4_apply (x7 : (⟨S4x64x64, .f32⟩ : BufTy).Contents (Elt Ideal)) (k j : Fin 64) : val_main_v126 (F := Ideal) x7 (ix2 k j) = x7 (ix3 ⟨3, by decide⟩ j k) := by
  unfold val_main_v126 val_main_v125 val_main_v124
  exact Gnn.Layout.cut_T_apply x7 3 (by decide) _ _ _ k j

theorem bb4_apply (x6 : (⟨S4x64, .f32⟩ : BufTy).Contents (Elt Ideal)) (r : Fin 100000) (j : Fin 64) : val_main_v122 (F := Ideal) x6 (ix2 r j) = x6 (ix2 ⟨3, by decide⟩ j) := by
  unfold val_main_v122 val_main_v121 val_main_v120 val_main_v119
  exact Gnn.Layout.biasSpread_apply x6 3 (by decide) _ _ _ _ r j

theorem zero4 (i : S100000x64.Idx) : val_main_call4_v0 (F := Ideal) i = 0 := by
  rw [val_main_call4_v0_apply, val_main_call4_cst_apply]; exact Ideal.ofBits_zero_f32

/-- Layer 4's output is the update of its neighbour mean and its input features with layer 4's weights. -/
theorem layer4_eq (x0 : (⟨S100000x32, .f32⟩ : BufTy).Contents (Elt Ideal)) (x1 : (⟨S2x3200000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) :
    val_main_v130 (F := Ideal) x0 x1 x3 x4 x5 x6 x7 = Gnn.sageArr (val_main_v114 (F := Ideal) x0 x1 x3 x4 x5 x6 x7) (val_main_v102 (F := Ideal) x0 x1 x3 x4 x5 x6 x7) (Gnn.stackT x5 3 (by decide)) (Gnn.stackT x7 3 (by decide)) (Gnn.stackRow x6 3 (by decide)) :=
  (Gnn.sageArr_eq_host dot_S100000x64_S64x64_S100000x64_1_0_0_1_n_n plain64 (val_main_v114 (F := Ideal) x0 x1 x3 x4 x5 x6 x7) (val_main_v102 (F := Ideal) x0 x1 x3 x4 x5 x6 x7)
    (val_main_v117 (F := Ideal) x5) (val_main_v126 (F := Ideal) x7) (val_main_v122 (F := Ideal) x6) (val_main_call4_v0 (F := Ideal))
    (Gnn.stackT x5 3 (by decide)) (Gnn.stackT x7 3 (by decide)) (Gnn.stackRow x6 3 (by decide))
    (fun k j => (wl4_apply x5 k j).symm) (fun k j => (wr4_apply x7 k j).symm) (fun r j => bb4_apply x6 r j) zero4).symm

/-! ## The pool and the heads -/

/-- The pooled graph features are the pool of the last layer's features. -/
theorem pool_eq (x0 : (⟨S100000x32, .f32⟩ : BufTy).Contents (Elt Ideal)) (x1 : (⟨S2x3200000, .i32⟩ : BufTy).Contents (Elt Ideal)) (x2 : (⟨S100000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) : val_main_v142 (F := Ideal) x0 x1 x2 x3 x4 x5 x6 x7 = pool (val_main_v130 (F := Ideal) x0 x1 x3 x4 x5 x6 x7) x2 := rfl

theorem bbP_apply (x9 : (⟨S6158, .f32⟩ : BufTy).Contents (Elt Ideal)) (r : Fin 64) (j : Fin 6158) : val_main_v146 (F := Ideal) x9 (ix2 r j) = x9 (ix1 j) := by
  unfold val_main_v146 val_main_v145
  exact Gnn.Layout.vecSpread_apply x9 _ _ r j

theorem bbV_apply (x11 : (⟨S1, .f32⟩ : BufTy).Contents (Elt Ideal)) (r : Fin 64) (j : Fin 1) : val_main_v151 (F := Ideal) x11 (ix2 r j) = x11 (ix1 j) := by
  unfold val_main_v151 val_main_v150
  exact Gnn.Layout.vecSpread_apply x11 _ _ r j

/-- The policy head: g . Wpᵀ + bp. -/
theorem policy_eq (x0 : (⟨S100000x32, .f32⟩ : BufTy).Contents (Elt Ideal)) (x1 : (⟨S2x3200000, .i32⟩ : BufTy).Contents (Elt Ideal)) (x2 : (⟨S100000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) (x8 : (⟨S6158x64, .f32⟩ : BufTy).Contents (Elt Ideal)) (x9 : (⟨S6158, .f32⟩ : BufTy).Contents (Elt Ideal)) :
    val_main_v147 (F := Ideal) x0 x1 x2 x3 x4 x5 x6 x7 x8 x9 = Gnn.affineArr (val_main_v142 (F := Ideal) x0 x1 x2 x3 x4 x5 x6 x7) (val_main_v143 (F := Ideal) x8) (Gnn.vecOf x9) :=
  (Gnn.affineArr_eq_host dot_S64x64_S64x6158_S64x6158_1_0_0_1_n_n plainP (val_main_v142 (F := Ideal) x0 x1 x2 x3 x4 x5 x6 x7) (val_main_v143 (F := Ideal) x8)
    (val_main_v146 (F := Ideal) x9) (val_main_v143 (F := Ideal) x8) (Gnn.vecOf x9) (fun _ _ => rfl) (fun r j => bbP_apply x9 r j)).symm

/-- The value head before its final reshape: tanh(g . Wvᵀ + bv). -/
theorem value_eq (x0 : (⟨S100000x32, .f32⟩ : BufTy).Contents (Elt Ideal)) (x1 : (⟨S2x3200000, .i32⟩ : BufTy).Contents (Elt Ideal)) (x2 : (⟨S100000, .i32⟩ : BufTy).Contents (Elt Ideal)) (x3 : (⟨S64x32, .f32⟩ : BufTy).Contents (Elt Ideal)) (x4 : (⟨S64, .f32⟩ : BufTy).Contents (Elt Ideal)) (x5 : (⟨S4x64x64, .f32⟩ : BufTy).Contents (Elt Ideal)) (x6 : (⟨S4x64, .f32⟩ : BufTy).Contents (Elt Ideal)) (x7 : (⟨S4x64x64, .f32⟩ : BufTy).Contents (Elt Ideal)) (x10 : (⟨S1x64, .f32⟩ : BufTy).Contents (Elt Ideal)) (x11 : (⟨S1, .f32⟩ : BufTy).Contents (Elt Ideal)) :
    val_main_v153 (F := Ideal) x0 x1 x2 x3 x4 x5 x6 x7 x10 x11 = Gnn.tanhAffineArr (val_main_v142 (F := Ideal) x0 x1 x2 x3 x4 x5 x6 x7) (val_main_v148 (F := Ideal) x10) (Gnn.vecOf x11) :=
  (Gnn.tanhAffineArr_eq_host dot_S64x64_S64x1_S64x1_1_0_0_1_n_n plainV (val_main_v142 (F := Ideal) x0 x1 x2 x3 x4 x5 x6 x7) (val_main_v148 (F := Ideal) x10)
    (val_main_v151 (F := Ideal) x11) (val_main_v148 (F := Ideal) x10) (Gnn.vecOf x11) (fun _ _ => rfl) (fun r j => bbV_apply x11 r j)).symm

end Cert.ReferenceIdeal.Stage

end
-- ==== Proof.Stretch0.lean ====
/-
  Host stretch 0 of the idealized kernel's program, read for an arbitrary valuation of the buffers it starts from.

  This first stretch splits the edge list into source and destination indices, counts in-degrees and inverts them, and prepares the encoder's transposed weight and bias row.
  Each statement is about the stretch alone: "after these operations, from contents Wv, this buffer holds …". A buffer
  no operation of the stretch writes keeps what Wv gave it. The operations are read off the printed list; where a new
  buffer is a layout change of an argument it is read at an index, and where it is the same composition of host
  operations as a stage of the reference program it is identified with that stage outright.
-/
import proofs.«126712_j22737556865376_1_alg».proof.Proof.Gen.KernelIdeal.Launch
import proofs.«126712_j22737556865376_1_alg».proof.Proof.RefStages
import proofs.«126712_j22737556865376_1_alg».proof.Proof.Layout
import Idealize.ShloMosaic.Lib.StableHlo.Run
import Idealize.ShloMosaic.Lib.Tactic

set_option maxRecDepth 16384
set_option maxHeartbeats 4000000

noncomputable section

namespace Cert.KernelIdeal.Stretch0

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (Wv : Valuation τ sig (Elt Ideal))
/-- The stretch does not write main_arg0. -/
theorem keep_main_arg0 : StableHlo.after hostOps0 Wv (Proc.devRef .tc main_arg0) = Wv (Proc.devRef .tc main_arg0) := by
  after_results_simp

/-- The stretch does not write main_arg2. -/
theorem keep_main_arg2 : StableHlo.after hostOps0 Wv (Proc.devRef .tc main_arg2) = Wv (Proc.devRef .tc main_arg2) := by
  after_results_simp

/-- The stretch does not write main_arg5. -/
theorem keep_main_arg5 : StableHlo.after hostOps0 Wv (Proc.devRef .tc main_arg5) = Wv (Proc.devRef .tc main_arg5) := by
  after_results_simp

/-- The stretch does not write main_arg6. -/
theorem keep_main_arg6 : StableHlo.after hostOps0 Wv (Proc.devRef .tc main_arg6) = Wv (Proc.devRef .tc main_arg6) := by
  after_results_simp

/-- The stretch does not write main_arg7. -/
theorem keep_main_arg7 : StableHlo.after hostOps0 Wv (Proc.devRef .tc main_arg7) = Wv (Proc.devRef .tc main_arg7) := by
  after_results_simp

/-- The stretch does not write main_arg8. -/
theorem keep_main_arg8 : StableHlo.after hostOps0 Wv (Proc.devRef .tc main_arg8) = Wv (Proc.devRef .tc main_arg8) := by
  after_results_simp

/-- The stretch does not write main_arg9. -/
theorem keep_main_arg9 : StableHlo.after hostOps0 Wv (Proc.devRef .tc main_arg9) = Wv (Proc.devRef .tc main_arg9) := by
  after_results_simp

/-- The stretch does not write main_arg10. -/
theorem keep_main_arg10 : StableHlo.after hostOps0 Wv (Proc.devRef .tc main_arg10) = Wv (Proc.devRef .tc main_arg10) := by
  after_results_simp

/-- The stretch does not write main_arg11. -/
theorem keep_main_arg11 : StableHlo.after hostOps0 Wv (Proc.devRef .tc main_arg11) = Wv (Proc.devRef .tc main_arg11) := by
  after_results_simp

/-- The source indices are the reference's. -/
theorem src_eq : (StableHlo.after hostOps0 Wv (Proc.devRef .tc main_v1) : S3200000.Idx → BitVec 32) = val_main_v1 (F := Ideal) (Wv (Proc.devRef .tc main_arg1)) := by
  after_results_simp <;> rfl

/-- The destination indices are the reference's. -/
theorem dst_eq : (StableHlo.after hostOps0 Wv (Proc.devRef .tc main_v3) : S3200000.Idx → BitVec 32) = val_main_v3 (F := Ideal) (Wv (Proc.devRef .tc main_arg1)) := by
  after_results_simp <;> rfl

/-- The inverse clamped in-degree column is the reference's. -/
theorem inv_eq : (StableHlo.after hostOps0 Wv (Proc.devRef .tc main_v12) : S100000x1.Idx → EReal) = val_main_v12 (F := Ideal) (Wv (Proc.devRef .tc main_arg1)) := by
  after_results_simp <;> rfl

/-- The encoder's weight operand is the reference's transposed weight (narrowing its format changes nothing). -/
theorem wenc_eq : (StableHlo.after hostOps0 Wv (Proc.devRef .tc main_v14) : S32x64.Idx → EReal) = val_main_v13 (F := Ideal) (Wv (Proc.devRef .tc main_arg3)) := by
  after_results_simp <;> rfl

/-- The encoder's bias operand is the bias vector as a [1, 64] row. -/
theorem benc_apply (j : Fin 64) : (StableHlo.after hostOps0 Wv (Proc.devRef .tc main_v15) : S1x64.Idx → EReal) (ix2 ⟨0, Nat.one_pos⟩ j) = (Wv (Proc.devRef .tc main_arg4) : S64.Idx → EReal) (ix1 j) := by
  after_results_simp
  exact Gnn.Layout.rowOfVec_apply _ _ j

end Cert.KernelIdeal.Stretch0

end
-- ==== Proof.Stretch1.lean ====
/-
  Host stretch 1 of the idealized kernel's program, read for an arbitrary valuation of the buffers it starts from.

  This stretch transposes and reshapes the stacked layer weights, forms the neighbour mean of the encoder's output, and cuts layer 1's two weight matrices and bias row out of the stacks.
  Each statement is about the stretch alone: "after these operations, from contents Wv, this buffer holds …". A buffer
  no operation of the stretch writes keeps what Wv gave it. The operations are read off the printed list; where a new
  buffer is a layout change of an argument it is read at an index, and where it is the same composition of host
  operations as a stage of the reference program it is identified with that stage outright.
-/
import proofs.«126712_j22737556865376_1_alg».proof.Proof.Gen.KernelIdeal.Launch
import proofs.«126712_j22737556865376_1_alg».proof.Proof.RefStages
import proofs.«126712_j22737556865376_1_alg».proof.Proof.Layout
import Idealize.ShloMosaic.Lib.StableHlo.Run
import Idealize.ShloMosaic.Lib.Tactic

set_option maxRecDepth 16384
set_option maxHeartbeats 4000000

noncomputable section

namespace Cert.KernelIdeal.Stretch1

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (Wv : Valuation τ sig (Elt Ideal))
/-- The stretch does not write main_v16. -/
theorem keep_main_v16 : StableHlo.after hostOps1 Wv (Proc.devRef .tc main_v16) = Wv (Proc.devRef .tc main_v16) := by
  after_results_simp

/-- The stretch does not write main_v1. -/
theorem keep_main_v1 : StableHlo.after hostOps1 Wv (Proc.devRef .tc main_v1) = Wv (Proc.devRef .tc main_v1) := by
  after_results_simp

/-- The stretch does not write main_v3. -/
theorem keep_main_v3 : StableHlo.after hostOps1 Wv (Proc.devRef .tc main_v3) = Wv (Proc.devRef .tc main_v3) := by
  after_results_simp

/-- The stretch does not write main_v12. -/
theorem keep_main_v12 : StableHlo.after hostOps1 Wv (Proc.devRef .tc main_v12) = Wv (Proc.devRef .tc main_v12) := by
  after_results_simp

/-- The stretch does not write main_arg2. -/
theorem keep_main_arg2 : StableHlo.after hostOps1 Wv (Proc.devRef .tc main_arg2) = Wv (Proc.devRef .tc main_arg2) := by
  after_results_simp

/-- The stretch does not write main_arg8. -/
theorem keep_main_arg8 : StableHlo.after hostOps1 Wv (Proc.devRef .tc main_arg8) = Wv (Proc.devRef .tc main_arg8) := by
  after_results_simp

/-- The stretch does not write main_arg9. -/
theorem keep_main_arg9 : StableHlo.after hostOps1 Wv (Proc.devRef .tc main_arg9) = Wv (Proc.devRef .tc main_arg9) := by
  after_results_simp

/-- The stretch does not write main_arg10. -/
theorem keep_main_arg10 : StableHlo.after hostOps1 Wv (Proc.devRef .tc main_arg10) = Wv (Proc.devRef .tc main_arg10) := by
  after_results_simp

/-- The stretch does not write main_arg11. -/
theorem keep_main_arg11 : StableHlo.after hostOps1 Wv (Proc.devRef .tc main_arg11) = Wv (Proc.devRef .tc main_arg11) := by
  after_results_simp
/-- The neighbour mean written by this stretch is the reference's neighbour mean of the features the stretch starts from,
    given that the index buffers and the inverse degrees hold the reference's. -/
theorem agg_eq (x1 : (⟨Cert.ReferenceIdeal.S2x3200000, .i32⟩ : BufTy).Contents (Elt Ideal))
    (e1 : (Wv (Proc.devRef .tc main_v1) : S3200000.Idx → BitVec 32) = val_main_v1 (F := Ideal) x1)
    (e3 : (Wv (Proc.devRef .tc main_v3) : S3200000.Idx → BitVec 32) = val_main_v3 (F := Ideal) x1)
    (e12 : (Wv (Proc.devRef .tc main_v12) : S100000x1.Idx → EReal) = val_main_v12 (F := Ideal) x1) :
    (StableHlo.after hostOps1 Wv (Proc.devRef .tc main_v33) : S100000x64.Idx → EReal) = Cert.ReferenceIdeal.Stage.agg (Wv (Proc.devRef .tc main_v16)) x1 := by
  after_results_simp
  rw [e1, e3, e12]
  rfl

/-- The transposed stack of the first weights: entry (l, k, j) is Wl(l, j, k). -/
theorem wlStack_apply (l : Fin 4) (k j : Fin 64) : (StableHlo.after hostOps1 Wv (Proc.devRef .tc main_v18) : S4x64x64.Idx → EReal) (ix3 l k j) = (Wv (Proc.devRef .tc main_arg5) : S4x64x64.Idx → EReal) (ix3 l j k) := by
  after_results_simp
  exact Gnn.Layout.stackT_apply _ _ l k j

/-- The transposed stack of the second weights: entry (l, k, j) is Wr(l, j, k). -/
theorem wrStack_apply (l : Fin 4) (k j : Fin 64) : (StableHlo.after hostOps1 Wv (Proc.devRef .tc main_v20) : S4x64x64.Idx → EReal) (ix3 l k j) = (Wv (Proc.devRef .tc main_arg7) : S4x64x64.Idx → EReal) (ix3 l j k) := by
  after_results_simp
  exact Gnn.Layout.stackT_apply _ _ l k j

/-- The bias stack with a unit middle axis: entry (l, 0, j) is bl(l, j). -/
theorem blStack_apply (l : Fin 4) (j : Fin 64) : (StableHlo.after hostOps1 Wv (Proc.devRef .tc main_v21) : S4x1x64.Idx → EReal) (ix3 l ⟨0, Nat.one_pos⟩ j) = (Wv (Proc.devRef .tc main_arg6) : S4x64.Idx → EReal) (ix2 l j) := by
  after_results_simp
  exact Gnn.Layout.midUnit_apply _ _ l j

/-- Layer 1's first weight operand: entry (k, j) is Wl(0, j, k). -/
theorem wl_apply (k j : Fin 64) : (StableHlo.after hostOps1 Wv (Proc.devRef .tc main_v35) : S64x64.Idx → EReal) (ix2 k j) = (Wv (Proc.devRef .tc main_arg5) : S4x64x64.Idx → EReal) (ix3 ⟨0, by decide⟩ j k) := by
  after_results_simp
  exact Gnn.Layout.stackT_cut_apply _ 0 (by decide) _ _ _ k j

/-- Layer 1's second weight operand: entry (k, j) is Wr(0, j, k). -/
theorem wr_apply (k j : Fin 64) : (StableHlo.after hostOps1 Wv (Proc.devRef .tc main_v39) : S64x64.Idx → EReal) (ix2 k j) = (Wv (Proc.devRef .tc main_arg7) : S4x64x64.Idx → EReal) (ix3 ⟨0, by decide⟩ j k) := by
  after_results_simp
  exact Gnn.Layout.stackT_cut_apply _ 0 (by decide) _ _ _ k j

/-- Layer 1's bias row: entry j is bl(0, j). -/
theorem bl_apply (j : Fin 64) : (StableHlo.after hostOps1 Wv (Proc.devRef .tc main_v37) : S1x64.Idx → EReal) (ix2 ⟨0, Nat.one_pos⟩ j) = (Wv (Proc.devRef .tc main_arg6) : S4x64.Idx → EReal) (ix2 ⟨0, by decide⟩ j) := by
  after_results_simp
  exact Gnn.Layout.biasRow_apply _ 0 (by decide) _ _ _ j

end Cert.KernelIdeal.Stretch1

end
-- ==== Proof.Stretch2.lean ====
/-
  Host stretch 2 of the idealized kernel's program, read for an arbitrary valuation of the buffers it starts from.

  This stretch forms the neighbour mean of layer 1's output and cuts layer 2's two weight matrices and bias row out of the prepared stacks.
  Each statement is about the stretch alone: "after these operations, from contents Wv, this buffer holds …". A buffer
  no operation of the stretch writes keeps what Wv gave it. The operations are read off the printed list; where a new
  buffer is a layout change of an argument it is read at an index, and where it is the same composition of host
  operations as a stage of the reference program it is identified with that stage outright.
-/
import proofs.«126712_j22737556865376_1_alg».proof.Proof.Gen.KernelIdeal.Launch
import proofs.«126712_j22737556865376_1_alg».proof.Proof.RefStages
import proofs.«126712_j22737556865376_1_alg».proof.Proof.Layout
import Idealize.ShloMosaic.Lib.StableHlo.Run
import Idealize.ShloMosaic.Lib.Tactic

set_option maxRecDepth 16384
set_option maxHeartbeats 4000000

noncomputable section

namespace Cert.KernelIdeal.Stretch2

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (Wv : Valuation τ sig (Elt Ideal))
/-- The stretch does not write main_v40. -/
theorem keep_main_v40 : StableHlo.after hostOps2 Wv (Proc.devRef .tc main_v40) = Wv (Proc.devRef .tc main_v40) := by
  after_results_simp

/-- The stretch does not write main_v1. -/
theorem keep_main_v1 : StableHlo.after hostOps2 Wv (Proc.devRef .tc main_v1) = Wv (Proc.devRef .tc main_v1) := by
  after_results_simp

/-- The stretch does not write main_v3. -/
theorem keep_main_v3 : StableHlo.after hostOps2 Wv (Proc.devRef .tc main_v3) = Wv (Proc.devRef .tc main_v3) := by
  after_results_simp

/-- The stretch does not write main_v12. -/
theorem keep_main_v12 : StableHlo.after hostOps2 Wv (Proc.devRef .tc main_v12) = Wv (Proc.devRef .tc main_v12) := by
  after_results_simp

/-- The stretch does not write main_v18. -/
theorem keep_main_v18 : StableHlo.after hostOps2 Wv (Proc.devRef .tc main_v18) = Wv (Proc.devRef .tc main_v18) := by
  after_results_simp

/-- The stretch does not write main_v20. -/
theorem keep_main_v20 : StableHlo.after hostOps2 Wv (Proc.devRef .tc main_v20) = Wv (Proc.devRef .tc main_v20) := by
  after_results_simp

/-- The stretch does not write main_v21. -/
theorem keep_main_v21 : StableHlo.after hostOps2 Wv (Proc.devRef .tc main_v21) = Wv (Proc.devRef .tc main_v21) := by
  after_results_simp

/-- The stretch does not write main_arg2. -/
theorem keep_main_arg2 : StableHlo.after hostOps2 Wv (Proc.devRef .tc main_arg2) = Wv (Proc.devRef .tc main_arg2) := by
  after_results_simp

/-- The stretch does not write main_arg8. -/
theorem keep_main_arg8 : StableHlo.after hostOps2 Wv (Proc.devRef .tc main_arg8) = Wv (Proc.devRef .tc main_arg8) := by
  after_results_simp

/-- The stretch does not write main_arg9. -/
theorem keep_main_arg9 : StableHlo.after hostOps2 Wv (Proc.devRef .tc main_arg9) = Wv (Proc.devRef .tc main_arg9) := by
  after_results_simp

/-- The stretch does not write main_arg10. -/
theorem keep_main_arg10 : StableHlo.after hostOps2 Wv (Proc.devRef .tc main_arg10) = Wv (Proc.devRef .tc main_arg10) := by
  after_results_simp

/-- The stretch does not write main_arg11. -/
theorem keep_main_arg11 : StableHlo.after hostOps2 Wv (Proc.devRef .tc main_arg11) = Wv (Proc.devRef .tc main_arg11) := by
  after_results_simp
/-- The neighbour mean written by this stretch is the reference's neighbour mean of the features the stretch starts from,
    given that the index buffers and the inverse degrees hold the reference's. -/
theorem agg_eq (x1 : (⟨Cert.ReferenceIdeal.S2x3200000, .i32⟩ : BufTy).Contents (Elt Ideal))
    (e1 : (Wv (Proc.devRef .tc main_v1) : S3200000.Idx → BitVec 32) = val_main_v1 (F := Ideal) x1)
    (e3 : (Wv (Proc.devRef .tc main_v3) : S3200000.Idx → BitVec 32) = val_main_v3 (F := Ideal) x1)
    (e12 : (Wv (Proc.devRef .tc main_v12) : S100000x1.Idx → EReal) = val_main_v12 (F := Ideal) x1) :
    (StableHlo.after hostOps2 Wv (Proc.devRef .tc main_v52) : S100000x64.Idx → EReal) = Cert.ReferenceIdeal.Stage.agg (Wv (Proc.devRef .tc main_v40)) x1 := by
  after_results_simp
  rw [e1, e3, e12]
  rfl

/-- Layer 2's first weight operand is layer 1 of the prepared stack: entry (k, j) is the stack's (1, k, j). -/
theorem wl_apply (k j : Fin 64) : (StableHlo.after hostOps2 Wv (Proc.devRef .tc main_v54) : S64x64.Idx → EReal) (ix2 k j) = (Wv (Proc.devRef .tc main_v18) : S4x64x64.Idx → EReal) (ix3 ⟨1, by decide⟩ k j) := by
  after_results_simp
  exact Gnn.Layout.cut_apply _ 1 (by decide) _ _ k j

/-- Layer 2's second weight operand is layer 1 of the prepared stack. -/
theorem wr_apply (k j : Fin 64) : (StableHlo.after hostOps2 Wv (Proc.devRef .tc main_v58) : S64x64.Idx → EReal) (ix2 k j) = (Wv (Proc.devRef .tc main_v20) : S4x64x64.Idx → EReal) (ix3 ⟨1, by decide⟩ k j) := by
  after_results_simp
  exact Gnn.Layout.cut_apply _ 1 (by decide) _ _ k j

/-- Layer 2's bias row is row 1 of the prepared bias stack. -/
theorem bl_apply (j : Fin 64) : (StableHlo.after hostOps2 Wv (Proc.devRef .tc main_v56) : S1x64.Idx → EReal) (ix2 ⟨0, Nat.one_pos⟩ j) = (Wv (Proc.devRef .tc main_v21) : S4x1x64.Idx → EReal) (ix3 ⟨1, by decide⟩ ⟨0, Nat.one_pos⟩ j) := by
  after_results_simp
  exact Gnn.Layout.rowCut_apply _ 1 (by decide) _ _ j

end Cert.KernelIdeal.Stretch2

end
-- ==== Proof.Stretch3.lean ====
/-
  Host stretch 3 of the idealized kernel's program, read for an arbitrary valuation of the buffers it starts from.

  This stretch forms the neighbour mean of layer 2's output and cuts layer 3's two weight matrices and bias row out of the prepared stacks.
  Each statement is about the stretch alone: "after these operations, from contents Wv, this buffer holds …". A buffer
  no operation of the stretch writes keeps what Wv gave it. The operations are read off the printed list; where a new
  buffer is a layout change of an argument it is read at an index, and where it is the same composition of host
  operations as a stage of the reference program it is identified with that stage outright.
-/
import proofs.«126712_j22737556865376_1_alg».proof.Proof.Gen.KernelIdeal.Launch
import proofs.«126712_j22737556865376_1_alg».proof.Proof.RefStages
import proofs.«126712_j22737556865376_1_alg».proof.Proof.Layout
import Idealize.ShloMosaic.Lib.StableHlo.Run
import Idealize.ShloMosaic.Lib.Tactic

set_option maxRecDepth 16384
set_option maxHeartbeats 4000000

noncomputable section

namespace Cert.KernelIdeal.Stretch3

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (Wv : Valuation τ sig (Elt Ideal))
/-- The stretch does not write main_v59. -/
theorem keep_main_v59 : StableHlo.after hostOps3 Wv (Proc.devRef .tc main_v59) = Wv (Proc.devRef .tc main_v59) := by
  after_results_simp

/-- The stretch does not write main_v1. -/
theorem keep_main_v1 : StableHlo.after hostOps3 Wv (Proc.devRef .tc main_v1) = Wv (Proc.devRef .tc main_v1) := by
  after_results_simp

/-- The stretch does not write main_v3. -/
theorem keep_main_v3 : StableHlo.after hostOps3 Wv (Proc.devRef .tc main_v3) = Wv (Proc.devRef .tc main_v3) := by
  after_results_simp

/-- The stretch does not write main_v12. -/
theorem keep_main_v12 : StableHlo.after hostOps3 Wv (Proc.devRef .tc main_v12) = Wv (Proc.devRef .tc main_v12) := by
  after_results_simp

/-- The stretch does not write main_v18. -/
theorem keep_main_v18 : StableHlo.after hostOps3 Wv (Proc.devRef .tc main_v18) = Wv (Proc.devRef .tc main_v18) := by
  after_results_simp

/-- The stretch does not write main_v20. -/
theorem keep_main_v20 : StableHlo.after hostOps3 Wv (Proc.devRef .tc main_v20) = Wv (Proc.devRef .tc main_v20) := by
  after_results_simp

/-- The stretch does not write main_v21. -/
theorem keep_main_v21 : StableHlo.after hostOps3 Wv (Proc.devRef .tc main_v21) = Wv (Proc.devRef .tc main_v21) := by
  after_results_simp

/-- The stretch does not write main_arg2. -/
theorem keep_main_arg2 : StableHlo.after hostOps3 Wv (Proc.devRef .tc main_arg2) = Wv (Proc.devRef .tc main_arg2) := by
  after_results_simp

/-- The stretch does not write main_arg8. -/
theorem keep_main_arg8 : StableHlo.after hostOps3 Wv (Proc.devRef .tc main_arg8) = Wv (Proc.devRef .tc main_arg8) := by
  after_results_simp

/-- The stretch does not write main_arg9. -/
theorem keep_main_arg9 : StableHlo.after hostOps3 Wv (Proc.devRef .tc main_arg9) = Wv (Proc.devRef .tc main_arg9) := by
  after_results_simp

/-- The stretch does not write main_arg10. -/
theorem keep_main_arg10 : StableHlo.after hostOps3 Wv (Proc.devRef .tc main_arg10) = Wv (Proc.devRef .tc main_arg10) := by
  after_results_simp

/-- The stretch does not write main_arg11. -/
theorem keep_main_arg11 : StableHlo.after hostOps3 Wv (Proc.devRef .tc main_arg11) = Wv (Proc.devRef .tc main_arg11) := by
  after_results_simp
/-- The neighbour mean written by this stretch is the reference's neighbour mean of the features the stretch starts from,
    given that the index buffers and the inverse degrees hold the reference's. -/
theorem agg_eq (x1 : (⟨Cert.ReferenceIdeal.S2x3200000, .i32⟩ : BufTy).Contents (Elt Ideal))
    (e1 : (Wv (Proc.devRef .tc main_v1) : S3200000.Idx → BitVec 32) = val_main_v1 (F := Ideal) x1)
    (e3 : (Wv (Proc.devRef .tc main_v3) : S3200000.Idx → BitVec 32) = val_main_v3 (F := Ideal) x1)
    (e12 : (Wv (Proc.devRef .tc main_v12) : S100000x1.Idx → EReal) = val_main_v12 (F := Ideal) x1) :
    (StableHlo.after hostOps3 Wv (Proc.devRef .tc main_v71) : S100000x64.Idx → EReal) = Cert.ReferenceIdeal.Stage.agg (Wv (Proc.devRef .tc main_v59)) x1 := by
  after_results_simp
  rw [e1, e3, e12]
  rfl

/-- Layer 3's first weight operand is layer 2 of the prepared stack: entry (k, j) is the stack's (2, k, j). -/
theorem wl_apply (k j : Fin 64) : (StableHlo.after hostOps3 Wv (Proc.devRef .tc main_v73) : S64x64.Idx → EReal) (ix2 k j) = (Wv (Proc.devRef .tc main_v18) : S4x64x64.Idx → EReal) (ix3 ⟨2, by decide⟩ k j) := by
  after_results_simp
  exact Gnn.Layout.cut_apply _ 2 (by decide) _ _ k j

/-- Layer 3's second weight operand is layer 2 of the prepared stack. -/
theorem wr_apply (k j : Fin 64) : (StableHlo.after hostOps3 Wv (Proc.devRef .tc main_v77) : S64x64.Idx → EReal) (ix2 k j) = (Wv (Proc.devRef .tc main_v20) : S4x64x64.Idx → EReal) (ix3 ⟨2, by decide⟩ k j) := by
  after_results_simp
  exact Gnn.Layout.cut_apply _ 2 (by decide) _ _ k j

/-- Layer 3's bias row is row 2 of the prepared bias stack. -/
theorem bl_apply (j : Fin 64) : (StableHlo.after hostOps3 Wv (Proc.devRef .tc main_v75) : S1x64.Idx → EReal) (ix2 ⟨0, Nat.one_pos⟩ j) = (Wv (Proc.devRef .tc main_v21) : S4x1x64.Idx → EReal) (ix3 ⟨2, by decide⟩ ⟨0, Nat.one_pos⟩ j) := by
  after_results_simp
  exact Gnn.Layout.rowCut_apply _ 2 (by decide) _ _ j

end Cert.KernelIdeal.Stretch3

end
-- ==== Proof.Stretch4.lean ====
/-
  Host stretch 4 of the idealized kernel's program, read for an arbitrary valuation of the buffers it starts from.

  This stretch forms the neighbour mean of layer 3's output and cuts layer 4's two weight matrices and bias row out of the prepared stacks.
  Each statement is about the stretch alone: "after these operations, from contents Wv, this buffer holds …". A buffer
  no operation of the stretch writes keeps what Wv gave it. The operations are read off the printed list; where a new
  buffer is a layout change of an argument it is read at an index, and where it is the same composition of host
  operations as a stage of the reference program it is identified with that stage outright.
-/
import proofs.«126712_j22737556865376_1_alg».proof.Proof.Gen.KernelIdeal.Launch
import proofs.«126712_j22737556865376_1_alg».proof.Proof.RefStages
import proofs.«126712_j22737556865376_1_alg».proof.Proof.Layout
import Idealize.ShloMosaic.Lib.StableHlo.Run
import Idealize.ShloMosaic.Lib.Tactic

set_option maxRecDepth 16384
set_option maxHeartbeats 4000000

noncomputable section

namespace Cert.KernelIdeal.Stretch4

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (Wv : Valuation τ sig (Elt Ideal))
/-- The stretch does not write main_v78. -/
theorem keep_main_v78 : StableHlo.after hostOps4 Wv (Proc.devRef .tc main_v78) = Wv (Proc.devRef .tc main_v78) := by
  after_results_simp

/-- The stretch does not write main_v1. -/
theorem keep_main_v1 : StableHlo.after hostOps4 Wv (Proc.devRef .tc main_v1) = Wv (Proc.devRef .tc main_v1) := by
  after_results_simp

/-- The stretch does not write main_v3. -/
theorem keep_main_v3 : StableHlo.after hostOps4 Wv (Proc.devRef .tc main_v3) = Wv (Proc.devRef .tc main_v3) := by
  after_results_simp

/-- The stretch does not write main_v12. -/
theorem keep_main_v12 : StableHlo.after hostOps4 Wv (Proc.devRef .tc main_v12) = Wv (Proc.devRef .tc main_v12) := by
  after_results_simp

/-- The stretch does not write main_v18. -/
theorem keep_main_v18 : StableHlo.after hostOps4 Wv (Proc.devRef .tc main_v18) = Wv (Proc.devRef .tc main_v18) := by
  after_results_simp

/-- The stretch does not write main_v20. -/
theorem keep_main_v20 : StableHlo.after hostOps4 Wv (Proc.devRef .tc main_v20) = Wv (Proc.devRef .tc main_v20) := by
  after_results_simp

/-- The stretch does not write main_v21. -/
theorem keep_main_v21 : StableHlo.after hostOps4 Wv (Proc.devRef .tc main_v21) = Wv (Proc.devRef .tc main_v21) := by
  after_results_simp

/-- The stretch does not write main_arg2. -/
theorem keep_main_arg2 : StableHlo.after hostOps4 Wv (Proc.devRef .tc main_arg2) = Wv (Proc.devRef .tc main_arg2) := by
  after_results_simp

/-- The stretch does not write main_arg8. -/
theorem keep_main_arg8 : StableHlo.after hostOps4 Wv (Proc.devRef .tc main_arg8) = Wv (Proc.devRef .tc main_arg8) := by
  after_results_simp

/-- The stretch does not write main_arg9. -/
theorem keep_main_arg9 : StableHlo.after hostOps4 Wv (Proc.devRef .tc main_arg9) = Wv (Proc.devRef .tc main_arg9) := by
  after_results_simp

/-- The stretch does not write main_arg10. -/
theorem keep_main_arg10 : StableHlo.after hostOps4 Wv (Proc.devRef .tc main_arg10) = Wv (Proc.devRef .tc main_arg10) := by
  after_results_simp

/-- The stretch does not write main_arg11. -/
theorem keep_main_arg11 : StableHlo.after hostOps4 Wv (Proc.devRef .tc main_arg11) = Wv (Proc.devRef .tc main_arg11) := by
  after_results_simp
/-- The neighbour mean written by this stretch is the reference's neighbour mean of the features the stretch starts from,
    given that the index buffers and the inverse degrees hold the reference's. -/
theorem agg_eq (x1 : (⟨Cert.ReferenceIdeal.S2x3200000, .i32⟩ : BufTy).Contents (Elt Ideal))
    (e1 : (Wv (Proc.devRef .tc main_v1) : S3200000.Idx → BitVec 32) = val_main_v1 (F := Ideal) x1)
    (e3 : (Wv (Proc.devRef .tc main_v3) : S3200000.Idx → BitVec 32) = val_main_v3 (F := Ideal) x1)
    (e12 : (Wv (Proc.devRef .tc main_v12) : S100000x1.Idx → EReal) = val_main_v12 (F := Ideal) x1) :
    (StableHlo.after hostOps4 Wv (Proc.devRef .tc main_v90) : S100000x64.Idx → EReal) = Cert.ReferenceIdeal.Stage.agg (Wv (Proc.devRef .tc main_v78)) x1 := by
  after_results_simp
  rw [e1, e3, e12]
  rfl

/-- Layer 4's first weight operand is layer 3 of the prepared stack: entry (k, j) is the stack's (3, k, j). -/
theorem wl_apply (k j : Fin 64) : (StableHlo.after hostOps4 Wv (Proc.devRef .tc main_v92) : S64x64.Idx → EReal) (ix2 k j) = (Wv (Proc.devRef .tc main_v18) : S4x64x64.Idx → EReal) (ix3 ⟨3, by decide⟩ k j) := by
  after_results_simp
  exact Gnn.Layout.cut_apply _ 3 (by decide) _ _ k j

/-- Layer 4's second weight operand is layer 3 of the prepared stack. -/
theorem wr_apply (k j : Fin 64) : (StableHlo.after hostOps4 Wv (Proc.devRef .tc main_v96) : S64x64.Idx → EReal) (ix2 k j) = (Wv (Proc.devRef .tc main_v20) : S4x64x64.Idx → EReal) (ix3 ⟨3, by decide⟩ k j) := by
  after_results_simp
  exact Gnn.Layout.cut_apply _ 3 (by decide) _ _ k j

/-- Layer 4's bias row is row 3 of the prepared bias stack. -/
theorem bl_apply (j : Fin 64) : (StableHlo.after hostOps4 Wv (Proc.devRef .tc main_v94) : S1x64.Idx → EReal) (ix2 ⟨0, Nat.one_pos⟩ j) = (Wv (Proc.devRef .tc main_v21) : S4x1x64.Idx → EReal) (ix3 ⟨3, by decide⟩ ⟨0, Nat.one_pos⟩ j) := by
  after_results_simp
  exact Gnn.Layout.rowCut_apply _ 3 (by decide) _ _ j

end Cert.KernelIdeal.Stretch4

end
-- ==== Proof.Stretch5.lean ====
/-
  Host stretch 5 of the idealized kernel's program, read for an arbitrary valuation of the buffers it starts from.

  This stretch pools the last layer's node features into per-graph means and prepares the two heads' transposed weights and bias rows.
  Each statement is about the stretch alone: "after these operations, from contents Wv, this buffer holds …". A buffer
  no operation of the stretch writes keeps what Wv gave it. The operations are read off the printed list; where a new
  buffer is a layout change of an argument it is read at an index, and where it is the same composition of host
  operations as a stage of the reference program it is identified with that stage outright.
-/
import proofs.«126712_j22737556865376_1_alg».proof.Proof.Gen.KernelIdeal.Launch
import proofs.«126712_j22737556865376_1_alg».proof.Proof.RefStages
import proofs.«126712_j22737556865376_1_alg».proof.Proof.Layout
import Idealize.ShloMosaic.Lib.StableHlo.Run
import Idealize.ShloMosaic.Lib.Tactic

set_option maxRecDepth 16384
set_option maxHeartbeats 4000000

noncomputable section

namespace Cert.KernelIdeal.Stretch5

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (Wv : Valuation τ sig (Elt Ideal))

/-- The pooled graph features are the reference's pool of the features the stretch starts from. -/
theorem pool_eq : (StableHlo.after hostOps5 Wv (Proc.devRef .tc main_v109) : S64x64.Idx → EReal) = Cert.ReferenceIdeal.Stage.pool (Wv (Proc.devRef .tc main_v97)) (Wv (Proc.devRef .tc main_arg2)) := by
  after_results_simp <;> rfl

/-- The policy head's weight operand is the reference's transposed weight. -/
theorem wp_eq : (StableHlo.after hostOps5 Wv (Proc.devRef .tc main_v111) : S64x6158.Idx → EReal) = val_main_v143 (F := Ideal) (Wv (Proc.devRef .tc main_arg8)) := by
  after_results_simp <;> rfl

/-- The value head's weight operand is the reference's transposed weight. -/
theorem wv_eq : (StableHlo.after hostOps5 Wv (Proc.devRef .tc main_v113) : S64x1.Idx → EReal) = val_main_v148 (F := Ideal) (Wv (Proc.devRef .tc main_arg10)) := by
  after_results_simp <;> rfl

/-- The policy head's bias operand is the bias vector as a [1, 6158] row. -/
theorem bp_apply (j : Fin 6158) : (StableHlo.after hostOps5 Wv (Proc.devRef .tc main_v114) : S1x6158.Idx → EReal) (ix2 ⟨0, Nat.one_pos⟩ j) = (Wv (Proc.devRef .tc main_arg9) : S6158.Idx → EReal) (ix1 j) := by
  after_results_simp
  exact Gnn.Layout.rowOfVec_apply _ _ j

/-- The value head's bias operand is the one-entry bias vector as a [1, 1] row. -/
theorem bv_apply (j : Fin 1) : (StableHlo.after hostOps5 Wv (Proc.devRef .tc main_v115) : S1x1.Idx → EReal) (ix2 ⟨0, Nat.one_pos⟩ j) = (Wv (Proc.devRef .tc main_arg11) : S1.Idx → EReal) (ix1 j) := by
  after_results_simp
  exact Gnn.Layout.rowOfVec_apply _ _ j

end Cert.KernelIdeal.Stretch5

end
-- ==== Proof.Stretch6.lean ====
/-
  Host stretch 6 of the idealized kernel's program, read for an arbitrary valuation of the buffers it starts from.

  This last stretch drops the unit axis of the value head's [64, 1] column.
  Each statement is about the stretch alone: "after these operations, from contents Wv, this buffer holds …". A buffer
  no operation of the stretch writes keeps what Wv gave it. The operations are read off the printed list; where a new
  buffer is a layout change of an argument it is read at an index, and where it is the same composition of host
  operations as a stage of the reference program it is identified with that stage outright.
-/
import proofs.«126712_j22737556865376_1_alg».proof.Proof.Gen.KernelIdeal.Launch
import proofs.«126712_j22737556865376_1_alg».proof.Proof.RefStages
import proofs.«126712_j22737556865376_1_alg».proof.Proof.Layout
import Idealize.ShloMosaic.Lib.StableHlo.Run
import Idealize.ShloMosaic.Lib.Tactic

set_option maxRecDepth 16384
set_option maxHeartbeats 4000000

noncomputable section

namespace Cert.KernelIdeal.Stretch6

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (Wv : Valuation τ sig (Elt Ideal))
/-- The stretch does not write main_v116_0. -/
theorem keep_main_v116_0 : StableHlo.after hostOps6 Wv (Proc.devRef .tc main_v116_0) = Wv (Proc.devRef .tc main_v116_0) := by
  after_results_simp

/-- The second result is the reference's, given that the value head's column holds the reference's. -/
theorem value_eq (x0 : (⟨Cert.ReferenceIdeal.S100000x32, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S64x32, .f32⟩ : BufTy).Contents (Elt Ideal)) (x4 : (⟨Cert.ReferenceIdeal.S64, .f32⟩ : BufTy).Contents (Elt Ideal)) (x5 : (⟨Cert.ReferenceIdeal.S4x64x64, .f32⟩ : BufTy).Contents (Elt Ideal)) (x6 : (⟨Cert.ReferenceIdeal.S4x64, .f32⟩ : BufTy).Contents (Elt Ideal)) (x7 : (⟨Cert.ReferenceIdeal.S4x64x64, .f32⟩ : BufTy).Contents (Elt Ideal)) (x10 : (⟨Cert.ReferenceIdeal.S1x64, .f32⟩ : BufTy).Contents (Elt Ideal)) (x11 : (⟨Cert.ReferenceIdeal.S1, .f32⟩ : BufTy).Contents (Elt Ideal))
    (e : (Wv (Proc.devRef .tc main_v116_1) : S64x1.Idx → EReal) = val_main_v153 (F := Ideal) x0 x1 x2 x3 x4 x5 x6 x7 x10 x11) :
    (StableHlo.after hostOps6 Wv (Proc.devRef .tc main_v117) : S64.Idx → EReal) = val_main_v154 (F := Ideal) x0 x1 x2 x3 x4 x5 x6 x7 x10 x11 := by
  after_results_simp
  rw [e]
  rfl

end Cert.KernelIdeal.Stretch6

end
-- ==== Proof.Walk.lean ====
/-
  The idealized kernel's program walked from the launch memory to its two results.

  The generated frame names the contents of the TensorCore's buffers at every boundary between a host stretch and a
  region: W0 (launch), W1 (after stretch 0), W2 (after region 0), … , W13 (after the last stretch). Here each boundary
  is read. A stretch is read by Proof/Stretch*.lean at the boundary before it; a region's output array is read by the
  region's module (Proof/Encode.lean, Sage*.lean, Heads.lean) at the contents the region is entered with; a buffer that a
  later stretch reads long after it was written (the edge indices, the inverse degrees, the prepared weight stacks, the
  arguments) is carried across the stretches and regions that do not touch it.
  The outcome, boundary by boundary: the encoder's output is the reference's encoder stage; each layer's output is the
  reference's stage for that layer, because its neighbour-mean operand is the same host operations applied to equal
  features and its weight and bias operands read the same entries of the stacked arguments; the pooled features are the
  reference's; the two heads' outputs are the reference's two head stages; the final reshape gives the second result.
-/
import proofs.«126712_j22737556865376_1_alg».proof.Proof.KernelRun
import proofs.«126712_j22737556865376_1_alg».proof.Proof.Encode
import proofs.«126712_j22737556865376_1_alg».proof.Proof.Sage1
import proofs.«126712_j22737556865376_1_alg».proof.Proof.Sage2
import proofs.«126712_j22737556865376_1_alg».proof.Proof.Sage3
import proofs.«126712_j22737556865376_1_alg».proof.Proof.Sage4
import proofs.«126712_j22737556865376_1_alg».proof.Proof.Heads
import proofs.«126712_j22737556865376_1_alg».proof.Proof.Stretch0
import proofs.«126712_j22737556865376_1_alg».proof.Proof.Stretch1
import proofs.«126712_j22737556865376_1_alg».proof.Proof.Stretch2
import proofs.«126712_j22737556865376_1_alg».proof.Proof.Stretch3
import proofs.«126712_j22737556865376_1_alg».proof.Proof.Stretch4
import proofs.«126712_j22737556865376_1_alg».proof.Proof.Stretch5
import proofs.«126712_j22737556865376_1_alg».proof.Proof.Stretch6

set_option maxRecDepth 16384
set_option maxHeartbeats 1000000

noncomputable section

namespace Cert.KernelIdeal.Walk

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg) (c : Dev nD)

/-! ## Buffers carried across the stretches and regions that do not write them -/

theorem carry_main_v1_2 : W2 m ρ c (Proc.devRef .tc main_v1) = W1 m ρ c (Proc.devRef .tc main_v1) := W2_of_ne m ρ c main_v1 (by decide)
theorem carry_main_v1_3 : W3 m ρ c (Proc.devRef .tc main_v1) = W1 m ρ c (Proc.devRef .tc main_v1) := (Stretch1.keep_main_v1 (W2 m ρ c)).trans (carry_main_v1_2 m ρ c)
theorem carry_main_v1_4 : W4 m ρ c (Proc.devRef .tc main_v1) = W1 m ρ c (Proc.devRef .tc main_v1) := (W4_of_ne m ρ c main_v1 (by decide)).trans (carry_main_v1_3 m ρ c)
theorem carry_main_v1_5 : W5 m ρ c (Proc.devRef .tc main_v1) = W1 m ρ c (Proc.devRef .tc main_v1) := (Stretch2.keep_main_v1 (W4 m ρ c)).trans (carry_main_v1_4 m ρ c)
theorem carry_main_v1_6 : W6 m ρ c (Proc.devRef .tc main_v1) = W1 m ρ c (Proc.devRef .tc main_v1) := (W6_of_ne m ρ c main_v1 (by decide)).trans (carry_main_v1_5 m ρ c)
theorem carry_main_v1_7 : W7 m ρ c (Proc.devRef .tc main_v1) = W1 m ρ c (Proc.devRef .tc main_v1) := (Stretch3.keep_main_v1 (W6 m ρ c)).trans (carry_main_v1_6 m ρ c)
theorem carry_main_v1_8 : W8 m ρ c (Proc.devRef .tc main_v1) = W1 m ρ c (Proc.devRef .tc main_v1) := (W8_of_ne m ρ c main_v1 (by decide)).trans (carry_main_v1_7 m ρ c)

theorem carry_main_v3_2 : W2 m ρ c (Proc.devRef .tc main_v3) = W1 m ρ c (Proc.devRef .tc main_v3) := W2_of_ne m ρ c main_v3 (by decide)
theorem carry_main_v3_3 : W3 m ρ c (Proc.devRef .tc main_v3) = W1 m ρ c (Proc.devRef .tc main_v3) := (Stretch1.keep_main_v3 (W2 m ρ c)).trans (carry_main_v3_2 m ρ c)
theorem carry_main_v3_4 : W4 m ρ c (Proc.devRef .tc main_v3) = W1 m ρ c (Proc.devRef .tc main_v3) := (W4_of_ne m ρ c main_v3 (by decide)).trans (carry_main_v3_3 m ρ c)
theorem carry_main_v3_5 : W5 m ρ c (Proc.devRef .tc main_v3) = W1 m ρ c (Proc.devRef .tc main_v3) := (Stretch2.keep_main_v3 (W4 m ρ c)).trans (carry_main_v3_4 m ρ c)
theorem carry_main_v3_6 : W6 m ρ c (Proc.devRef .tc main_v3) = W1 m ρ c (Proc.devRef .tc main_v3) := (W6_of_ne m ρ c main_v3 (by decide)).trans (carry_main_v3_5 m ρ c)
theorem carry_main_v3_7 : W7 m ρ c (Proc.devRef .tc main_v3) = W1 m ρ c (Proc.devRef .tc main_v3) := (Stretch3.keep_main_v3 (W6 m ρ c)).trans (carry_main_v3_6 m ρ c)
theorem carry_main_v3_8 : W8 m ρ c (Proc.devRef .tc main_v3) = W1 m ρ c (Proc.devRef .tc main_v3) := (W8_of_ne m ρ c main_v3 (by decide)).trans (carry_main_v3_7 m ρ c)

theorem carry_main_v12_2 : W2 m ρ c (Proc.devRef .tc main_v12) = W1 m ρ c (Proc.devRef .tc main_v12) := W2_of_ne m ρ c main_v12 (by decide)
theorem carry_main_v12_3 : W3 m ρ c (Proc.devRef .tc main_v12) = W1 m ρ c (Proc.devRef .tc main_v12) := (Stretch1.keep_main_v12 (W2 m ρ c)).trans (carry_main_v12_2 m ρ c)
theorem carry_main_v12_4 : W4 m ρ c (Proc.devRef .tc main_v12) = W1 m ρ c (Proc.devRef .tc main_v12) := (W4_of_ne m ρ c main_v12 (by decide)).trans (carry_main_v12_3 m ρ c)
theorem carry_main_v12_5 : W5 m ρ c (Proc.devRef .tc main_v12) = W1 m ρ c (Proc.devRef .tc main_v12) := (Stretch2.keep_main_v12 (W4 m ρ c)).trans (carry_main_v12_4 m ρ c)
theorem carry_main_v12_6 : W6 m ρ c (Proc.devRef .tc main_v12) = W1 m ρ c (Proc.devRef .tc main_v12) := (W6_of_ne m ρ c main_v12 (by decide)).trans (carry_main_v12_5 m ρ c)
theorem carry_main_v12_7 : W7 m ρ c (Proc.devRef .tc main_v12) = W1 m ρ c (Proc.devRef .tc main_v12) := (Stretch3.keep_main_v12 (W6 m ρ c)).trans (carry_main_v12_6 m ρ c)
theorem carry_main_v12_8 : W8 m ρ c (Proc.devRef .tc main_v12) = W1 m ρ c (Proc.devRef .tc main_v12) := (W8_of_ne m ρ c main_v12 (by decide)).trans (carry_main_v12_7 m ρ c)

theorem carry_main_v18_4 : W4 m ρ c (Proc.devRef .tc main_v18) = W3 m ρ c (Proc.devRef .tc main_v18) := W4_of_ne m ρ c main_v18 (by decide)
theorem carry_main_v18_5 : W5 m ρ c (Proc.devRef .tc main_v18) = W3 m ρ c (Proc.devRef .tc main_v18) := (Stretch2.keep_main_v18 (W4 m ρ c)).trans (carry_main_v18_4 m ρ c)
theorem carry_main_v18_6 : W6 m ρ c (Proc.devRef .tc main_v18) = W3 m ρ c (Proc.devRef .tc main_v18) := (W6_of_ne m ρ c main_v18 (by decide)).trans (carry_main_v18_5 m ρ c)
theorem carry_main_v18_7 : W7 m ρ c (Proc.devRef .tc main_v18) = W3 m ρ c (Proc.devRef .tc main_v18) := (Stretch3.keep_main_v18 (W6 m ρ c)).trans (carry_main_v18_6 m ρ c)
theorem carry_main_v18_8 : W8 m ρ c (Proc.devRef .tc main_v18) = W3 m ρ c (Proc.devRef .tc main_v18) := (W8_of_ne m ρ c main_v18 (by decide)).trans (carry_main_v18_7 m ρ c)

theorem carry_main_v20_4 : W4 m ρ c (Proc.devRef .tc main_v20) = W3 m ρ c (Proc.devRef .tc main_v20) := W4_of_ne m ρ c main_v20 (by decide)
theorem carry_main_v20_5 : W5 m ρ c (Proc.devRef .tc main_v20) = W3 m ρ c (Proc.devRef .tc main_v20) := (Stretch2.keep_main_v20 (W4 m ρ c)).trans (carry_main_v20_4 m ρ c)
theorem carry_main_v20_6 : W6 m ρ c (Proc.devRef .tc main_v20) = W3 m ρ c (Proc.devRef .tc main_v20) := (W6_of_ne m ρ c main_v20 (by decide)).trans (carry_main_v20_5 m ρ c)
theorem carry_main_v20_7 : W7 m ρ c (Proc.devRef .tc main_v20) = W3 m ρ c (Proc.devRef .tc main_v20) := (Stretch3.keep_main_v20 (W6 m ρ c)).trans (carry_main_v20_6 m ρ c)
theorem carry_main_v20_8 : W8 m ρ c (Proc.devRef .tc main_v20) = W3 m ρ c (Proc.devRef .tc main_v20) := (W8_of_ne m ρ c main_v20 (by decide)).trans (carry_main_v20_7 m ρ c)

theorem carry_main_v21_4 : W4 m ρ c (Proc.devRef .tc main_v21) = W3 m ρ c (Proc.devRef .tc main_v21) := W4_of_ne m ρ c main_v21 (by decide)
theorem carry_main_v21_5 : W5 m ρ c (Proc.devRef .tc main_v21) = W3 m ρ c (Proc.devRef .tc main_v21) := (Stretch2.keep_main_v21 (W4 m ρ c)).trans (carry_main_v21_4 m ρ c)
theorem carry_main_v21_6 : W6 m ρ c (Proc.devRef .tc main_v21) = W3 m ρ c (Proc.devRef .tc main_v21) := (W6_of_ne m ρ c main_v21 (by decide)).trans (carry_main_v21_5 m ρ c)
theorem carry_main_v21_7 : W7 m ρ c (Proc.devRef .tc main_v21) = W3 m ρ c (Proc.devRef .tc main_v21) := (Stretch3.keep_main_v21 (W6 m ρ c)).trans (carry_main_v21_6 m ρ c)
theorem carry_main_v21_8 : W8 m ρ c (Proc.devRef .tc main_v21) = W3 m ρ c (Proc.devRef .tc main_v21) := (W8_of_ne m ρ c main_v21 (by decide)).trans (carry_main_v21_7 m ρ c)

theorem carry_main_arg5_1 : W1 m ρ c (Proc.devRef .tc main_arg5) = W0 m ρ c (Proc.devRef .tc main_arg5) := Stretch0.keep_main_arg5 (W0 m ρ c)
theorem carry_main_arg5_2 : W2 m ρ c (Proc.devRef .tc main_arg5) = W0 m ρ c (Proc.devRef .tc main_arg5) := (W2_of_ne m ρ c main_arg5 (by decide)).trans (carry_main_arg5_1 m ρ c)

theorem carry_main_arg6_1 : W1 m ρ c (Proc.devRef .tc main_arg6) = W0 m ρ c (Proc.devRef .tc main_arg6) := Stretch0.keep_main_arg6 (W0 m ρ c)
theorem carry_main_arg6_2 : W2 m ρ c (Proc.devRef .tc main_arg6) = W0 m ρ c (Proc.devRef .tc main_arg6) := (W2_of_ne m ρ c main_arg6 (by decide)).trans (carry_main_arg6_1 m ρ c)

theorem carry_main_arg7_1 : W1 m ρ c (Proc.devRef .tc main_arg7) = W0 m ρ c (Proc.devRef .tc main_arg7) := Stretch0.keep_main_arg7 (W0 m ρ c)
theorem carry_main_arg7_2 : W2 m ρ c (Proc.devRef .tc main_arg7) = W0 m ρ c (Proc.devRef .tc main_arg7) := (W2_of_ne m ρ c main_arg7 (by decide)).trans (carry_main_arg7_1 m ρ c)

theorem carry_main_arg2_1 : W1 m ρ c (Proc.devRef .tc main_arg2) = W0 m ρ c (Proc.devRef .tc main_arg2) := Stretch0.keep_main_arg2 (W0 m ρ c)
theorem carry_main_arg2_2 : W2 m ρ c (Proc.devRef .tc main_arg2) = W0 m ρ c (Proc.devRef .tc main_arg2) := (W2_of_ne m ρ c main_arg2 (by decide)).trans (carry_main_arg2_1 m ρ c)
theorem carry_main_arg2_3 : W3 m ρ c (Proc.devRef .tc main_arg2) = W0 m ρ c (Proc.devRef .tc main_arg2) := (Stretch1.keep_main_arg2 (W2 m ρ c)).trans (carry_main_arg2_2 m ρ c)
theorem carry_main_arg2_4 : W4 m ρ c (Proc.devRef .tc main_arg2) = W0 m ρ c (Proc.devRef .tc main_arg2) := (W4_of_ne m ρ c main_arg2 (by decide)).trans (carry_main_arg2_3 m ρ c)
theorem carry_main_arg2_5 : W5 m ρ c (Proc.devRef .tc main_arg2) = W0 m ρ c (Proc.devRef .tc main_arg2) := (Stretch2.keep_main_arg2 (W4 m ρ c)).trans (carry_main_arg2_4 m ρ c)
theorem carry_main_arg2_6 : W6 m ρ c (Proc.devRef .tc main_arg2) = W0 m ρ c (Proc.devRef .tc main_arg2) := (W6_of_ne m ρ c main_arg2 (by decide)).trans (carry_main_arg2_5 m ρ c)
theorem carry_main_arg2_7 : W7 m ρ c (Proc.devRef .tc main_arg2) = W0 m ρ c (Proc.devRef .tc main_arg2) := (Stretch3.keep_main_arg2 (W6 m ρ c)).trans (carry_main_arg2_6 m ρ c)
theorem carry_main_arg2_8 : W8 m ρ c (Proc.devRef .tc main_arg2) = W0 m ρ c (Proc.devRef .tc main_arg2) := (W8_of_ne m ρ c main_arg2 (by decide)).trans (carry_main_arg2_7 m ρ c)
theorem carry_main_arg2_9 : W9 m ρ c (Proc.devRef .tc main_arg2) = W0 m ρ c (Proc.devRef .tc main_arg2) := (Stretch4.keep_main_arg2 (W8 m ρ c)).trans (carry_main_arg2_8 m ρ c)
theorem carry_main_arg2_10 : W10 m ρ c (Proc.devRef .tc main_arg2) = W0 m ρ c (Proc.devRef .tc main_arg2) := (W10_of_ne m ρ c main_arg2 (by decide)).trans (carry_main_arg2_9 m ρ c)

theorem carry_main_arg8_1 : W1 m ρ c (Proc.devRef .tc main_arg8) = W0 m ρ c (Proc.devRef .tc main_arg8) := Stretch0.keep_main_arg8 (W0 m ρ c)
theorem carry_main_arg8_2 : W2 m ρ c (Proc.devRef .tc main_arg8) = W0 m ρ c (Proc.devRef .tc main_arg8) := (W2_of_ne m ρ c main_arg8 (by decide)).trans (carry_main_arg8_1 m ρ c)
theorem carry_main_arg8_3 : W3 m ρ c (Proc.devRef .tc main_arg8) = W0 m ρ c (Proc.devRef .tc main_arg8) := (Stretch1.keep_main_arg8 (W2 m ρ c)).trans (carry_main_arg8_2 m ρ c)
theorem carry_main_arg8_4 : W4 m ρ c (Proc.devRef .tc main_arg8) = W0 m ρ c (Proc.devRef .tc main_arg8) := (W4_of_ne m ρ c main_arg8 (by decide)).trans (carry_main_arg8_3 m ρ c)
theorem carry_main_arg8_5 : W5 m ρ c (Proc.devRef .tc main_arg8) = W0 m ρ c (Proc.devRef .tc main_arg8) := (Stretch2.keep_main_arg8 (W4 m ρ c)).trans (carry_main_arg8_4 m ρ c)
theorem carry_main_arg8_6 : W6 m ρ c (Proc.devRef .tc main_arg8) = W0 m ρ c (Proc.devRef .tc main_arg8) := (W6_of_ne m ρ c main_arg8 (by decide)).trans (carry_main_arg8_5 m ρ c)
theorem carry_main_arg8_7 : W7 m ρ c (Proc.devRef .tc main_arg8) = W0 m ρ c (Proc.devRef .tc main_arg8) := (Stretch3.keep_main_arg8 (W6 m ρ c)).trans (carry_main_arg8_6 m ρ c)
theorem carry_main_arg8_8 : W8 m ρ c (Proc.devRef .tc main_arg8) = W0 m ρ c (Proc.devRef .tc main_arg8) := (W8_of_ne m ρ c main_arg8 (by decide)).trans (carry_main_arg8_7 m ρ c)
theorem carry_main_arg8_9 : W9 m ρ c (Proc.devRef .tc main_arg8) = W0 m ρ c (Proc.devRef .tc main_arg8) := (Stretch4.keep_main_arg8 (W8 m ρ c)).trans (carry_main_arg8_8 m ρ c)
theorem carry_main_arg8_10 : W10 m ρ c (Proc.devRef .tc main_arg8) = W0 m ρ c (Proc.devRef .tc main_arg8) := (W10_of_ne m ρ c main_arg8 (by decide)).trans (carry_main_arg8_9 m ρ c)

theorem carry_main_arg9_1 : W1 m ρ c (Proc.devRef .tc main_arg9) = W0 m ρ c (Proc.devRef .tc main_arg9) := Stretch0.keep_main_arg9 (W0 m ρ c)
theorem carry_main_arg9_2 : W2 m ρ c (Proc.devRef .tc main_arg9) = W0 m ρ c (Proc.devRef .tc main_arg9) := (W2_of_ne m ρ c main_arg9 (by decide)).trans (carry_main_arg9_1 m ρ c)
theorem carry_main_arg9_3 : W3 m ρ c (Proc.devRef .tc main_arg9) = W0 m ρ c (Proc.devRef .tc main_arg9) := (Stretch1.keep_main_arg9 (W2 m ρ c)).trans (carry_main_arg9_2 m ρ c)
theorem carry_main_arg9_4 : W4 m ρ c (Proc.devRef .tc main_arg9) = W0 m ρ c (Proc.devRef .tc main_arg9) := (W4_of_ne m ρ c main_arg9 (by decide)).trans (carry_main_arg9_3 m ρ c)
theorem carry_main_arg9_5 : W5 m ρ c (Proc.devRef .tc main_arg9) = W0 m ρ c (Proc.devRef .tc main_arg9) := (Stretch2.keep_main_arg9 (W4 m ρ c)).trans (carry_main_arg9_4 m ρ c)
theorem carry_main_arg9_6 : W6 m ρ c (Proc.devRef .tc main_arg9) = W0 m ρ c (Proc.devRef .tc main_arg9) := (W6_of_ne m ρ c main_arg9 (by decide)).trans (carry_main_arg9_5 m ρ c)
theorem carry_main_arg9_7 : W7 m ρ c (Proc.devRef .tc main_arg9) = W0 m ρ c (Proc.devRef .tc main_arg9) := (Stretch3.keep_main_arg9 (W6 m ρ c)).trans (carry_main_arg9_6 m ρ c)
theorem carry_main_arg9_8 : W8 m ρ c (Proc.devRef .tc main_arg9) = W0 m ρ c (Proc.devRef .tc main_arg9) := (W8_of_ne m ρ c main_arg9 (by decide)).trans (carry_main_arg9_7 m ρ c)
theorem carry_main_arg9_9 : W9 m ρ c (Proc.devRef .tc main_arg9) = W0 m ρ c (Proc.devRef .tc main_arg9) := (Stretch4.keep_main_arg9 (W8 m ρ c)).trans (carry_main_arg9_8 m ρ c)
theorem carry_main_arg9_10 : W10 m ρ c (Proc.devRef .tc main_arg9) = W0 m ρ c (Proc.devRef .tc main_arg9) := (W10_of_ne m ρ c main_arg9 (by decide)).trans (carry_main_arg9_9 m ρ c)

theorem carry_main_arg10_1 : W1 m ρ c (Proc.devRef .tc main_arg10) = W0 m ρ c (Proc.devRef .tc main_arg10) := Stretch0.keep_main_arg10 (W0 m ρ c)
theorem carry_main_arg10_2 : W2 m ρ c (Proc.devRef .tc main_arg10) = W0 m ρ c (Proc.devRef .tc main_arg10) := (W2_of_ne m ρ c main_arg10 (by decide)).trans (carry_main_arg10_1 m ρ c)
theorem carry_main_arg10_3 : W3 m ρ c (Proc.devRef .tc main_arg10) = W0 m ρ c (Proc.devRef .tc main_arg10) := (Stretch1.keep_main_arg10 (W2 m ρ c)).trans (carry_main_arg10_2 m ρ c)
theorem carry_main_arg10_4 : W4 m ρ c (Proc.devRef .tc main_arg10) = W0 m ρ c (Proc.devRef .tc main_arg10) := (W4_of_ne m ρ c main_arg10 (by decide)).trans (carry_main_arg10_3 m ρ c)
theorem carry_main_arg10_5 : W5 m ρ c (Proc.devRef .tc main_arg10) = W0 m ρ c (Proc.devRef .tc main_arg10) := (Stretch2.keep_main_arg10 (W4 m ρ c)).trans (carry_main_arg10_4 m ρ c)
theorem carry_main_arg10_6 : W6 m ρ c (Proc.devRef .tc main_arg10) = W0 m ρ c (Proc.devRef .tc main_arg10) := (W6_of_ne m ρ c main_arg10 (by decide)).trans (carry_main_arg10_5 m ρ c)
theorem carry_main_arg10_7 : W7 m ρ c (Proc.devRef .tc main_arg10) = W0 m ρ c (Proc.devRef .tc main_arg10) := (Stretch3.keep_main_arg10 (W6 m ρ c)).trans (carry_main_arg10_6 m ρ c)
theorem carry_main_arg10_8 : W8 m ρ c (Proc.devRef .tc main_arg10) = W0 m ρ c (Proc.devRef .tc main_arg10) := (W8_of_ne m ρ c main_arg10 (by decide)).trans (carry_main_arg10_7 m ρ c)
theorem carry_main_arg10_9 : W9 m ρ c (Proc.devRef .tc main_arg10) = W0 m ρ c (Proc.devRef .tc main_arg10) := (Stretch4.keep_main_arg10 (W8 m ρ c)).trans (carry_main_arg10_8 m ρ c)
theorem carry_main_arg10_10 : W10 m ρ c (Proc.devRef .tc main_arg10) = W0 m ρ c (Proc.devRef .tc main_arg10) := (W10_of_ne m ρ c main_arg10 (by decide)).trans (carry_main_arg10_9 m ρ c)

theorem carry_main_arg11_1 : W1 m ρ c (Proc.devRef .tc main_arg11) = W0 m ρ c (Proc.devRef .tc main_arg11) := Stretch0.keep_main_arg11 (W0 m ρ c)
theorem carry_main_arg11_2 : W2 m ρ c (Proc.devRef .tc main_arg11) = W0 m ρ c (Proc.devRef .tc main_arg11) := (W2_of_ne m ρ c main_arg11 (by decide)).trans (carry_main_arg11_1 m ρ c)
theorem carry_main_arg11_3 : W3 m ρ c (Proc.devRef .tc main_arg11) = W0 m ρ c (Proc.devRef .tc main_arg11) := (Stretch1.keep_main_arg11 (W2 m ρ c)).trans (carry_main_arg11_2 m ρ c)
theorem carry_main_arg11_4 : W4 m ρ c (Proc.devRef .tc main_arg11) = W0 m ρ c (Proc.devRef .tc main_arg11) := (W4_of_ne m ρ c main_arg11 (by decide)).trans (carry_main_arg11_3 m ρ c)
theorem carry_main_arg11_5 : W5 m ρ c (Proc.devRef .tc main_arg11) = W0 m ρ c (Proc.devRef .tc main_arg11) := (Stretch2.keep_main_arg11 (W4 m ρ c)).trans (carry_main_arg11_4 m ρ c)
theorem carry_main_arg11_6 : W6 m ρ c (Proc.devRef .tc main_arg11) = W0 m ρ c (Proc.devRef .tc main_arg11) := (W6_of_ne m ρ c main_arg11 (by decide)).trans (carry_main_arg11_5 m ρ c)
theorem carry_main_arg11_7 : W7 m ρ c (Proc.devRef .tc main_arg11) = W0 m ρ c (Proc.devRef .tc main_arg11) := (Stretch3.keep_main_arg11 (W6 m ρ c)).trans (carry_main_arg11_6 m ρ c)
theorem carry_main_arg11_8 : W8 m ρ c (Proc.devRef .tc main_arg11) = W0 m ρ c (Proc.devRef .tc main_arg11) := (W8_of_ne m ρ c main_arg11 (by decide)).trans (carry_main_arg11_7 m ρ c)
theorem carry_main_arg11_9 : W9 m ρ c (Proc.devRef .tc main_arg11) = W0 m ρ c (Proc.devRef .tc main_arg11) := (Stretch4.keep_main_arg11 (W8 m ρ c)).trans (carry_main_arg11_8 m ρ c)
theorem carry_main_arg11_10 : W10 m ρ c (Proc.devRef .tc main_arg11) = W0 m ρ c (Proc.devRef .tc main_arg11) := (W10_of_ne m ρ c main_arg11 (by decide)).trans (carry_main_arg11_9 m ρ c)

/-! ## What stretch 0 prepares -/

theorem W1_v1 : (W1 m ρ c (Proc.devRef .tc main_v1) : S3200000.Idx → BitVec 32) = val_main_v1 (F := Ideal) (m ((c : Thread nD τ).loc main_arg1)) := Stretch0.src_eq (W0 m ρ c)
theorem W1_v3 : (W1 m ρ c (Proc.devRef .tc main_v3) : S3200000.Idx → BitVec 32) = val_main_v3 (F := Ideal) (m ((c : Thread nD τ).loc main_arg1)) := Stretch0.dst_eq (W0 m ρ c)
theorem W1_v12 : (W1 m ρ c (Proc.devRef .tc main_v12) : S100000x1.Idx → EReal) = val_main_v12 (F := Ideal) (m ((c : Thread nD τ).loc main_arg1)) := Stretch0.inv_eq (W0 m ρ c)

theorem ent0_x : (V1 m ρ c main_arg0 : S100000x32.Idx → EReal) = (m ((c : Thread nD τ).loc main_arg0)) := Stretch0.keep_main_arg0 (W0 m ρ c)
theorem ent0_w : (V1 m ρ c main_v14 : S32x64.Idx → EReal) = val_main_v13 (F := Ideal) (m ((c : Thread nD τ).loc main_arg3)) := Stretch0.wenc_eq (W0 m ρ c)
theorem ent0_b (j : Fin 64) : (V1 m ρ c main_v15 : S1x64.Idx → EReal) (ix2 ⟨0, Nat.one_pos⟩ j) = (m ((c : Thread nD τ).loc main_arg4)) (ix1 j) := Stretch0.benc_apply (W0 m ρ c) j

/-- After region 0 its output array holds the reference's encoder stage. -/
theorem feat0 : (W2 m ρ c (Proc.devRef .tc main_v16) : S100000x64.Idx → EReal) = val_main_v18 (F := Ideal) (m ((c : Thread nD τ).loc main_arg0)) (m ((c : Thread nD τ).loc main_arg3)) (m ((c : Thread nD τ).loc main_arg4)) := by
  rw [show W2 m ρ c (Proc.devRef .tc main_v16) = (dat0 (V1 m ρ) c).arrAt 3 cfg0.N from W2_arr m ρ c 3,
    Encode.final (V1 m ρ) c, ent0_x, ent0_w, Cert.ReferenceIdeal.Stage.encode_eq]
  have hb : Gnn.rowOf (V1 m ρ c main_v15 : S1x64.Idx → EReal) = Gnn.vecOf (m ((c : Thread nD τ).loc main_arg4)) := funext fun j => ent0_b m ρ c j
  show Gnn.denseArr _ _ (Gnn.rowOf (V1 m ρ c main_v15 : S1x64.Idx → EReal)) = _
  rw [hb]

/-! ## The prepared weight stacks, as stretch 1 leaves them -/

theorem wlStack (l : Fin 4) (k j : Fin 64) : (W3 m ρ c (Proc.devRef .tc main_v18) : S4x64x64.Idx → EReal) (ix3 l k j) = (m ((c : Thread nD τ).loc main_arg5)) (ix3 l j k) :=
  (Stretch1.wlStack_apply (W2 m ρ c) l k j).trans (congrFun (carry_main_arg5_2 m ρ c) _)
theorem wrStack (l : Fin 4) (k j : Fin 64) : (W3 m ρ c (Proc.devRef .tc main_v20) : S4x64x64.Idx → EReal) (ix3 l k j) = (m ((c : Thread nD τ).loc main_arg7)) (ix3 l j k) :=
  (Stretch1.wrStack_apply (W2 m ρ c) l k j).trans (congrFun (carry_main_arg7_2 m ρ c) _)
theorem blStack (l : Fin 4) (j : Fin 64) : (W3 m ρ c (Proc.devRef .tc main_v21) : S4x1x64.Idx → EReal) (ix3 l ⟨0, Nat.one_pos⟩ j) = (m ((c : Thread nD τ).loc main_arg6)) (ix2 l j) :=
  (Stretch1.blStack_apply (W2 m ρ c) l j).trans (congrFun (carry_main_arg6_2 m ρ c) _)

/-! ## Layer 1 -/

/-- Region 1 finds, as its neighbour-mean array, the reference's neighbour mean of the reference's layer-0 features. -/
theorem ent1_agg : (V3 m ρ c main_v33 : S100000x64.Idx → EReal) = Cert.ReferenceIdeal.Stage.agg (val_main_v18 (F := Ideal) (m ((c : Thread nD τ).loc main_arg0)) (m ((c : Thread nD τ).loc main_arg3)) (m ((c : Thread nD τ).loc main_arg4))) (m ((c : Thread nD τ).loc main_arg1)) :=
  (Stretch1.agg_eq (W2 m ρ c) (m ((c : Thread nD τ).loc main_arg1)) ((carry_main_v1_2 m ρ c).trans (W1_v1 m ρ c)) ((carry_main_v3_2 m ρ c).trans (W1_v3 m ρ c)) ((carry_main_v12_2 m ρ c).trans (W1_v12 m ρ c))).trans (by rw [feat0 m ρ c])

/-- Region 1 finds, as its feature array, the reference's layer-0 features. -/
theorem ent1_h : (V3 m ρ c main_v16 : S100000x64.Idx → EReal) = val_main_v18 (F := Ideal) (m ((c : Thread nD τ).loc main_arg0)) (m ((c : Thread nD τ).loc main_arg3)) (m ((c : Thread nD τ).loc main_arg4)) :=
  (Stretch1.keep_main_v16 (W2 m ρ c)).trans (feat0 m ρ c)

theorem ent1_wl (k j : Fin 64) : (V3 m ρ c main_v35 : S64x64.Idx → EReal) (ix2 k j) = (m ((c : Thread nD τ).loc main_arg5)) (ix3 ⟨0, by decide⟩ j k) :=
  (Stretch1.wl_apply (W2 m ρ c) k j).trans (congrFun (carry_main_arg5_2 m ρ c) _)

theorem ent1_wr (k j : Fin 64) : (V3 m ρ c main_v39 : S64x64.Idx → EReal) (ix2 k j) = (m ((c : Thread nD τ).loc main_arg7)) (ix3 ⟨0, by decide⟩ j k) :=
  (Stretch1.wr_apply (W2 m ρ c) k j).trans (congrFun (carry_main_arg7_2 m ρ c) _)

theorem ent1_bl (j : Fin 64) : (V3 m ρ c main_v37 : S1x64.Idx → EReal) (ix2 ⟨0, Nat.one_pos⟩ j) = (m ((c : Thread nD τ).loc main_arg6)) (ix2 ⟨0, by decide⟩ j) :=
  (Stretch1.bl_apply (W2 m ρ c) j).trans (congrFun (carry_main_arg6_2 m ρ c) _)

/-- After region 1 its output array holds the reference's layer-1 features. -/
theorem feat1 : (W4 m ρ c (Proc.devRef .tc main_v40) : S100000x64.Idx → EReal) = val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W4 m ρ c (Proc.devRef .tc main_v40) = (dat1 (V3 m ρ) c).arrAt 5 cfg1.N from W4_arr m ρ c 5,
    Sage1.final (V3 m ρ) c, ent1_agg, ent1_h, Cert.ReferenceIdeal.Stage.layer1_eq, Cert.ReferenceIdeal.Stage.agg1_eq]
  have hwl : (V3 m ρ c main_v35 : S64x64.Idx → EReal) = Gnn.stackT (m ((c : Thread nD τ).loc main_arg5)) 0 (by decide) := funext fun i => by
    obtain ⟨k, j, rfl⟩ : ∃ (k j : Fin 64), i = ix2 k j := ⟨i 0, i 1, eq_ix2 i⟩
    exact ent1_wl m ρ c k j
  have hwr : (V3 m ρ c main_v39 : S64x64.Idx → EReal) = Gnn.stackT (m ((c : Thread nD τ).loc main_arg7)) 0 (by decide) := funext fun i => by
    obtain ⟨k, j, rfl⟩ : ∃ (k j : Fin 64), i = ix2 k j := ⟨i 0, i 1, eq_ix2 i⟩
    exact ent1_wr m ρ c k j
  have hbl : Gnn.rowOf (V3 m ρ c main_v37 : S1x64.Idx → EReal) = Gnn.stackRow (m ((c : Thread nD τ).loc main_arg6)) 0 (by decide) := funext fun j => ent1_bl m ρ c j
  show Gnn.sageArr _ _ (V3 m ρ c main_v35 : S64x64.Idx → EReal) (V3 m ρ c main_v39 : S64x64.Idx → EReal) (Gnn.rowOf (V3 m ρ c main_v37 : S1x64.Idx → EReal)) = _
  rw [hwl, hwr, hbl]

/-! ## Layer 2 -/

/-- Region 2 finds, as its neighbour-mean array, the reference's neighbour mean of the reference's layer-1 features. -/
theorem ent2_agg : (V5 m ρ c main_v52 : S100000x64.Idx → EReal) = Cert.ReferenceIdeal.Stage.agg (val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) :=
  (Stretch2.agg_eq (W4 m ρ c) (m ((c : Thread nD τ).loc main_arg1)) ((carry_main_v1_4 m ρ c).trans (W1_v1 m ρ c)) ((carry_main_v3_4 m ρ c).trans (W1_v3 m ρ c)) ((carry_main_v12_4 m ρ c).trans (W1_v12 m ρ c))).trans (by rw [feat1 m ρ c])

/-- Region 2 finds, as its feature array, the reference's layer-1 features. -/
theorem ent2_h : (V5 m ρ c main_v40 : S100000x64.Idx → EReal) = val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (Stretch2.keep_main_v40 (W4 m ρ c)).trans (feat1 m ρ c)

theorem ent2_wl (k j : Fin 64) : (V5 m ρ c main_v54 : S64x64.Idx → EReal) (ix2 k j) = (m ((c : Thread nD τ).loc main_arg5)) (ix3 ⟨1, by decide⟩ j k) :=
  (Stretch2.wl_apply (W4 m ρ c) k j).trans ((congrFun (carry_main_v18_4 m ρ c) _).trans (wlStack m ρ c ⟨1, by decide⟩ k j))

theorem ent2_wr (k j : Fin 64) : (V5 m ρ c main_v58 : S64x64.Idx → EReal) (ix2 k j) = (m ((c : Thread nD τ).loc main_arg7)) (ix3 ⟨1, by decide⟩ j k) :=
  (Stretch2.wr_apply (W4 m ρ c) k j).trans ((congrFun (carry_main_v20_4 m ρ c) _).trans (wrStack m ρ c ⟨1, by decide⟩ k j))

theorem ent2_bl (j : Fin 64) : (V5 m ρ c main_v56 : S1x64.Idx → EReal) (ix2 ⟨0, Nat.one_pos⟩ j) = (m ((c : Thread nD τ).loc main_arg6)) (ix2 ⟨1, by decide⟩ j) :=
  (Stretch2.bl_apply (W4 m ρ c) j).trans ((congrFun (carry_main_v21_4 m ρ c) _).trans (blStack m ρ c ⟨1, by decide⟩ j))

/-- After region 2 its output array holds the reference's layer-2 features. -/
theorem feat2 : (W6 m ρ c (Proc.devRef .tc main_v59) : S100000x64.Idx → EReal) = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W6 m ρ c (Proc.devRef .tc main_v59) = (dat2 (V5 m ρ) c).arrAt 5 cfg2.N from W6_arr m ρ c 5,
    Sage2.final (V5 m ρ) c, ent2_agg, ent2_h, Cert.ReferenceIdeal.Stage.layer2_eq, Cert.ReferenceIdeal.Stage.agg2_eq]
  have hwl : (V5 m ρ c main_v54 : S64x64.Idx → EReal) = Gnn.stackT (m ((c : Thread nD τ).loc main_arg5)) 1 (by decide) := funext fun i => by
    obtain ⟨k, j, rfl⟩ : ∃ (k j : Fin 64), i = ix2 k j := ⟨i 0, i 1, eq_ix2 i⟩
    exact ent2_wl m ρ c k j
  have hwr : (V5 m ρ c main_v58 : S64x64.Idx → EReal) = Gnn.stackT (m ((c : Thread nD τ).loc main_arg7)) 1 (by decide) := funext fun i => by
    obtain ⟨k, j, rfl⟩ : ∃ (k j : Fin 64), i = ix2 k j := ⟨i 0, i 1, eq_ix2 i⟩
    exact ent2_wr m ρ c k j
  have hbl : Gnn.rowOf (V5 m ρ c main_v56 : S1x64.Idx → EReal) = Gnn.stackRow (m ((c : Thread nD τ).loc main_arg6)) 1 (by decide) := funext fun j => ent2_bl m ρ c j
  show Gnn.sageArr _ _ (V5 m ρ c main_v54 : S64x64.Idx → EReal) (V5 m ρ c main_v58 : S64x64.Idx → EReal) (Gnn.rowOf (V5 m ρ c main_v56 : S1x64.Idx → EReal)) = _
  rw [hwl, hwr, hbl]

/-! ## Layer 3 -/

/-- Region 3 finds, as its neighbour-mean array, the reference's neighbour mean of the reference's layer-2 features. -/
theorem ent3_agg : (V7 m ρ c main_v71 : S100000x64.Idx → EReal) = Cert.ReferenceIdeal.Stage.agg (val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) :=
  (Stretch3.agg_eq (W6 m ρ c) (m ((c : Thread nD τ).loc main_arg1)) ((carry_main_v1_6 m ρ c).trans (W1_v1 m ρ c)) ((carry_main_v3_6 m ρ c).trans (W1_v3 m ρ c)) ((carry_main_v12_6 m ρ c).trans (W1_v12 m ρ c))).trans (by rw [feat2 m ρ c])

/-- Region 3 finds, as its feature array, the reference's layer-2 features. -/
theorem ent3_h : (V7 m ρ c main_v59 : S100000x64.Idx → EReal) = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (Stretch3.keep_main_v59 (W6 m ρ c)).trans (feat2 m ρ c)

theorem ent3_wl (k j : Fin 64) : (V7 m ρ c main_v73 : S64x64.Idx → EReal) (ix2 k j) = (m ((c : Thread nD τ).loc main_arg5)) (ix3 ⟨2, by decide⟩ j k) :=
  (Stretch3.wl_apply (W6 m ρ c) k j).trans ((congrFun (carry_main_v18_6 m ρ c) _).trans (wlStack m ρ c ⟨2, by decide⟩ k j))

theorem ent3_wr (k j : Fin 64) : (V7 m ρ c main_v77 : S64x64.Idx → EReal) (ix2 k j) = (m ((c : Thread nD τ).loc main_arg7)) (ix3 ⟨2, by decide⟩ j k) :=
  (Stretch3.wr_apply (W6 m ρ c) k j).trans ((congrFun (carry_main_v20_6 m ρ c) _).trans (wrStack m ρ c ⟨2, by decide⟩ k j))

theorem ent3_bl (j : Fin 64) : (V7 m ρ c main_v75 : S1x64.Idx → EReal) (ix2 ⟨0, Nat.one_pos⟩ j) = (m ((c : Thread nD τ).loc main_arg6)) (ix2 ⟨2, by decide⟩ j) :=
  (Stretch3.bl_apply (W6 m ρ c) j).trans ((congrFun (carry_main_v21_6 m ρ c) _).trans (blStack m ρ c ⟨2, by decide⟩ j))

/-- After region 3 its output array holds the reference's layer-3 features. -/
theorem feat3 : (W8 m ρ c (Proc.devRef .tc main_v78) : S100000x64.Idx → EReal) = val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W8 m ρ c (Proc.devRef .tc main_v78) = (dat3 (V7 m ρ) c).arrAt 5 cfg3.N from W8_arr m ρ c 5,
    Sage3.final (V7 m ρ) c, ent3_agg, ent3_h, Cert.ReferenceIdeal.Stage.layer3_eq, Cert.ReferenceIdeal.Stage.agg3_eq]
  have hwl : (V7 m ρ c main_v73 : S64x64.Idx → EReal) = Gnn.stackT (m ((c : Thread nD τ).loc main_arg5)) 2 (by decide) := funext fun i => by
    obtain ⟨k, j, rfl⟩ : ∃ (k j : Fin 64), i = ix2 k j := ⟨i 0, i 1, eq_ix2 i⟩
    exact ent3_wl m ρ c k j
  have hwr : (V7 m ρ c main_v77 : S64x64.Idx → EReal) = Gnn.stackT (m ((c : Thread nD τ).loc main_arg7)) 2 (by decide) := funext fun i => by
    obtain ⟨k, j, rfl⟩ : ∃ (k j : Fin 64), i = ix2 k j := ⟨i 0, i 1, eq_ix2 i⟩
    exact ent3_wr m ρ c k j
  have hbl : Gnn.rowOf (V7 m ρ c main_v75 : S1x64.Idx → EReal) = Gnn.stackRow (m ((c : Thread nD τ).loc main_arg6)) 2 (by decide) := funext fun j => ent3_bl m ρ c j
  show Gnn.sageArr _ _ (V7 m ρ c main_v73 : S64x64.Idx → EReal) (V7 m ρ c main_v77 : S64x64.Idx → EReal) (Gnn.rowOf (V7 m ρ c main_v75 : S1x64.Idx → EReal)) = _
  rw [hwl, hwr, hbl]

/-! ## Layer 4 -/

/-- Region 4 finds, as its neighbour-mean array, the reference's neighbour mean of the reference's layer-3 features. -/
theorem ent4_agg : (V9 m ρ c main_v90 : S100000x64.Idx → EReal) = Cert.ReferenceIdeal.Stage.agg (val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) :=
  (Stretch4.agg_eq (W8 m ρ c) (m ((c : Thread nD τ).loc main_arg1)) ((carry_main_v1_8 m ρ c).trans (W1_v1 m ρ c)) ((carry_main_v3_8 m ρ c).trans (W1_v3 m ρ c)) ((carry_main_v12_8 m ρ c).trans (W1_v12 m ρ c))).trans (by rw [feat3 m ρ c])

/-- Region 4 finds, as its feature array, the reference's layer-3 features. -/
theorem ent4_h : (V9 m ρ c main_v78 : S100000x64.Idx → EReal) = val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (Stretch4.keep_main_v78 (W8 m ρ c)).trans (feat3 m ρ c)

theorem ent4_wl (k j : Fin 64) : (V9 m ρ c main_v92 : S64x64.Idx → EReal) (ix2 k j) = (m ((c : Thread nD τ).loc main_arg5)) (ix3 ⟨3, by decide⟩ j k) :=
  (Stretch4.wl_apply (W8 m ρ c) k j).trans ((congrFun (carry_main_v18_8 m ρ c) _).trans (wlStack m ρ c ⟨3, by decide⟩ k j))

theorem ent4_wr (k j : Fin 64) : (V9 m ρ c main_v96 : S64x64.Idx → EReal) (ix2 k j) = (m ((c : Thread nD τ).loc main_arg7)) (ix3 ⟨3, by decide⟩ j k) :=
  (Stretch4.wr_apply (W8 m ρ c) k j).trans ((congrFun (carry_main_v20_8 m ρ c) _).trans (wrStack m ρ c ⟨3, by decide⟩ k j))

theorem ent4_bl (j : Fin 64) : (V9 m ρ c main_v94 : S1x64.Idx → EReal) (ix2 ⟨0, Nat.one_pos⟩ j) = (m ((c : Thread nD τ).loc main_arg6)) (ix2 ⟨3, by decide⟩ j) :=
  (Stretch4.bl_apply (W8 m ρ c) j).trans ((congrFun (carry_main_v21_8 m ρ c) _).trans (blStack m ρ c ⟨3, by decide⟩ j))

/-- After region 4 its output array holds the reference's layer-4 features. -/
theorem feat4 : (W10 m ρ c (Proc.devRef .tc main_v97) : S100000x64.Idx → EReal) = val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W10 m ρ c (Proc.devRef .tc main_v97) = (dat4 (V9 m ρ) c).arrAt 5 cfg4.N from W10_arr m ρ c 5,
    Sage4.final (V9 m ρ) c, ent4_agg, ent4_h, Cert.ReferenceIdeal.Stage.layer4_eq, Cert.ReferenceIdeal.Stage.agg4_eq]
  have hwl : (V9 m ρ c main_v92 : S64x64.Idx → EReal) = Gnn.stackT (m ((c : Thread nD τ).loc main_arg5)) 3 (by decide) := funext fun i => by
    obtain ⟨k, j, rfl⟩ : ∃ (k j : Fin 64), i = ix2 k j := ⟨i 0, i 1, eq_ix2 i⟩
    exact ent4_wl m ρ c k j
  have hwr : (V9 m ρ c main_v96 : S64x64.Idx → EReal) = Gnn.stackT (m ((c : Thread nD τ).loc main_arg7)) 3 (by decide) := funext fun i => by
    obtain ⟨k, j, rfl⟩ : ∃ (k j : Fin 64), i = ix2 k j := ⟨i 0, i 1, eq_ix2 i⟩
    exact ent4_wr m ρ c k j
  have hbl : Gnn.rowOf (V9 m ρ c main_v94 : S1x64.Idx → EReal) = Gnn.stackRow (m ((c : Thread nD τ).loc main_arg6)) 3 (by decide) := funext fun j => ent4_bl m ρ c j
  show Gnn.sageArr _ _ (V9 m ρ c main_v92 : S64x64.Idx → EReal) (V9 m ρ c main_v96 : S64x64.Idx → EReal) (Gnn.rowOf (V9 m ρ c main_v94 : S1x64.Idx → EReal)) = _
  rw [hwl, hwr, hbl]

/-! ## The pool and the heads -/

theorem ent5_g : (V11 m ρ c main_v109 : S64x64.Idx → EReal) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show (V11 m ρ c main_v109 : S64x64.Idx → EReal) = Cert.ReferenceIdeal.Stage.pool (W10 m ρ c (Proc.devRef .tc main_v97)) (W10 m ρ c (Proc.devRef .tc main_arg2)) from Stretch5.pool_eq (W10 m ρ c),
    feat4, carry_main_arg2_10, Cert.ReferenceIdeal.Stage.pool_eq]

theorem ent5_wp : (V11 m ρ c main_v111 : S64x6158.Idx → EReal) = val_main_v143 (F := Ideal) (m ((c : Thread nD τ).loc main_arg8)) := by
  rw [show (V11 m ρ c main_v111 : S64x6158.Idx → EReal) = val_main_v143 (F := Ideal) (W10 m ρ c (Proc.devRef .tc main_arg8)) from Stretch5.wp_eq (W10 m ρ c), carry_main_arg8_10]

theorem ent5_wv : (V11 m ρ c main_v113 : S64x1.Idx → EReal) = val_main_v148 (F := Ideal) (m ((c : Thread nD τ).loc main_arg10)) := by
  rw [show (V11 m ρ c main_v113 : S64x1.Idx → EReal) = val_main_v148 (F := Ideal) (W10 m ρ c (Proc.devRef .tc main_arg10)) from Stretch5.wv_eq (W10 m ρ c), carry_main_arg10_10]

theorem ent5_bp (j : Fin 6158) : (V11 m ρ c main_v114 : S1x6158.Idx → EReal) (ix2 ⟨0, Nat.one_pos⟩ j) = (m ((c : Thread nD τ).loc main_arg9)) (ix1 j) :=
  (Stretch5.bp_apply (W10 m ρ c) j).trans (congrFun (carry_main_arg9_10 m ρ c) _)

theorem ent5_bv (j : Fin 1) : (V11 m ρ c main_v115 : S1x1.Idx → EReal) (ix2 ⟨0, Nat.one_pos⟩ j) = (m ((c : Thread nD τ).loc main_arg11)) (ix1 j) :=
  (Stretch5.bv_apply (W10 m ρ c) j).trans (congrFun (carry_main_arg11_10 m ρ c) _)

/-- After the heads region the policy array holds the reference's first result. -/
theorem policy12 : (W12 m ρ c (Proc.devRef .tc main_v116_0) : S64x6158.Idx → EReal) = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W12 m ρ c (Proc.devRef .tc main_v116_0) = (dat5 (V11 m ρ) c).arrAt 5 cfg5.N from W12_arr m ρ c 5,
    Heads.finalP (V11 m ρ) c, ent5_g, ent5_wp, Cert.ReferenceIdeal.Stage.policy_eq]
  have hb : Gnn.rowOf (V11 m ρ c main_v114 : S1x6158.Idx → EReal) = Gnn.vecOf (m ((c : Thread nD τ).loc main_arg9)) := funext fun j => ent5_bp m ρ c j
  show Gnn.affineArr _ _ (Gnn.rowOf (V11 m ρ c main_v114 : S1x6158.Idx → EReal)) = _
  rw [hb]

/-- After the heads region the value column holds the reference's value stage before its reshape. -/
theorem value12 : (W12 m ρ c (Proc.devRef .tc main_v116_1) : S64x1.Idx → EReal) = val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  rw [show W12 m ρ c (Proc.devRef .tc main_v116_1) = (dat5 (V11 m ρ) c).arrAt 6 cfg5.N from W12_arr m ρ c 6,
    Heads.finalV (V11 m ρ) c, ent5_g, ent5_wv, Cert.ReferenceIdeal.Stage.value_eq]
  have hb : Gnn.rowOf (V11 m ρ c main_v115 : S1x1.Idx → EReal) = Gnn.vecOf (m ((c : Thread nD τ).loc main_arg11)) := funext fun j => ent5_bv m ρ c j
  show Gnn.tanhAffineArr _ _ (Gnn.rowOf (V11 m ρ c main_v115 : S1x1.Idx → EReal)) = _
  rw [hb]

/-! ## The two results -/

/-- The first result buffer ends holding the reference's first result stage of the same arguments. -/
theorem result0 : (W13 m ρ c (Proc.devRef .tc main_v116_0) : S64x6158.Idx → EReal) = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Stretch6.keep_main_v116_0 (W12 m ρ c)).trans (policy12 m ρ c)

/-- The second result buffer ends holding the reference's second result stage of the same arguments. -/
theorem result1 : (W13 m ρ c (Proc.devRef .tc main_v117) : S64.Idx → EReal) = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) :=
  Stretch6.value_eq (W12 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (value12 m ρ c)

end Cert.KernelIdeal.Walk

end
-- ==== Proof.Claims.lean ====
/-
  The five claims.

  The three frames: the two kernel programs' are generated; the reference's is its generated run with the results
  dropped. The idealization rewrote nothing, so "preserves" is the trivial statement.
  The algebraic claim: from memories that agree on the twelve arguments, the idealized kernel ends with its two result
  buffers holding the reference's two result stages of ITS arguments (Proof/Walk.lean, read off the run of
  Proof/KernelRun.lean), and the reference ends with its two results at the same stages of its own arguments (its
  generated run and reading); the arguments agree, so the results are equal. Both programs compute
  relu(x.W_encᵀ + b_enc), four rounds of relu(mean_neighbours(h).Wlᵀ + bl + h.Wrᵀ) + h, a mean pool per graph, and the
  heads g.Wpᵀ + bp and tanh(g.Wvᵀ + bv); the only differences are where transposes and reshapes of the weights happen
  and that the kernel forms its matrix products tile by tile, and on the extended reals neither changes a value. The
  precondition (finite inputs) is not needed and is not used.
-/
import proofs.«126712_j22737556865376_1_alg».proof.Defs
import proofs.«126712_j22737556865376_1_alg».proof.Proof.Gen.Kernel.Frame
import proofs.«126712_j22737556865376_1_alg».proof.Proof.Gen.KernelIdeal.Frame
import proofs.«126712_j22737556865376_1_alg».proof.Proof.Gen.ReferenceIdeal.Run
import proofs.«126712_j22737556865376_1_alg».proof.Proof.Gen.ReferenceIdeal.Read
import proofs.«126712_j22737556865376_1_alg».proof.Proof.Gen.Pre_finite_inputs
import proofs.«126712_j22737556865376_1_alg».proof.Proof.Walk

set_option maxRecDepth 16384
set_option maxHeartbeats 1000000

noncomputable section

namespace Cert.Proof.GnnClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Equal arguments give equal results: both programs end at the reference's result stages of the kernel's arguments. -/
theorem algebraic : Cert.algebraic_KernelIdeal_ReferenceIdeal := by
  intro m ρ m' ρ' _ hagree
  refine ⟨fun c => Cert.ReferenceIdeal.Read.val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Named.run_all (F := Ideal) m ρ)
    exact ⟨(h c _ (Cert.KernelIdeal.Named.mem_unscoped Cert.KernelIdeal.main_v116_0 (by decide))).trans (Cert.KernelIdeal.Walk.result0 m ρ c),
      (h c _ (Cert.KernelIdeal.Named.mem_unscoped Cert.KernelIdeal.main_v117 (by decide))).trans (Cert.KernelIdeal.Walk.result1 m ρ c),
      (h c _ (Cert.KernelIdeal.Named.mem_unscoped Cert.KernelIdeal.main_arg0 (by decide))).trans (Cert.KernelIdeal.Gen.W13_main_arg0 m ρ c),
      (h c _ (Cert.KernelIdeal.Named.mem_unscoped Cert.KernelIdeal.main_arg1 (by decide))).trans (Cert.KernelIdeal.Gen.W13_main_arg1 m ρ c),
      (h c _ (Cert.KernelIdeal.Named.mem_unscoped Cert.KernelIdeal.main_arg2 (by decide))).trans (Cert.KernelIdeal.Gen.W13_main_arg2 m ρ c),
      (h c _ (Cert.KernelIdeal.Named.mem_unscoped Cert.KernelIdeal.main_arg3 (by decide))).trans (Cert.KernelIdeal.Gen.W13_main_arg3 m ρ c),
      (h c _ (Cert.KernelIdeal.Named.mem_unscoped Cert.KernelIdeal.main_arg4 (by decide))).trans (Cert.KernelIdeal.Gen.W13_main_arg4 m ρ c),
      (h c _ (Cert.KernelIdeal.Named.mem_unscoped Cert.KernelIdeal.main_arg5 (by decide))).trans (Cert.KernelIdeal.Gen.W13_main_arg5 m ρ c),
      (h c _ (Cert.KernelIdeal.Named.mem_unscoped Cert.KernelIdeal.main_arg6 (by decide))).trans (Cert.KernelIdeal.Gen.W13_main_arg6 m ρ c),
      (h c _ (Cert.KernelIdeal.Named.mem_unscoped Cert.KernelIdeal.main_arg7 (by decide))).trans (Cert.KernelIdeal.Gen.W13_main_arg7 m ρ c),
      (h c _ (Cert.KernelIdeal.Named.mem_unscoped Cert.KernelIdeal.main_arg8 (by decide))).trans (Cert.KernelIdeal.Gen.W13_main_arg8 m ρ c),
      (h c _ (Cert.KernelIdeal.Named.mem_unscoped Cert.KernelIdeal.main_arg9 (by decide))).trans (Cert.KernelIdeal.Gen.W13_main_arg9 m ρ c),
      (h c _ (Cert.KernelIdeal.Named.mem_unscoped Cert.KernelIdeal.main_arg10 (by decide))).trans (Cert.KernelIdeal.Gen.W13_main_arg10 m ρ c),
      (h c _ (Cert.KernelIdeal.Named.mem_unscoped Cert.KernelIdeal.main_arg11 (by decide))).trans (Cert.KernelIdeal.Gen.W13_main_arg11 m ρ c)⟩
  · refine (θ_run Cert.ReferenceIdeal.defs _ _).mono (fun r h c => ?_) (Cert.ReferenceIdeal.Value.run (F := Ideal) m' ρ')
    obtain ⟨e0, e1, e2, e3, e4, e5, e6, e7, e8, e9, e10, e11⟩ := hagree c
    refine ⟨(h c).1.trans ?_, (h c).2.1.trans ?_, (h c).2.2⟩
    · rw [Cert.ReferenceIdeal.Read.val_main_v147_eq, e0, e1, e2, e3, e4, e5, e6, e7, e8, e9]
    · rw [Cert.ReferenceIdeal.Read.val_main_v154_eq, e0, e1, e2, e3, e4, e5, e6, e7, e10, e11]

end Cert.Proof.GnnClaims

end
-- ==== Proof.lean ====
/-
  The certificate of the graph policy network's kernel against its reference: the five claims of Defs.lean.

  The kernel program is six tiled regions (an encoder, four message-passing updates, the two heads) among stretches of
  host operations (degree counting, gathers and scatter-adds for the neighbour means, the mean pool, transposes and
  reshapes of the weights); the reference is one line of host operations. The witnesses of the programs' stated side
  conditions come first; the claims themselves are proved in Proof/Claims.lean, from
    Proof/KernelRun.lean   the kernel's run with every final buffer named,
    Proof/Encode.lean, Sage1–4.lean, Heads.lean   what each region's output array holds,
    Proof/Stretch0–6.lean  what each host stretch writes and keeps,
    Proof/Walk.lean        the walk from the launch memory to the two results,
    Proof/RefStages.lean   the reference's stages as the same dense steps,
    Proof/Tiles.lean, Whole.lean, Layout.lean, LibPlainDot*.lean   the arithmetic and the layouts, program-free.
-/
import proofs.«126712_j22737556865376_1_alg».proof.Defs
import proofs.«126712_j22737556865376_1_alg».proof.Proof.Gen.Kernel
import proofs.«126712_j22737556865376_1_alg».proof.Proof.Gen.Kernel.Skeleton
import proofs.«126712_j22737556865376_1_alg».proof.Proof.Gen.Kernel.Launch
import proofs.«126712_j22737556865376_1_alg».proof.Proof.Gen.Kernel.Points
import proofs.«126712_j22737556865376_1_alg».proof.Proof.Gen.Kernel.Frame
import proofs.«126712_j22737556865376_1_alg».proof.Proof.Gen.KernelIdeal
import proofs.«126712_j22737556865376_1_alg».proof.Proof.Gen.KernelIdeal.Skeleton
import proofs.«126712_j22737556865376_1_alg».proof.Proof.Gen.KernelIdeal.Launch
import proofs.«126712_j22737556865376_1_alg».proof.Proof.Gen.KernelIdeal.Points
import proofs.«126712_j22737556865376_1_alg».proof.Proof.Gen.KernelIdeal.Frame
import proofs.«126712_j22737556865376_1_alg».proof.Proof.Gen.ReferenceIdeal
import proofs.«126712_j22737556865376_1_alg».proof.Proof.Gen.ReferenceIdeal.Run
import proofs.«126712_j22737556865376_1_alg».proof.Proof.Gen.ReferenceIdeal.Read
import proofs.«126712_j22737556865376_1_alg».proof.Proof.Gen.Pre_finite_inputs
import proofs.«126712_j22737556865376_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GnnClaims.frame_k, GnnClaims.frame_ki, GnnClaims.frame_ri, GnnClaims.preserves, GnnClaims.algebraic⟩

end Cert.Proof

end
